-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v129)) (v1 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x64 .f32) (main_arg9 : FVec F S64 .f32) (main_arg10 : FVec F S64x128 .f32) (main_arg11 : FVec F S128 .f32) (main_arg12 : FVec F S128x128 .f32) (main_arg13 : FVec F S128 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S64x128 .f32) (main_arg11 : FVec F S128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S64x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 166
  | .vmem => 64
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64x128, .f32⟩
  | 11 => ⟨S128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S800000x1, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000x1, .f32⟩
  | 89 => ⟨S50000x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x1, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x64, .f32⟩
  | 127 => ⟨S800000x1, .f32⟩
  | _ => ⟨S50000x128, .f32⟩

abbrev hbmTy0_1 (i : Nat) : BufTy := match i % 128 with
  | 0 => ⟨S800000x64, .f32⟩
  | 1 => ⟨S800000x64, .f32⟩
  | 2 => ⟨S_, .f32⟩
  | 3 => ⟨S50000x64, .f32⟩
  | 4 => ⟨S800000x1, .i32⟩
  | 5 => ⟨S50000x64, .f32⟩
  | 6 => ⟨S50000x1, .f32⟩
  | 7 => ⟨S50000x64, .f32⟩
  | 8 => ⟨S50000x64, .f32⟩
  | 9 => ⟨S50000x64, .f32⟩
  | 10 => ⟨S1x64, .f32⟩
  | 11 => ⟨S50000x64, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x1, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S128x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S1x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_11 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_14 : Ref sig .tc := ⟨.hbm, 118, rfl⟩
abbrev main_v88 : Ref sig .tc := ⟨.hbm, 119, rfl⟩
abbrev main_v89 : Ref sig .tc := ⟨.hbm, 120, rfl⟩
abbrev main_c_15 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_16 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_c_17 : Ref sig .tc := ⟨.hbm, 141, rfl⟩
abbrev main_v108 : Ref sig .tc := ⟨.hbm, 142, rfl⟩
abbrev main_v109 : Ref sig .tc := ⟨.hbm, 143, rfl⟩
abbrev main_c_18 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_19 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg2_1 : Ref sig .tc := ⟨.vmem, 51, rfl⟩
abbrev cc10_stg0_0 : Ref sig .tc := ⟨.vmem, 52, rfl⟩
abbrev cc10_stg0_1 : Ref sig .tc := ⟨.vmem, 53, rfl⟩
abbrev cc10_stg1_0 : Ref sig .tc := ⟨.vmem, 54, rfl⟩
abbrev cc10_stg2_0 : Ref sig .tc := ⟨.vmem, 55, rfl⟩
abbrev cc10_stg2_1 : Ref sig .tc := ⟨.vmem, 56, rfl⟩
abbrev cc11_stg0_0 : Ref sig .tc := ⟨.vmem, 57, rfl⟩
abbrev cc11_stg0_1 : Ref sig .tc := ⟨.vmem, 58, rfl⟩
abbrev cc11_stg1_0 : Ref sig .tc := ⟨.vmem, 59, rfl⟩
abbrev cc11_stg2_0 : Ref sig .tc := ⟨.vmem, 60, rfl⟩
abbrev cc11_stg2_1 : Ref sig .tc := ⟨.vmem, 61, rfl⟩
abbrev cc11_stg3_0 : Ref sig .tc := ⟨.vmem, 62, rfl⟩
abbrev cc11_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem2_1 : DmaSem sig := 46
abbrev cc9_sem0_0 : DmaSem sig := 47
abbrev cc9_sem0_1 : DmaSem sig := 48
abbrev cc9_sem1_0 : DmaSem sig := 49
abbrev cc9_sem2_0 : DmaSem sig := 50
abbrev cc9_sem2_1 : DmaSem sig := 51
abbrev cc10_sem0_0 : DmaSem sig := 52
abbrev cc10_sem0_1 : DmaSem sig := 53
abbrev cc10_sem1_0 : DmaSem sig := 54
abbrev cc10_sem2_0 : DmaSem sig := 55
abbrev cc10_sem2_1 : DmaSem sig := 56
abbrev cc11_sem0_0 : DmaSem sig := 57
abbrev cc11_sem0_1 : DmaSem sig := 58
abbrev cc11_sem1_0 : DmaSem sig := 59
abbrev cc11_sem2_0 : DmaSem sig := 60
abbrev cc11_sem2_1 : DmaSem sig := 61
abbrev cc11_sem3_0 : DmaSem sig := 62
abbrev cc11_sem3_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S50000x128.size a
  hwx9_2 : ∀ i : grid9.Coords, EltTy.bits .f32 = 32 ∨ (Rect.block (s := S50000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S50000x128.size a
  hwx10_2 : ∀ i : grid10.Coords, EltTy.bits .f32 = 32 ∨ (Rect.block (s := S50000x128) S2000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S50000x128.size a
  hwx11_2 : ∀ i : grid11.Coords, EltTy.bits .f32 = 32 ∨ (Rect.block (s := S50000x128) S2000x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S50000x128.size a
  hwx11_3 : ∀ i : grid11.Coords, EltTy.bits .f32 = 32 ∨ (Rect.block (s := S50000x128) S2000x128.size (cc11_transform_3 i) (hinb11_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v86) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S2000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v106) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v107) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v124) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v125) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v126) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v126) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v127) S2000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v127) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v128) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg0) S2000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v129) S2000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 322
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64x128, .f32⟩
  | 11 => ⟨S128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .i1⟩
  | 75 => ⟨S_, .f32⟩
  | 76 => ⟨S50000x128, .f32⟩
  | 77 => ⟨S50000x128, .f32⟩
  | 78 => ⟨S50000x128, .f32⟩
  | 79 => ⟨S50000x128, .f32⟩
  | 80 => ⟨S_, .f32⟩
  | 81 => ⟨S800000, .f32⟩
  | 82 => ⟨S_, .f32⟩
  | 83 => ⟨S50000, .f32⟩
  | 84 => ⟨S800000x1, .i32⟩
  | 85 => ⟨S50000, .f32⟩
  | 86 => ⟨S_, .f32⟩
  | 87 => ⟨S50000, .f32⟩
  | 88 => ⟨S50000, .f32⟩
  | 89 => ⟨S50000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S800000x1, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .i1⟩
  | 8 => ⟨S_, .f32⟩
  | 9 => ⟨S50000x128, .f32⟩
  | 10 => ⟨S50000x128, .f32⟩
  | 11 => ⟨S50000x128, .f32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .i1⟩
  | 69 => ⟨S_, .f32⟩
  | 70 => ⟨S50000x128, .f32⟩
  | 71 => ⟨S50000x128, .f32⟩
  | 72 => ⟨S50000x128, .f32⟩
  | 73 => ⟨S50000x128, .f32⟩
  | 74 => ⟨S50000x64, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x1, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S50000, .f32⟩
  | 121 => ⟨S50000x1, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_2 (i : Nat) : BufTy := match i % 128 with
  | 0 => ⟨S50000x128, .f32⟩
  | 1 => ⟨S_, .f32⟩
  | 2 => ⟨S800000, .f32⟩
  | 3 => ⟨S_, .f32⟩
  | 4 => ⟨S50000, .f32⟩
  | 5 => ⟨S800000x1, .i32⟩
  | 6 => ⟨S50000, .f32⟩
  | 7 => ⟨S_, .f32⟩
  | 8 => ⟨S50000, .f32⟩
  | 9 => ⟨S50000, .f32⟩
  | 10 => ⟨S50000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .f32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S800000x1, .f32⟩
  | 40 => ⟨S800000x128, .f32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000, .f32⟩
  | 47 => ⟨S50000x1, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .i1⟩
  | 57 => ⟨S_, .f32⟩
  | 58 => ⟨S50000x128, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_v98 : Ref sig .tc := ⟨.hbm, 135, rfl⟩
abbrev main_cst_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_22 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_24 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_27 : Ref sig .tc := ⟨.hbm, 160, rfl⟩
abbrev main_v117 : Ref sig .tc := ⟨.hbm, 161, rfl⟩
abbrev main_v118 : Ref sig .tc := ⟨.hbm, 162, rfl⟩
abbrev main_c_28 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_c_29 : Ref sig .tc := ⟨.hbm, 170, rfl⟩
abbrev main_v125 : Ref sig .tc := ⟨.hbm, 171, rfl⟩
abbrev main_v126 : Ref sig .tc := ⟨.hbm, 172, rfl⟩
abbrev main_c_30 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_31 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_32 : Ref sig .tc := ⟨.hbm, 194, rfl⟩
abbrev main_v146 : Ref sig .tc := ⟨.hbm, 195, rfl⟩
abbrev main_v147 : Ref sig .tc := ⟨.hbm, 196, rfl⟩
abbrev main_cst_33 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_34 : Ref sig .tc := ⟨.hbm, 203, rfl⟩
abbrev main_v153 : Ref sig .tc := ⟨.hbm, 204, rfl⟩
abbrev main_cst_35 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_36 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_c_37 : Ref sig .tc := ⟨.hbm, 213, rfl⟩
abbrev main_v160 : Ref sig .tc := ⟨.hbm, 214, rfl⟩
abbrev main_v161 : Ref sig .tc := ⟨.hbm, 215, rfl⟩
abbrev main_c_38 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_39 : Ref sig .tc := ⟨.hbm, 222, rfl⟩
abbrev main_v167 : Ref sig .tc := ⟨.hbm, 223, rfl⟩
abbrev main_v168 : Ref sig .tc := ⟨.hbm, 224, rfl⟩
abbrev main_c_40 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_41 : Ref sig .tc := ⟨.hbm, 232, rfl⟩
abbrev main_v175 : Ref sig .tc := ⟨.hbm, 233, rfl⟩
abbrev main_v176 : Ref sig .tc := ⟨.hbm, 234, rfl⟩
abbrev main_c_42 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_cst_43 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_cst_44 : Ref sig .tc := ⟨.hbm, 257, rfl⟩
abbrev main_v197 : Ref sig .tc := ⟨.hbm, 258, rfl⟩
abbrev main_cst_45 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_cst_46 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_c_47 : Ref sig .tc := ⟨.hbm, 267, rfl⟩
abbrev main_v204 : Ref sig .tc := ⟨.hbm, 268, rfl⟩
abbrev main_v205 : Ref sig .tc := ⟨.hbm, 269, rfl⟩
abbrev main_c_48 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_c_49 : Ref sig .tc := ⟨.hbm, 276, rfl⟩
abbrev main_v211 : Ref sig .tc := ⟨.hbm, 277, rfl⟩
abbrev main_v212 : Ref sig .tc := ⟨.hbm, 278, rfl⟩
abbrev main_c_50 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_c_51 : Ref sig .tc := ⟨.hbm, 286, rfl⟩
abbrev main_v219 : Ref sig .tc := ⟨.hbm, 287, rfl⟩
abbrev main_v220 : Ref sig .tc := ⟨.hbm, 288, rfl⟩
abbrev main_c_52 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_53 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_cst_54 : Ref sig .tc := ⟨.hbm, 310, rfl⟩
abbrev main_v240 : Ref sig .tc := ⟨.hbm, 311, rfl⟩
abbrev main_v241 : Ref sig .tc := ⟨.hbm, 312, rfl⟩
abbrev main_cst_55 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.RefWalk.lean ====
/-
  The reference program's buffers followed through its 308 host operations, a half layer at a time. The operations are
  cut before and after each layer's activation into ten stretches; U k is the buffer contents after the first k
  stretches, from the launch memory. Each lemma says what one buffer holds at one cut, as the reference's own stage
  function of the fourteen argument arrays: an argument array is never written; the two edge endpoint vectors are
  computed once, in the first stretch; a layer's pre-activation is that layer's operations (product with the weight,
  the degree normalisation computed again, gather along the edges, weighted scatter-add to the destination rows,
  self-weighted rows, bias) applied to the previous activation; the activation is the rectifier of it, in the third
  layer plus the residual. The fold over all the operations is the fold over the stretches in turn, so the two result
  buffers end at the last stages.
-/
import proofs.«104783_j47433618817228_1_alg».proof.Proof.RunP
import proofs.«104783_j47433618817228_1_alg».proof.Proof.ReadP
import Idealize.ShloMosaic.PureOps.Ideal

set_option maxRecDepth 16384

noncomputable section

namespace Cert.ReferenceIdeal.WalkR

open Idealize.ShloMosaic Idealize.ShloMosaic.TcCoe Idealize.SL.Sem Idealize.ShloMosaic.StableHlo
open Cert.ReferenceIdeal Cert.ReferenceIdeal.Gen Cert.ReferenceIdeal.ValueP

/-- The fold of a concatenation is the fold of the second list from the fold of the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (c : Dev nD)

/-- The buffer contents after the first k stretches. -/
def U0 : Valuation τ sig (Elt Ideal) := launchContents m c
def U1 : Valuation τ sig (Elt Ideal) := after seg0 (U0 m c)
def U2 : Valuation τ sig (Elt Ideal) := after seg1 (U1 m c)
def U3 : Valuation τ sig (Elt Ideal) := after seg2 (U2 m c)
def U4 : Valuation τ sig (Elt Ideal) := after seg3 (U3 m c)
def U5 : Valuation τ sig (Elt Ideal) := after seg4 (U4 m c)
def U6 : Valuation τ sig (Elt Ideal) := after seg5 (U5 m c)
def U7 : Valuation τ sig (Elt Ideal) := after seg6 (U6 m c)
def U8 : Valuation τ sig (Elt Ideal) := after seg7 (U7 m c)
def U9 : Valuation τ sig (Elt Ideal) := after seg8 (U8 m c)
def U10 : Valuation τ sig (Elt Ideal) := after seg9 (U9 m c)

/-- The fold over all 308 operations is the fold over the ten stretches in turn. -/
theorem after_ops : after ops (launchContents m c) = U10 m c := by
  rw [ops_eq, after_append, after_append, after_append, after_append, after_append, after_append, after_append, after_append, after_append]
  rfl

/-! ## The rectifier's select is an outlined call: its typed references carry the value through a change of type that is the identity -/

theorem ofBuf_v49 (p1 p2 p3) (v : main_v49.ty.Contents (Elt Ideal)) :
    (TRef.of (sig := sig) (T := ⟨S50000x128, .i1⟩) main_v49 p1 p2 p3).ofBuf v = v := eq_of_heq (cast_heq _ _)
theorem ofBuf_v47 (p1 p2 p3) (v : main_v47.ty.Contents (Elt Ideal)) :
    (TRef.of (sig := sig) (T := ⟨S50000x128, .f32⟩) main_v47 p1 p2 p3).ofBuf v = v := eq_of_heq (cast_heq _ _)
theorem ofBuf_v51 (p1 p2 p3) (v : main_v51.ty.Contents (Elt Ideal)) :
    (TRef.of (sig := sig) (T := ⟨S50000x128, .f32⟩) main_v51 p1 p2 p3).ofBuf v = v := eq_of_heq (cast_heq _ _)
theorem toBuf_v52 (p1 p2 p3) (v : (⟨S50000x128, .f32⟩ : BufTy).Contents (Elt Ideal)) :
    (TRef.of (sig := sig) (T := ⟨S50000x128, .f32⟩) main_v52 p1 p2 p3).toBuf v = v := eq_of_heq (cast_heq _ _)

theorem ofBuf_v98 (p1 p2 p3) (v : main_v98.ty.Contents (Elt Ideal)) :
    (TRef.of (sig := sig) (T := ⟨S50000x128, .i1⟩) main_v98 p1 p2 p3).ofBuf v = v := eq_of_heq (cast_heq _ _)
theorem ofBuf_v96 (p1 p2 p3) (v : main_v96.ty.Contents (Elt Ideal)) :
    (TRef.of (sig := sig) (T := ⟨S50000x128, .f32⟩) main_v96 p1 p2 p3).ofBuf v = v := eq_of_heq (cast_heq _ _)
theorem ofBuf_v100 (p1 p2 p3) (v : main_v100.ty.Contents (Elt Ideal)) :
    (TRef.of (sig := sig) (T := ⟨S50000x128, .f32⟩) main_v100 p1 p2 p3).ofBuf v = v := eq_of_heq (cast_heq _ _)
theorem toBuf_v101 (p1 p2 p3) (v : (⟨S50000x128, .f32⟩ : BufTy).Contents (Elt Ideal)) :
    (TRef.of (sig := sig) (T := ⟨S50000x128, .f32⟩) main_v101 p1 p2 p3).toBuf v = v := eq_of_heq (cast_heq _ _)

theorem ofBuf_v147 (p1 p2 p3) (v : main_v147.ty.Contents (Elt Ideal)) :
    (TRef.of (sig := sig) (T := ⟨S50000x128, .i1⟩) main_v147 p1 p2 p3).ofBuf v = v := eq_of_heq (cast_heq _ _)
theorem ofBuf_v145 (p1 p2 p3) (v : main_v145.ty.Contents (Elt Ideal)) :
    (TRef.of (sig := sig) (T := ⟨S50000x128, .f32⟩) main_v145 p1 p2 p3).ofBuf v = v := eq_of_heq (cast_heq _ _)
theorem ofBuf_v149 (p1 p2 p3) (v : main_v149.ty.Contents (Elt Ideal)) :
    (TRef.of (sig := sig) (T := ⟨S50000x128, .f32⟩) main_v149 p1 p2 p3).ofBuf v = v := eq_of_heq (cast_heq _ _)
theorem toBuf_v150 (p1 p2 p3) (v : (⟨S50000x128, .f32⟩ : BufTy).Contents (Elt Ideal)) :
    (TRef.of (sig := sig) (T := ⟨S50000x128, .f32⟩) main_v150 p1 p2 p3).toBuf v = v := eq_of_heq (cast_heq _ _)

theorem ofBuf_v241 (p1 p2 p3) (v : main_v241.ty.Contents (Elt Ideal)) :
    (TRef.of (sig := sig) (T := ⟨S50000x128, .i1⟩) main_v241 p1 p2 p3).ofBuf v = v := eq_of_heq (cast_heq _ _)
theorem ofBuf_v239 (p1 p2 p3) (v : main_v239.ty.Contents (Elt Ideal)) :
    (TRef.of (sig := sig) (T := ⟨S50000x128, .f32⟩) main_v239 p1 p2 p3).ofBuf v = v := eq_of_heq (cast_heq _ _)
theorem ofBuf_v243 (p1 p2 p3) (v : main_v243.ty.Contents (Elt Ideal)) :
    (TRef.of (sig := sig) (T := ⟨S50000x128, .f32⟩) main_v243 p1 p2 p3).ofBuf v = v := eq_of_heq (cast_heq _ _)
theorem toBuf_v244 (p1 p2 p3) (v : (⟨S50000x128, .f32⟩ : BufTy).Contents (Elt Ideal)) :
    (TRef.of (sig := sig) (T := ⟨S50000x128, .f32⟩) main_v244 p1 p2 p3).toBuf v = v := eq_of_heq (cast_heq _ _)

/-! ## The launch memory -/

theorem r0_arg1 : U0 m c (Proc.devRef .tc main_arg1) = m ((c.tc : Thread nD τ).loc main_arg1) := rfl
theorem r0_arg0 : U0 m c (Proc.devRef .tc main_arg0) = m ((c.tc : Thread nD τ).loc main_arg0) := rfl
theorem r0_arg2 : U0 m c (Proc.devRef .tc main_arg2) = m ((c.tc : Thread nD τ).loc main_arg2) := rfl
theorem r0_arg3 : U0 m c (Proc.devRef .tc main_arg3) = m ((c.tc : Thread nD τ).loc main_arg3) := rfl
theorem r0_arg4 : U0 m c (Proc.devRef .tc main_arg4) = m ((c.tc : Thread nD τ).loc main_arg4) := rfl
theorem r0_arg5 : U0 m c (Proc.devRef .tc main_arg5) = m ((c.tc : Thread nD τ).loc main_arg5) := rfl
theorem r0_arg6 : U0 m c (Proc.devRef .tc main_arg6) = m ((c.tc : Thread nD τ).loc main_arg6) := rfl
theorem r0_arg7 : U0 m c (Proc.devRef .tc main_arg7) = m ((c.tc : Thread nD τ).loc main_arg7) := rfl
theorem r0_arg8 : U0 m c (Proc.devRef .tc main_arg8) = m ((c.tc : Thread nD τ).loc main_arg8) := rfl
theorem r0_arg9 : U0 m c (Proc.devRef .tc main_arg9) = m ((c.tc : Thread nD τ).loc main_arg9) := rfl
theorem r0_arg10 : U0 m c (Proc.devRef .tc main_arg10) = m ((c.tc : Thread nD τ).loc main_arg10) := rfl
theorem r0_arg11 : U0 m c (Proc.devRef .tc main_arg11) = m ((c.tc : Thread nD τ).loc main_arg11) := rfl
theorem r0_arg12 : U0 m c (Proc.devRef .tc main_arg12) = m ((c.tc : Thread nD τ).loc main_arg12) := rfl
theorem r0_arg13 : U0 m c (Proc.devRef .tc main_arg13) = m ((c.tc : Thread nD τ).loc main_arg13) := rfl

/-! ## After stretch 0 (operations 0 to 57) -/

/-- Written in this stretch: its operations' composed term, the earlier buffers at their stages, is this stage unfolded. -/
theorem r1_v3 : U1 m c (Proc.devRef .tc main_v3) = Cert.ReferenceIdeal.ReadP.val_main_v3 (F := Ideal) (m ((c.tc : Thread nD τ).loc main_arg1)) := by
  show after seg0 (U0 m c) (Proc.devRef .tc main_v3) = _
  after_results_simp
  simp only [r0_arg1 m c]
  simp only [Cert.ReferenceIdeal.ReadP.val_main_v3, Cert.ReferenceIdeal.ReadP.val_main_v2] <;> rfl

/-- Written in this stretch: its operations' composed term, the earlier buffers at their stages, is this stage unfolded. -/
theorem r1_v47 : U1 m c (Proc.devRef .tc main_v47) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) := by
  show after seg0 (U0 m c) (Proc.devRef .tc main_v47) = _
  after_results_simp
  simp only [r0_arg1 m c, r0_arg0 m c, r0_arg2 m c, r0_arg3 m c]
  simp only [Cert.ReferenceIdeal.ReadP.val_main_v47, Cert.ReferenceIdeal.ReadP.val_main_v44, Cert.ReferenceIdeal.ReadP.val_main_v39, Cert.ReferenceIdeal.ReadP.val_main_v37, Cert.ReferenceIdeal.ReadP.val_main_cst_7, Cert.ReferenceIdeal.ReadP.val_main_v38, Cert.ReferenceIdeal.ReadP.val_main_v3, Cert.ReferenceIdeal.ReadP.val_main_v2, Cert.ReferenceIdeal.ReadP.val_main_v36, Cert.ReferenceIdeal.ReadP.val_main_v33, Cert.ReferenceIdeal.ReadP.val_main_v4, Cert.ReferenceIdeal.ReadP.val_main_v32, Cert.ReferenceIdeal.ReadP.val_main_v31, Cert.ReferenceIdeal.ReadP.val_main_v28, Cert.ReferenceIdeal.ReadP.val_main_v1, Cert.ReferenceIdeal.ReadP.val_main_v0, Cert.ReferenceIdeal.ReadP.val_main_v27, Cert.ReferenceIdeal.ReadP.val_main_c_5, Cert.ReferenceIdeal.ReadP.val_main_v30, Cert.ReferenceIdeal.ReadP.val_main_v29, Cert.ReferenceIdeal.ReadP.val_main_c_6, Cert.ReferenceIdeal.ReadP.val_main_v35, Cert.ReferenceIdeal.ReadP.val_main_v34, Cert.ReferenceIdeal.ReadP.val_main_v26, Cert.ReferenceIdeal.ReadP.val_main_v18, Cert.ReferenceIdeal.ReadP.val_main_v11, Cert.ReferenceIdeal.ReadP.val_main_v10, Cert.ReferenceIdeal.ReadP.val_main_v8, Cert.ReferenceIdeal.ReadP.val_main_v6, Cert.ReferenceIdeal.ReadP.val_main_cst_0, Cert.ReferenceIdeal.ReadP.val_main_v7, Cert.ReferenceIdeal.ReadP.val_main_v5, Cert.ReferenceIdeal.ReadP.val_main_cst, Cert.ReferenceIdeal.ReadP.val_main_v9, Cert.ReferenceIdeal.ReadP.val_main_cst_1, Cert.ReferenceIdeal.ReadP.val_main_v17, Cert.ReferenceIdeal.ReadP.val_main_v16, Cert.ReferenceIdeal.ReadP.val_main_v13, Cert.ReferenceIdeal.ReadP.val_main_v12, Cert.ReferenceIdeal.ReadP.val_main_c, Cert.ReferenceIdeal.ReadP.val_main_v15, Cert.ReferenceIdeal.ReadP.val_main_v14, Cert.ReferenceIdeal.ReadP.val_main_c_2, Cert.ReferenceIdeal.ReadP.val_main_v25, Cert.ReferenceIdeal.ReadP.val_main_v24, Cert.ReferenceIdeal.ReadP.val_main_v23, Cert.ReferenceIdeal.ReadP.val_main_v20, Cert.ReferenceIdeal.ReadP.val_main_v19, Cert.ReferenceIdeal.ReadP.val_main_c_3, Cert.ReferenceIdeal.ReadP.val_main_v22, Cert.ReferenceIdeal.ReadP.val_main_v21, Cert.ReferenceIdeal.ReadP.val_main_c_4, Cert.ReferenceIdeal.ReadP.val_main_v43, Cert.ReferenceIdeal.ReadP.val_main_v42, Cert.ReferenceIdeal.ReadP.val_main_v41, Cert.ReferenceIdeal.ReadP.val_main_v40, Cert.ReferenceIdeal.ReadP.val_main_v46, Cert.ReferenceIdeal.ReadP.val_main_v45] <;> rfl

theorem r1_arg4 : U1 m c (Proc.devRef .tc main_arg4) = m ((c.tc : Thread nD τ).loc main_arg4) :=
  (by after_results_simp : after seg0 (U0 m c) (Proc.devRef .tc main_arg4) = U0 m c (Proc.devRef .tc main_arg4)).trans (r0_arg4 m c)

/-- Written in this stretch: its operations' composed term, the earlier buffers at their stages, is this stage unfolded. -/
theorem r1_v1 : U1 m c (Proc.devRef .tc main_v1) = Cert.ReferenceIdeal.ReadP.val_main_v1 (F := Ideal) (m ((c.tc : Thread nD τ).loc main_arg1)) := by
  show after seg0 (U0 m c) (Proc.devRef .tc main_v1) = _
  after_results_simp
  simp only [r0_arg1 m c]
  simp only [Cert.ReferenceIdeal.ReadP.val_main_v1, Cert.ReferenceIdeal.ReadP.val_main_v0] <;> rfl

theorem r1_arg5 : U1 m c (Proc.devRef .tc main_arg5) = m ((c.tc : Thread nD τ).loc main_arg5) :=
  (by after_results_simp : after seg0 (U0 m c) (Proc.devRef .tc main_arg5) = U0 m c (Proc.devRef .tc main_arg5)).trans (r0_arg5 m c)

theorem r1_arg6 : U1 m c (Proc.devRef .tc main_arg6) = m ((c.tc : Thread nD τ).loc main_arg6) :=
  (by after_results_simp : after seg0 (U0 m c) (Proc.devRef .tc main_arg6) = U0 m c (Proc.devRef .tc main_arg6)).trans (r0_arg6 m c)

theorem r1_arg7 : U1 m c (Proc.devRef .tc main_arg7) = m ((c.tc : Thread nD τ).loc main_arg7) :=
  (by after_results_simp : after seg0 (U0 m c) (Proc.devRef .tc main_arg7) = U0 m c (Proc.devRef .tc main_arg7)).trans (r0_arg7 m c)

theorem r1_arg8 : U1 m c (Proc.devRef .tc main_arg8) = m ((c.tc : Thread nD τ).loc main_arg8) :=
  (by after_results_simp : after seg0 (U0 m c) (Proc.devRef .tc main_arg8) = U0 m c (Proc.devRef .tc main_arg8)).trans (r0_arg8 m c)

theorem r1_arg9 : U1 m c (Proc.devRef .tc main_arg9) = m ((c.tc : Thread nD τ).loc main_arg9) :=
  (by after_results_simp : after seg0 (U0 m c) (Proc.devRef .tc main_arg9) = U0 m c (Proc.devRef .tc main_arg9)).trans (r0_arg9 m c)

theorem r1_arg10 : U1 m c (Proc.devRef .tc main_arg10) = m ((c.tc : Thread nD τ).loc main_arg10) :=
  (by after_results_simp : after seg0 (U0 m c) (Proc.devRef .tc main_arg10) = U0 m c (Proc.devRef .tc main_arg10)).trans (r0_arg10 m c)

theorem r1_arg11 : U1 m c (Proc.devRef .tc main_arg11) = m ((c.tc : Thread nD τ).loc main_arg11) :=
  (by after_results_simp : after seg0 (U0 m c) (Proc.devRef .tc main_arg11) = U0 m c (Proc.devRef .tc main_arg11)).trans (r0_arg11 m c)

theorem r1_arg12 : U1 m c (Proc.devRef .tc main_arg12) = m ((c.tc : Thread nD τ).loc main_arg12) :=
  (by after_results_simp : after seg0 (U0 m c) (Proc.devRef .tc main_arg12) = U0 m c (Proc.devRef .tc main_arg12)).trans (r0_arg12 m c)

theorem r1_arg13 : U1 m c (Proc.devRef .tc main_arg13) = m ((c.tc : Thread nD τ).loc main_arg13) :=
  (by after_results_simp : after seg0 (U0 m c) (Proc.devRef .tc main_arg13) = U0 m c (Proc.devRef .tc main_arg13)).trans (r0_arg13 m c)

theorem r1_arg0 : U1 m c (Proc.devRef .tc main_arg0) = m ((c.tc : Thread nD τ).loc main_arg0) :=
  (by after_results_simp : after seg0 (U0 m c) (Proc.devRef .tc main_arg0) = U0 m c (Proc.devRef .tc main_arg0)).trans (r0_arg0 m c)

/-! ## After stretch 1 (operations 58 to 64) -/

theorem r2_v3 : U2 m c (Proc.devRef .tc main_v3) = Cert.ReferenceIdeal.ReadP.val_main_v3 (F := Ideal) (m ((c.tc : Thread nD τ).loc main_arg1)) :=
  (by after_results_simp : after seg1 (U1 m c) (Proc.devRef .tc main_v3) = U1 m c (Proc.devRef .tc main_v3)).trans (r1_v3 m c)

/-- Written in this stretch: its operations' composed term, the earlier buffers at their stages, is this stage unfolded. -/
theorem r2_v52 : U2 m c (Proc.devRef .tc main_v52) = Cert.ReferenceIdeal.ReadP.val_main_v52 (F := Ideal) (m ((c.tc : Thread nD τ).loc main_arg0)) (m ((c.tc : Thread nD τ).loc main_arg1)) (m ((c.tc : Thread nD τ).loc main_arg2)) (m ((c.tc : Thread nD τ).loc main_arg3)) := by
  show after seg1 (U1 m c) (Proc.devRef .tc main_v52) = _
  after_results_simp
  simp only [r1_v47 m c]
  simp only [ofBuf_v49, ofBuf_v47, ofBuf_v51, toBuf_v52]
  simp only [Cert.ReferenceIdeal.ReadP.val_main_v52, Cert.ReferenceIdeal.ReadP.val_main_v49, Cert.ReferenceIdeal.ReadP.val_main_v48, Cert.ReferenceIdeal.ReadP.val_main_cst_8, Cert.ReferenceIdeal.ReadP.val_main_v51, Cert.ReferenceIdeal.ReadP.val_main_v50, Cert.ReferenceIdeal.ReadP.val_main_cst_9] <;> rfl

theorem r2_arg4 : U2 m c (Proc.devRef .tc main_arg4) = m ((c.tc : Thread nD τ).loc main_arg4) :=
  (by after_results_simp : after seg1 (U1 m c) (Proc.devRef .tc main_arg4) = U1 m c (Proc.devRef .tc main_arg4)).trans (r1_arg4 m c)

theorem r2_v1 : U2 m c (Proc.devRef .tc main_v1) = Cert.ReferenceIdeal.ReadP.val_main_v1 (F := Ideal) (m ((c.tc : Thread nD τ).loc main_arg1)) :=
  (by after_results_simp : after seg1 (U1 m c) (Proc.devRef .tc main_v1) = U1 m c (Proc.devRef .tc main_v1)).trans (r1_v1 m c)

theorem r2_arg5 : U2 m c (Proc.devRef .tc main_arg5) = m ((c.tc : Thread nD τ).loc main_arg5) :=
  (by after_results_simp : after seg1 (U1 m c) (Proc.devRef .tc main_arg5) = U1 m c (Proc.devRef .tc main_arg5)).trans (r1_arg5 m c)

theorem r2_arg6 : U2 m c (Proc.devRef .tc main_arg6) = m ((c.tc : Thread nD τ).loc main_arg6) :=
  (by after_results_simp : after seg1 (U1 m c) (Proc.devRef .tc main_arg6) = U1 m c (Proc.devRef .tc main_arg6)).trans (r1_arg6 m c)

theorem r2_arg7 : U2 m c (Proc.devRef .tc main_arg7) = m ((c.tc : Thread nD τ).loc main_arg7) :=
  (by after_results_simp : after seg1 (U1 m c) (Proc.devRef .tc main_arg7) = U1 m c (Proc.devRef .tc main_arg7)).trans (r1_arg7 m c)

theorem r2_arg8 : U2 m c (Proc.devRef .tc main_arg8) = m ((c.tc : Thread nD τ).loc main_arg8) :=
  (by after_results_simp : after seg1 (U1 m c) (Proc.devRef .tc main_arg8) = U1 m c (Proc.devRef .tc main_arg8)).trans (r1_arg8 m c)

theorem r2_arg9 : U2 m c (Proc.devRef .tc main_arg9) = m ((c.tc : Thread nD τ).loc main_arg9) :=
  (by after_results_simp : after seg1 (U1 m c) (Proc.devRef .tc main_arg9) = U1 m c (Proc.devRef .tc main_arg9)).trans (r1_arg9 m c)

theorem r2_arg10 : U2 m c (Proc.devRef .tc main_arg10) = m ((c.tc : Thread nD τ).loc main_arg10) :=
  (by after_results_simp : after seg1 (U1 m c) (Proc.devRef .tc main_arg10) = U1 m c (Proc.devRef .tc main_arg10)).trans (r1_arg10 m c)

theorem r2_arg11 : U2 m c (Proc.devRef .tc main_arg11) = m ((c.tc : Thread nD τ).loc main_arg11) :=
  (by after_results_simp : after seg1 (U1 m c) (Proc.devRef .tc main_arg11) = U1 m c (Proc.devRef .tc main_arg11)).trans (r1_arg11 m c)

theorem r2_arg12 : U2 m c (Proc.devRef .tc main_arg12) = m ((c.tc : Thread nD τ).loc main_arg12) :=
  (by after_results_simp : after seg1 (U1 m c) (Proc.devRef .tc main_arg12) = U1 m c (Proc.devRef .tc main_arg12)).trans (r1_arg12 m c)

theorem r2_arg13 : U2 m c (Proc.devRef .tc main_arg13) = m ((c.tc : Thread nD τ).loc main_arg13) :=
  (by after_results_simp : after seg1 (U1 m c) (Proc.devRef .tc main_arg13) = U1 m c (Proc.devRef .tc main_arg13)).trans (r1_arg13 m c)

theorem r2_arg0 : U2 m c (Proc.devRef .tc main_arg0) = m ((c.tc : Thread nD τ).loc main_arg0) :=
  (by after_results_simp : after seg1 (U1 m c) (Proc.devRef .tc main_arg0) = U1 m c (Proc.devRef .tc main_arg0)).trans (r1_arg0 m c)

/-! ## After stretch 2 (operations 65 to 118) -/

theorem r3_v3 : U3 m c (Proc.devRef .tc main_v3) = Cert.ReferenceIdeal.ReadP.val_main_v3 (F := Ideal) (m ((c.tc : Thread nD τ).loc main_arg1)) :=
  (by after_results_simp : after seg2 (U2 m c) (Proc.devRef .tc main_v3) = U2 m c (Proc.devRef .tc main_v3)).trans (r2_v3 m c)

/-- Written in this stretch: its operations' composed term, the earlier buffers at their stages, is this stage unfolded. -/
theorem r3_v96 : U3 m c (Proc.devRef .tc main_v96) = Cert.ReferenceIdeal.ReadP.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after seg2 (U2 m c) (Proc.devRef .tc main_v96) = _
  after_results_simp
  simp only [r2_v3 m c, r2_v52 m c, r2_arg4 m c, r2_v1 m c, r2_arg5 m c]
  simp only [Cert.ReferenceIdeal.ReadP.val_main_v96, Cert.ReferenceIdeal.ReadP.val_main_v93, Cert.ReferenceIdeal.ReadP.val_main_v88, Cert.ReferenceIdeal.ReadP.val_main_v86, Cert.ReferenceIdeal.ReadP.val_main_cst_19, Cert.ReferenceIdeal.ReadP.val_main_v87, Cert.ReferenceIdeal.ReadP.val_main_v85, Cert.ReferenceIdeal.ReadP.val_main_v82, Cert.ReferenceIdeal.ReadP.val_main_v53, Cert.ReferenceIdeal.ReadP.val_main_v81, Cert.ReferenceIdeal.ReadP.val_main_v80, Cert.ReferenceIdeal.ReadP.val_main_v77, Cert.ReferenceIdeal.ReadP.val_main_v76, Cert.ReferenceIdeal.ReadP.val_main_c_17, Cert.ReferenceIdeal.ReadP.val_main_v79, Cert.ReferenceIdeal.ReadP.val_main_v78, Cert.ReferenceIdeal.ReadP.val_main_c_18, Cert.ReferenceIdeal.ReadP.val_main_v84, Cert.ReferenceIdeal.ReadP.val_main_v83, Cert.ReferenceIdeal.ReadP.val_main_v75, Cert.ReferenceIdeal.ReadP.val_main_v67, Cert.ReferenceIdeal.ReadP.val_main_v60, Cert.ReferenceIdeal.ReadP.val_main_v59, Cert.ReferenceIdeal.ReadP.val_main_v57, Cert.ReferenceIdeal.ReadP.val_main_v55, Cert.ReferenceIdeal.ReadP.val_main_cst_11, Cert.ReferenceIdeal.ReadP.val_main_v56, Cert.ReferenceIdeal.ReadP.val_main_v54, Cert.ReferenceIdeal.ReadP.val_main_cst_10, Cert.ReferenceIdeal.ReadP.val_main_v58, Cert.ReferenceIdeal.ReadP.val_main_cst_12, Cert.ReferenceIdeal.ReadP.val_main_v66, Cert.ReferenceIdeal.ReadP.val_main_v65, Cert.ReferenceIdeal.ReadP.val_main_v62, Cert.ReferenceIdeal.ReadP.val_main_v61, Cert.ReferenceIdeal.ReadP.val_main_c_13, Cert.ReferenceIdeal.ReadP.val_main_v64, Cert.ReferenceIdeal.ReadP.val_main_v63, Cert.ReferenceIdeal.ReadP.val_main_c_14, Cert.ReferenceIdeal.ReadP.val_main_v74, Cert.ReferenceIdeal.ReadP.val_main_v73, Cert.ReferenceIdeal.ReadP.val_main_v72, Cert.ReferenceIdeal.ReadP.val_main_v69, Cert.ReferenceIdeal.ReadP.val_main_v68, Cert.ReferenceIdeal.ReadP.val_main_c_15, Cert.ReferenceIdeal.ReadP.val_main_v71, Cert.ReferenceIdeal.ReadP.val_main_v70, Cert.ReferenceIdeal.ReadP.val_main_c_16, Cert.ReferenceIdeal.ReadP.val_main_v92, Cert.ReferenceIdeal.ReadP.val_main_v91, Cert.ReferenceIdeal.ReadP.val_main_v90, Cert.ReferenceIdeal.ReadP.val_main_v89, Cert.ReferenceIdeal.ReadP.val_main_v95, Cert.ReferenceIdeal.ReadP.val_main_v94] <;> rfl

theorem r3_arg6 : U3 m c (Proc.devRef .tc main_arg6) = m ((c.tc : Thread nD τ).loc main_arg6) :=
  (by after_results_simp : after seg2 (U2 m c) (Proc.devRef .tc main_arg6) = U2 m c (Proc.devRef .tc main_arg6)).trans (r2_arg6 m c)

theorem r3_v1 : U3 m c (Proc.devRef .tc main_v1) = Cert.ReferenceIdeal.ReadP.val_main_v1 (F := Ideal) (m ((c.tc : Thread nD τ).loc main_arg1)) :=
  (by after_results_simp : after seg2 (U2 m c) (Proc.devRef .tc main_v1) = U2 m c (Proc.devRef .tc main_v1)).trans (r2_v1 m c)

theorem r3_arg7 : U3 m c (Proc.devRef .tc main_arg7) = m ((c.tc : Thread nD τ).loc main_arg7) :=
  (by after_results_simp : after seg2 (U2 m c) (Proc.devRef .tc main_arg7) = U2 m c (Proc.devRef .tc main_arg7)).trans (r2_arg7 m c)

theorem r3_arg8 : U3 m c (Proc.devRef .tc main_arg8) = m ((c.tc : Thread nD τ).loc main_arg8) :=
  (by after_results_simp : after seg2 (U2 m c) (Proc.devRef .tc main_arg8) = U2 m c (Proc.devRef .tc main_arg8)).trans (r2_arg8 m c)

theorem r3_arg9 : U3 m c (Proc.devRef .tc main_arg9) = m ((c.tc : Thread nD τ).loc main_arg9) :=
  (by after_results_simp : after seg2 (U2 m c) (Proc.devRef .tc main_arg9) = U2 m c (Proc.devRef .tc main_arg9)).trans (r2_arg9 m c)

theorem r3_arg10 : U3 m c (Proc.devRef .tc main_arg10) = m ((c.tc : Thread nD τ).loc main_arg10) :=
  (by after_results_simp : after seg2 (U2 m c) (Proc.devRef .tc main_arg10) = U2 m c (Proc.devRef .tc main_arg10)).trans (r2_arg10 m c)

theorem r3_arg11 : U3 m c (Proc.devRef .tc main_arg11) = m ((c.tc : Thread nD τ).loc main_arg11) :=
  (by after_results_simp : after seg2 (U2 m c) (Proc.devRef .tc main_arg11) = U2 m c (Proc.devRef .tc main_arg11)).trans (r2_arg11 m c)

theorem r3_arg12 : U3 m c (Proc.devRef .tc main_arg12) = m ((c.tc : Thread nD τ).loc main_arg12) :=
  (by after_results_simp : after seg2 (U2 m c) (Proc.devRef .tc main_arg12) = U2 m c (Proc.devRef .tc main_arg12)).trans (r2_arg12 m c)

theorem r3_arg13 : U3 m c (Proc.devRef .tc main_arg13) = m ((c.tc : Thread nD τ).loc main_arg13) :=
  (by after_results_simp : after seg2 (U2 m c) (Proc.devRef .tc main_arg13) = U2 m c (Proc.devRef .tc main_arg13)).trans (r2_arg13 m c)

theorem r3_arg0 : U3 m c (Proc.devRef .tc main_arg0) = m ((c.tc : Thread nD τ).loc main_arg0) :=
  (by after_results_simp : after seg2 (U2 m c) (Proc.devRef .tc main_arg0) = U2 m c (Proc.devRef .tc main_arg0)).trans (r2_arg0 m c)

/-! ## After stretch 3 (operations 119 to 125) -/

theorem r4_v3 : U4 m c (Proc.devRef .tc main_v3) = Cert.ReferenceIdeal.ReadP.val_main_v3 (F := Ideal) (m ((c.tc : Thread nD τ).loc main_arg1)) :=
  (by after_results_simp : after seg3 (U3 m c) (Proc.devRef .tc main_v3) = U3 m c (Proc.devRef .tc main_v3)).trans (r3_v3 m c)

/-- Written in this stretch: its operations' composed term, the earlier buffers at their stages, is this stage unfolded. -/
theorem r4_v101 : U4 m c (Proc.devRef .tc main_v101) = Cert.ReferenceIdeal.ReadP.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after seg3 (U3 m c) (Proc.devRef .tc main_v101) = _
  after_results_simp
  simp only [r3_v96 m c]
  simp only [ofBuf_v98, ofBuf_v96, ofBuf_v100, toBuf_v101]
  simp only [Cert.ReferenceIdeal.ReadP.val_main_v101, Cert.ReferenceIdeal.ReadP.val_main_v98, Cert.ReferenceIdeal.ReadP.val_main_v97, Cert.ReferenceIdeal.ReadP.val_main_cst_20, Cert.ReferenceIdeal.ReadP.val_main_v100, Cert.ReferenceIdeal.ReadP.val_main_v99, Cert.ReferenceIdeal.ReadP.val_main_cst_21] <;> rfl

theorem r4_arg6 : U4 m c (Proc.devRef .tc main_arg6) = m ((c.tc : Thread nD τ).loc main_arg6) :=
  (by after_results_simp : after seg3 (U3 m c) (Proc.devRef .tc main_arg6) = U3 m c (Proc.devRef .tc main_arg6)).trans (r3_arg6 m c)

theorem r4_v1 : U4 m c (Proc.devRef .tc main_v1) = Cert.ReferenceIdeal.ReadP.val_main_v1 (F := Ideal) (m ((c.tc : Thread nD τ).loc main_arg1)) :=
  (by after_results_simp : after seg3 (U3 m c) (Proc.devRef .tc main_v1) = U3 m c (Proc.devRef .tc main_v1)).trans (r3_v1 m c)

theorem r4_arg7 : U4 m c (Proc.devRef .tc main_arg7) = m ((c.tc : Thread nD τ).loc main_arg7) :=
  (by after_results_simp : after seg3 (U3 m c) (Proc.devRef .tc main_arg7) = U3 m c (Proc.devRef .tc main_arg7)).trans (r3_arg7 m c)

theorem r4_arg8 : U4 m c (Proc.devRef .tc main_arg8) = m ((c.tc : Thread nD τ).loc main_arg8) :=
  (by after_results_simp : after seg3 (U3 m c) (Proc.devRef .tc main_arg8) = U3 m c (Proc.devRef .tc main_arg8)).trans (r3_arg8 m c)

theorem r4_arg9 : U4 m c (Proc.devRef .tc main_arg9) = m ((c.tc : Thread nD τ).loc main_arg9) :=
  (by after_results_simp : after seg3 (U3 m c) (Proc.devRef .tc main_arg9) = U3 m c (Proc.devRef .tc main_arg9)).trans (r3_arg9 m c)

theorem r4_arg10 : U4 m c (Proc.devRef .tc main_arg10) = m ((c.tc : Thread nD τ).loc main_arg10) :=
  (by after_results_simp : after seg3 (U3 m c) (Proc.devRef .tc main_arg10) = U3 m c (Proc.devRef .tc main_arg10)).trans (r3_arg10 m c)

theorem r4_arg11 : U4 m c (Proc.devRef .tc main_arg11) = m ((c.tc : Thread nD τ).loc main_arg11) :=
  (by after_results_simp : after seg3 (U3 m c) (Proc.devRef .tc main_arg11) = U3 m c (Proc.devRef .tc main_arg11)).trans (r3_arg11 m c)

theorem r4_arg12 : U4 m c (Proc.devRef .tc main_arg12) = m ((c.tc : Thread nD τ).loc main_arg12) :=
  (by after_results_simp : after seg3 (U3 m c) (Proc.devRef .tc main_arg12) = U3 m c (Proc.devRef .tc main_arg12)).trans (r3_arg12 m c)

theorem r4_arg13 : U4 m c (Proc.devRef .tc main_arg13) = m ((c.tc : Thread nD τ).loc main_arg13) :=
  (by after_results_simp : after seg3 (U3 m c) (Proc.devRef .tc main_arg13) = U3 m c (Proc.devRef .tc main_arg13)).trans (r3_arg13 m c)

theorem r4_arg0 : U4 m c (Proc.devRef .tc main_arg0) = m ((c.tc : Thread nD τ).loc main_arg0) :=
  (by after_results_simp : after seg3 (U3 m c) (Proc.devRef .tc main_arg0) = U3 m c (Proc.devRef .tc main_arg0)).trans (r3_arg0 m c)

/-! ## After stretch 4 (operations 126 to 179) -/

theorem r5_v3 : U5 m c (Proc.devRef .tc main_v3) = Cert.ReferenceIdeal.ReadP.val_main_v3 (F := Ideal) (m ((c.tc : Thread nD τ).loc main_arg1)) :=
  (by after_results_simp : after seg4 (U4 m c) (Proc.devRef .tc main_v3) = U4 m c (Proc.devRef .tc main_v3)).trans (r4_v3 m c)

/-- Written in this stretch: its operations' composed term, the earlier buffers at their stages, is this stage unfolded. -/
theorem r5_v145 : U5 m c (Proc.devRef .tc main_v145) = Cert.ReferenceIdeal.ReadP.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after seg4 (U4 m c) (Proc.devRef .tc main_v145) = _
  after_results_simp
  simp only [r4_v3 m c, r4_v101 m c, r4_arg6 m c, r4_v1 m c, r4_arg7 m c]
  simp only [Cert.ReferenceIdeal.ReadP.val_main_v145, Cert.ReferenceIdeal.ReadP.val_main_v142, Cert.ReferenceIdeal.ReadP.val_main_v137, Cert.ReferenceIdeal.ReadP.val_main_v135, Cert.ReferenceIdeal.ReadP.val_main_cst_31, Cert.ReferenceIdeal.ReadP.val_main_v136, Cert.ReferenceIdeal.ReadP.val_main_v134, Cert.ReferenceIdeal.ReadP.val_main_v131, Cert.ReferenceIdeal.ReadP.val_main_v102, Cert.ReferenceIdeal.ReadP.val_main_v130, Cert.ReferenceIdeal.ReadP.val_main_v129, Cert.ReferenceIdeal.ReadP.val_main_v126, Cert.ReferenceIdeal.ReadP.val_main_v125, Cert.ReferenceIdeal.ReadP.val_main_c_29, Cert.ReferenceIdeal.ReadP.val_main_v128, Cert.ReferenceIdeal.ReadP.val_main_v127, Cert.ReferenceIdeal.ReadP.val_main_c_30, Cert.ReferenceIdeal.ReadP.val_main_v133, Cert.ReferenceIdeal.ReadP.val_main_v132, Cert.ReferenceIdeal.ReadP.val_main_v124, Cert.ReferenceIdeal.ReadP.val_main_v116, Cert.ReferenceIdeal.ReadP.val_main_v109, Cert.ReferenceIdeal.ReadP.val_main_v108, Cert.ReferenceIdeal.ReadP.val_main_v106, Cert.ReferenceIdeal.ReadP.val_main_v104, Cert.ReferenceIdeal.ReadP.val_main_cst_23, Cert.ReferenceIdeal.ReadP.val_main_v105, Cert.ReferenceIdeal.ReadP.val_main_v103, Cert.ReferenceIdeal.ReadP.val_main_cst_22, Cert.ReferenceIdeal.ReadP.val_main_v107, Cert.ReferenceIdeal.ReadP.val_main_cst_24, Cert.ReferenceIdeal.ReadP.val_main_v115, Cert.ReferenceIdeal.ReadP.val_main_v114, Cert.ReferenceIdeal.ReadP.val_main_v111, Cert.ReferenceIdeal.ReadP.val_main_v110, Cert.ReferenceIdeal.ReadP.val_main_c_25, Cert.ReferenceIdeal.ReadP.val_main_v113, Cert.ReferenceIdeal.ReadP.val_main_v112, Cert.ReferenceIdeal.ReadP.val_main_c_26, Cert.ReferenceIdeal.ReadP.val_main_v123, Cert.ReferenceIdeal.ReadP.val_main_v122, Cert.ReferenceIdeal.ReadP.val_main_v121, Cert.ReferenceIdeal.ReadP.val_main_v118, Cert.ReferenceIdeal.ReadP.val_main_v117, Cert.ReferenceIdeal.ReadP.val_main_c_27, Cert.ReferenceIdeal.ReadP.val_main_v120, Cert.ReferenceIdeal.ReadP.val_main_v119, Cert.ReferenceIdeal.ReadP.val_main_c_28, Cert.ReferenceIdeal.ReadP.val_main_v141, Cert.ReferenceIdeal.ReadP.val_main_v140, Cert.ReferenceIdeal.ReadP.val_main_v139, Cert.ReferenceIdeal.ReadP.val_main_v138, Cert.ReferenceIdeal.ReadP.val_main_v144, Cert.ReferenceIdeal.ReadP.val_main_v143] <;> rfl

theorem r5_v101 : U5 m c (Proc.devRef .tc main_v101) = Cert.ReferenceIdeal.ReadP.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (by after_results_simp : after seg4 (U4 m c) (Proc.devRef .tc main_v101) = U4 m c (Proc.devRef .tc main_v101)).trans (r4_v101 m c)

theorem r5_arg8 : U5 m c (Proc.devRef .tc main_arg8) = m ((c.tc : Thread nD τ).loc main_arg8) :=
  (by after_results_simp : after seg4 (U4 m c) (Proc.devRef .tc main_arg8) = U4 m c (Proc.devRef .tc main_arg8)).trans (r4_arg8 m c)

theorem r5_v1 : U5 m c (Proc.devRef .tc main_v1) = Cert.ReferenceIdeal.ReadP.val_main_v1 (F := Ideal) (m ((c.tc : Thread nD τ).loc main_arg1)) :=
  (by after_results_simp : after seg4 (U4 m c) (Proc.devRef .tc main_v1) = U4 m c (Proc.devRef .tc main_v1)).trans (r4_v1 m c)

theorem r5_arg9 : U5 m c (Proc.devRef .tc main_arg9) = m ((c.tc : Thread nD τ).loc main_arg9) :=
  (by after_results_simp : after seg4 (U4 m c) (Proc.devRef .tc main_arg9) = U4 m c (Proc.devRef .tc main_arg9)).trans (r4_arg9 m c)

theorem r5_arg10 : U5 m c (Proc.devRef .tc main_arg10) = m ((c.tc : Thread nD τ).loc main_arg10) :=
  (by after_results_simp : after seg4 (U4 m c) (Proc.devRef .tc main_arg10) = U4 m c (Proc.devRef .tc main_arg10)).trans (r4_arg10 m c)

theorem r5_arg11 : U5 m c (Proc.devRef .tc main_arg11) = m ((c.tc : Thread nD τ).loc main_arg11) :=
  (by after_results_simp : after seg4 (U4 m c) (Proc.devRef .tc main_arg11) = U4 m c (Proc.devRef .tc main_arg11)).trans (r4_arg11 m c)

theorem r5_arg12 : U5 m c (Proc.devRef .tc main_arg12) = m ((c.tc : Thread nD τ).loc main_arg12) :=
  (by after_results_simp : after seg4 (U4 m c) (Proc.devRef .tc main_arg12) = U4 m c (Proc.devRef .tc main_arg12)).trans (r4_arg12 m c)

theorem r5_arg13 : U5 m c (Proc.devRef .tc main_arg13) = m ((c.tc : Thread nD τ).loc main_arg13) :=
  (by after_results_simp : after seg4 (U4 m c) (Proc.devRef .tc main_arg13) = U4 m c (Proc.devRef .tc main_arg13)).trans (r4_arg13 m c)

theorem r5_arg0 : U5 m c (Proc.devRef .tc main_arg0) = m ((c.tc : Thread nD τ).loc main_arg0) :=
  (by after_results_simp : after seg4 (U4 m c) (Proc.devRef .tc main_arg0) = U4 m c (Proc.devRef .tc main_arg0)).trans (r4_arg0 m c)

/-! ## After stretch 5 (operations 180 to 187) -/

theorem r6_v3 : U6 m c (Proc.devRef .tc main_v3) = Cert.ReferenceIdeal.ReadP.val_main_v3 (F := Ideal) (m ((c.tc : Thread nD τ).loc main_arg1)) :=
  (by after_results_simp : after seg5 (U5 m c) (Proc.devRef .tc main_v3) = U5 m c (Proc.devRef .tc main_v3)).trans (r5_v3 m c)

/-- Written in this stretch: its operations' composed term, the earlier buffers at their stages, is this stage unfolded. -/
theorem r6_v151 : U6 m c (Proc.devRef .tc main_v151) = Cert.ReferenceIdeal.ReadP.val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after seg5 (U5 m c) (Proc.devRef .tc main_v151) = _
  after_results_simp
  simp only [r5_v145 m c, r5_v101 m c]
  simp only [ofBuf_v147, ofBuf_v145, ofBuf_v149, toBuf_v150]
  simp only [Cert.ReferenceIdeal.ReadP.val_main_v151, Cert.ReferenceIdeal.ReadP.val_main_v150, Cert.ReferenceIdeal.ReadP.val_main_v147, Cert.ReferenceIdeal.ReadP.val_main_v146, Cert.ReferenceIdeal.ReadP.val_main_cst_32, Cert.ReferenceIdeal.ReadP.val_main_v149, Cert.ReferenceIdeal.ReadP.val_main_v148, Cert.ReferenceIdeal.ReadP.val_main_cst_33] <;> rfl

theorem r6_arg8 : U6 m c (Proc.devRef .tc main_arg8) = m ((c.tc : Thread nD τ).loc main_arg8) :=
  (by after_results_simp : after seg5 (U5 m c) (Proc.devRef .tc main_arg8) = U5 m c (Proc.devRef .tc main_arg8)).trans (r5_arg8 m c)

theorem r6_v1 : U6 m c (Proc.devRef .tc main_v1) = Cert.ReferenceIdeal.ReadP.val_main_v1 (F := Ideal) (m ((c.tc : Thread nD τ).loc main_arg1)) :=
  (by after_results_simp : after seg5 (U5 m c) (Proc.devRef .tc main_v1) = U5 m c (Proc.devRef .tc main_v1)).trans (r5_v1 m c)

theorem r6_arg9 : U6 m c (Proc.devRef .tc main_arg9) = m ((c.tc : Thread nD τ).loc main_arg9) :=
  (by after_results_simp : after seg5 (U5 m c) (Proc.devRef .tc main_arg9) = U5 m c (Proc.devRef .tc main_arg9)).trans (r5_arg9 m c)

theorem r6_arg10 : U6 m c (Proc.devRef .tc main_arg10) = m ((c.tc : Thread nD τ).loc main_arg10) :=
  (by after_results_simp : after seg5 (U5 m c) (Proc.devRef .tc main_arg10) = U5 m c (Proc.devRef .tc main_arg10)).trans (r5_arg10 m c)

theorem r6_arg11 : U6 m c (Proc.devRef .tc main_arg11) = m ((c.tc : Thread nD τ).loc main_arg11) :=
  (by after_results_simp : after seg5 (U5 m c) (Proc.devRef .tc main_arg11) = U5 m c (Proc.devRef .tc main_arg11)).trans (r5_arg11 m c)

theorem r6_arg12 : U6 m c (Proc.devRef .tc main_arg12) = m ((c.tc : Thread nD τ).loc main_arg12) :=
  (by after_results_simp : after seg5 (U5 m c) (Proc.devRef .tc main_arg12) = U5 m c (Proc.devRef .tc main_arg12)).trans (r5_arg12 m c)

theorem r6_arg13 : U6 m c (Proc.devRef .tc main_arg13) = m ((c.tc : Thread nD τ).loc main_arg13) :=
  (by after_results_simp : after seg5 (U5 m c) (Proc.devRef .tc main_arg13) = U5 m c (Proc.devRef .tc main_arg13)).trans (r5_arg13 m c)

theorem r6_arg0 : U6 m c (Proc.devRef .tc main_arg0) = m ((c.tc : Thread nD τ).loc main_arg0) :=
  (by after_results_simp : after seg5 (U5 m c) (Proc.devRef .tc main_arg0) = U5 m c (Proc.devRef .tc main_arg0)).trans (r5_arg0 m c)

/-! ## After stretch 6 (operations 188 to 241) -/

theorem r7_v3 : U7 m c (Proc.devRef .tc main_v3) = Cert.ReferenceIdeal.ReadP.val_main_v3 (F := Ideal) (m ((c.tc : Thread nD τ).loc main_arg1)) :=
  (by after_results_simp : after seg6 (U6 m c) (Proc.devRef .tc main_v3) = U6 m c (Proc.devRef .tc main_v3)).trans (r6_v3 m c)

/-- Written in this stretch: its operations' composed term, the earlier buffers at their stages, is this stage unfolded. -/
theorem r7_v195 : U7 m c (Proc.devRef .tc main_v195) = Cert.ReferenceIdeal.ReadP.val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after seg6 (U6 m c) (Proc.devRef .tc main_v195) = _
  after_results_simp
  simp only [r6_v3 m c, r6_v151 m c, r6_arg8 m c, r6_v1 m c, r6_arg9 m c]
  simp only [Cert.ReferenceIdeal.ReadP.val_main_v195, Cert.ReferenceIdeal.ReadP.val_main_v192, Cert.ReferenceIdeal.ReadP.val_main_v187, Cert.ReferenceIdeal.ReadP.val_main_v185, Cert.ReferenceIdeal.ReadP.val_main_cst_43, Cert.ReferenceIdeal.ReadP.val_main_v186, Cert.ReferenceIdeal.ReadP.val_main_v184, Cert.ReferenceIdeal.ReadP.val_main_v181, Cert.ReferenceIdeal.ReadP.val_main_v152, Cert.ReferenceIdeal.ReadP.val_main_v180, Cert.ReferenceIdeal.ReadP.val_main_v179, Cert.ReferenceIdeal.ReadP.val_main_v176, Cert.ReferenceIdeal.ReadP.val_main_v175, Cert.ReferenceIdeal.ReadP.val_main_c_41, Cert.ReferenceIdeal.ReadP.val_main_v178, Cert.ReferenceIdeal.ReadP.val_main_v177, Cert.ReferenceIdeal.ReadP.val_main_c_42, Cert.ReferenceIdeal.ReadP.val_main_v183, Cert.ReferenceIdeal.ReadP.val_main_v182, Cert.ReferenceIdeal.ReadP.val_main_v174, Cert.ReferenceIdeal.ReadP.val_main_v166, Cert.ReferenceIdeal.ReadP.val_main_v159, Cert.ReferenceIdeal.ReadP.val_main_v158, Cert.ReferenceIdeal.ReadP.val_main_v156, Cert.ReferenceIdeal.ReadP.val_main_v154, Cert.ReferenceIdeal.ReadP.val_main_cst_35, Cert.ReferenceIdeal.ReadP.val_main_v155, Cert.ReferenceIdeal.ReadP.val_main_v153, Cert.ReferenceIdeal.ReadP.val_main_cst_34, Cert.ReferenceIdeal.ReadP.val_main_v157, Cert.ReferenceIdeal.ReadP.val_main_cst_36, Cert.ReferenceIdeal.ReadP.val_main_v165, Cert.ReferenceIdeal.ReadP.val_main_v164, Cert.ReferenceIdeal.ReadP.val_main_v161, Cert.ReferenceIdeal.ReadP.val_main_v160, Cert.ReferenceIdeal.ReadP.val_main_c_37, Cert.ReferenceIdeal.ReadP.val_main_v163, Cert.ReferenceIdeal.ReadP.val_main_v162, Cert.ReferenceIdeal.ReadP.val_main_c_38, Cert.ReferenceIdeal.ReadP.val_main_v173, Cert.ReferenceIdeal.ReadP.val_main_v172, Cert.ReferenceIdeal.ReadP.val_main_v171, Cert.ReferenceIdeal.ReadP.val_main_v168, Cert.ReferenceIdeal.ReadP.val_main_v167, Cert.ReferenceIdeal.ReadP.val_main_c_39, Cert.ReferenceIdeal.ReadP.val_main_v170, Cert.ReferenceIdeal.ReadP.val_main_v169, Cert.ReferenceIdeal.ReadP.val_main_c_40, Cert.ReferenceIdeal.ReadP.val_main_v191, Cert.ReferenceIdeal.ReadP.val_main_v190, Cert.ReferenceIdeal.ReadP.val_main_v189, Cert.ReferenceIdeal.ReadP.val_main_v188, Cert.ReferenceIdeal.ReadP.val_main_v194, Cert.ReferenceIdeal.ReadP.val_main_v193] <;> rfl

theorem r7_arg10 : U7 m c (Proc.devRef .tc main_arg10) = m ((c.tc : Thread nD τ).loc main_arg10) :=
  (by after_results_simp : after seg6 (U6 m c) (Proc.devRef .tc main_arg10) = U6 m c (Proc.devRef .tc main_arg10)).trans (r6_arg10 m c)

theorem r7_v1 : U7 m c (Proc.devRef .tc main_v1) = Cert.ReferenceIdeal.ReadP.val_main_v1 (F := Ideal) (m ((c.tc : Thread nD τ).loc main_arg1)) :=
  (by after_results_simp : after seg6 (U6 m c) (Proc.devRef .tc main_v1) = U6 m c (Proc.devRef .tc main_v1)).trans (r6_v1 m c)

theorem r7_arg11 : U7 m c (Proc.devRef .tc main_arg11) = m ((c.tc : Thread nD τ).loc main_arg11) :=
  (by after_results_simp : after seg6 (U6 m c) (Proc.devRef .tc main_arg11) = U6 m c (Proc.devRef .tc main_arg11)).trans (r6_arg11 m c)

theorem r7_arg12 : U7 m c (Proc.devRef .tc main_arg12) = m ((c.tc : Thread nD τ).loc main_arg12) :=
  (by after_results_simp : after seg6 (U6 m c) (Proc.devRef .tc main_arg12) = U6 m c (Proc.devRef .tc main_arg12)).trans (r6_arg12 m c)

theorem r7_arg13 : U7 m c (Proc.devRef .tc main_arg13) = m ((c.tc : Thread nD τ).loc main_arg13) :=
  (by after_results_simp : after seg6 (U6 m c) (Proc.devRef .tc main_arg13) = U6 m c (Proc.devRef .tc main_arg13)).trans (r6_arg13 m c)

theorem r7_arg0 : U7 m c (Proc.devRef .tc main_arg0) = m ((c.tc : Thread nD τ).loc main_arg0) :=
  (by after_results_simp : after seg6 (U6 m c) (Proc.devRef .tc main_arg0) = U6 m c (Proc.devRef .tc main_arg0)).trans (r6_arg0 m c)

/-! ## After stretch 7 (operations 242 to 295) -/

/-- Written in this stretch: its operations' composed term, the earlier buffers at their stages, is this stage unfolded. -/
theorem r8_v239 : U8 m c (Proc.devRef .tc main_v239) = Cert.ReferenceIdeal.ReadP.val_main_v239 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show after seg7 (U7 m c) (Proc.devRef .tc main_v239) = _
  after_results_simp
  simp only [r7_v3 m c, r7_v195 m c, r7_arg10 m c, r7_v1 m c, r7_arg11 m c]
  simp only [Cert.ReferenceIdeal.ReadP.val_main_v239, Cert.ReferenceIdeal.ReadP.val_main_v236, Cert.ReferenceIdeal.ReadP.val_main_v231, Cert.ReferenceIdeal.ReadP.val_main_v229, Cert.ReferenceIdeal.ReadP.val_main_cst_53, Cert.ReferenceIdeal.ReadP.val_main_v230, Cert.ReferenceIdeal.ReadP.val_main_v228, Cert.ReferenceIdeal.ReadP.val_main_v225, Cert.ReferenceIdeal.ReadP.val_main_v196, Cert.ReferenceIdeal.ReadP.val_main_v224, Cert.ReferenceIdeal.ReadP.val_main_v223, Cert.ReferenceIdeal.ReadP.val_main_v220, Cert.ReferenceIdeal.ReadP.val_main_v219, Cert.ReferenceIdeal.ReadP.val_main_c_51, Cert.ReferenceIdeal.ReadP.val_main_v222, Cert.ReferenceIdeal.ReadP.val_main_v221, Cert.ReferenceIdeal.ReadP.val_main_c_52, Cert.ReferenceIdeal.ReadP.val_main_v227, Cert.ReferenceIdeal.ReadP.val_main_v226, Cert.ReferenceIdeal.ReadP.val_main_v218, Cert.ReferenceIdeal.ReadP.val_main_v210, Cert.ReferenceIdeal.ReadP.val_main_v203, Cert.ReferenceIdeal.ReadP.val_main_v202, Cert.ReferenceIdeal.ReadP.val_main_v200, Cert.ReferenceIdeal.ReadP.val_main_v198, Cert.ReferenceIdeal.ReadP.val_main_cst_45, Cert.ReferenceIdeal.ReadP.val_main_v199, Cert.ReferenceIdeal.ReadP.val_main_v197, Cert.ReferenceIdeal.ReadP.val_main_cst_44, Cert.ReferenceIdeal.ReadP.val_main_v201, Cert.ReferenceIdeal.ReadP.val_main_cst_46, Cert.ReferenceIdeal.ReadP.val_main_v209, Cert.ReferenceIdeal.ReadP.val_main_v208, Cert.ReferenceIdeal.ReadP.val_main_v205, Cert.ReferenceIdeal.ReadP.val_main_v204, Cert.ReferenceIdeal.ReadP.val_main_c_47, Cert.ReferenceIdeal.ReadP.val_main_v207, Cert.ReferenceIdeal.ReadP.val_main_v206, Cert.ReferenceIdeal.ReadP.val_main_c_48, Cert.ReferenceIdeal.ReadP.val_main_v217, Cert.ReferenceIdeal.ReadP.val_main_v216, Cert.ReferenceIdeal.ReadP.val_main_v215, Cert.ReferenceIdeal.ReadP.val_main_v212, Cert.ReferenceIdeal.ReadP.val_main_v211, Cert.ReferenceIdeal.ReadP.val_main_c_49, Cert.ReferenceIdeal.ReadP.val_main_v214, Cert.ReferenceIdeal.ReadP.val_main_v213, Cert.ReferenceIdeal.ReadP.val_main_c_50, Cert.ReferenceIdeal.ReadP.val_main_v235, Cert.ReferenceIdeal.ReadP.val_main_v234, Cert.ReferenceIdeal.ReadP.val_main_v233, Cert.ReferenceIdeal.ReadP.val_main_v232, Cert.ReferenceIdeal.ReadP.val_main_v238, Cert.ReferenceIdeal.ReadP.val_main_v237] <;> rfl

theorem r8_arg12 : U8 m c (Proc.devRef .tc main_arg12) = m ((c.tc : Thread nD τ).loc main_arg12) :=
  (by after_results_simp : after seg7 (U7 m c) (Proc.devRef .tc main_arg12) = U7 m c (Proc.devRef .tc main_arg12)).trans (r7_arg12 m c)

theorem r8_arg13 : U8 m c (Proc.devRef .tc main_arg13) = m ((c.tc : Thread nD τ).loc main_arg13) :=
  (by after_results_simp : after seg7 (U7 m c) (Proc.devRef .tc main_arg13) = U7 m c (Proc.devRef .tc main_arg13)).trans (r7_arg13 m c)

theorem r8_arg0 : U8 m c (Proc.devRef .tc main_arg0) = m ((c.tc : Thread nD τ).loc main_arg0) :=
  (by after_results_simp : after seg7 (U7 m c) (Proc.devRef .tc main_arg0) = U7 m c (Proc.devRef .tc main_arg0)).trans (r7_arg0 m c)

theorem r8_v195 : U8 m c (Proc.devRef .tc main_v195) = Cert.ReferenceIdeal.ReadP.val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (by after_results_simp : after seg7 (U7 m c) (Proc.devRef .tc main_v195) = U7 m c (Proc.devRef .tc main_v195)).trans (r7_v195 m c)

/-! ## After stretch 8 (operations 296 to 302) -/

/-- Written in this stretch: its operations' composed term, the earlier buffers at their stages, is this stage unfolded. -/
theorem r9_v244 : U9 m c (Proc.devRef .tc main_v244) = Cert.ReferenceIdeal.ReadP.val_main_v244 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show after seg8 (U8 m c) (Proc.devRef .tc main_v244) = _
  after_results_simp
  simp only [r8_v239 m c]
  simp only [ofBuf_v241, ofBuf_v239, ofBuf_v243, toBuf_v244]
  simp only [Cert.ReferenceIdeal.ReadP.val_main_v244, Cert.ReferenceIdeal.ReadP.val_main_v241, Cert.ReferenceIdeal.ReadP.val_main_v240, Cert.ReferenceIdeal.ReadP.val_main_cst_54, Cert.ReferenceIdeal.ReadP.val_main_v243, Cert.ReferenceIdeal.ReadP.val_main_v242, Cert.ReferenceIdeal.ReadP.val_main_cst_55] <;> rfl

theorem r9_arg12 : U9 m c (Proc.devRef .tc main_arg12) = m ((c.tc : Thread nD τ).loc main_arg12) :=
  (by after_results_simp : after seg8 (U8 m c) (Proc.devRef .tc main_arg12) = U8 m c (Proc.devRef .tc main_arg12)).trans (r8_arg12 m c)

theorem r9_arg13 : U9 m c (Proc.devRef .tc main_arg13) = m ((c.tc : Thread nD τ).loc main_arg13) :=
  (by after_results_simp : after seg8 (U8 m c) (Proc.devRef .tc main_arg13) = U8 m c (Proc.devRef .tc main_arg13)).trans (r8_arg13 m c)

theorem r9_arg0 : U9 m c (Proc.devRef .tc main_arg0) = m ((c.tc : Thread nD τ).loc main_arg0) :=
  (by after_results_simp : after seg8 (U8 m c) (Proc.devRef .tc main_arg0) = U8 m c (Proc.devRef .tc main_arg0)).trans (r8_arg0 m c)

theorem r9_v195 : U9 m c (Proc.devRef .tc main_v195) = Cert.ReferenceIdeal.ReadP.val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (by after_results_simp : after seg8 (U8 m c) (Proc.devRef .tc main_v195) = U8 m c (Proc.devRef .tc main_v195)).trans (r8_v195 m c)

/-! ## After stretch 9 (operations 303 to 307) -/

/-- Written in this stretch: its operations' composed term, the earlier buffers at their stages, is this stage unfolded. -/
theorem r10_v249 : U10 m c (Proc.devRef .tc main_v249) = Cert.ReferenceIdeal.ReadP.val_main_v249 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show after seg9 (U9 m c) (Proc.devRef .tc main_v249) = _
  after_results_simp
  simp only [r9_v244 m c, r9_arg12 m c, r9_arg13 m c, r9_arg0 m c]
  simp only [Cert.ReferenceIdeal.ReadP.val_main_v249, Cert.ReferenceIdeal.ReadP.val_main_v248, Cert.ReferenceIdeal.ReadP.val_main_v245, Cert.ReferenceIdeal.ReadP.val_main_v247, Cert.ReferenceIdeal.ReadP.val_main_v246] <;> rfl

theorem r10_v195 : U10 m c (Proc.devRef .tc main_v195) = Cert.ReferenceIdeal.ReadP.val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (by after_results_simp : after seg9 (U9 m c) (Proc.devRef .tc main_v195) = U9 m c (Proc.devRef .tc main_v195)).trans (r9_v195 m c)

end Cert.ReferenceIdeal.WalkR
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibPoint.lean ====
/-
  One entry of a row block of a matrix product. If a block holds rows of a tall matrix A (its row p is row a of A)
  and the whole right factor B, then entry (p, q) of the matrix unit's product of the block with B, started from a
  zero accumulator, is entry (a, q) of the host's product A·B: both are the sum over c of A (a, c) * B (c, q).
  At the ideal values a change of float format is the identity, so the operands' element formats are free.
-/
import proofs.«104783_j47433618817228_1_alg».proof.Proof.LibDot

noncomputable section

namespace Cert.LibPoint

open Idealize.ShloMosaic Idealize.ShloMosaic.ValueIdx
open scoped BigOperators

variable {M m k n : Nat} {φ₁ φ₂ ψ₁ ψ₂ : FTy}

/-- Entry (p, q) of the block product is entry (a, q) of the whole product, when row p of the block is row a of A
    and the right factor is read whole. -/
theorem block_product_entry
    (wA : DotDims.WF ⟨2, ![M, k]⟩ ⟨2, ![k, n]⟩ ⟨2, ![M, n]⟩ [1] [0] [0] [1] [] [])
    (wb : DotDims.WF ⟨2, ![m, k]⟩ ⟨2, ![k, n]⟩ ⟨2, ![m, n]⟩ [1] [0] [0] [1] [] [])
    (precA precb : Option ContractPrecision)
    (A : FVec Ideal ⟨2, ![M, k]⟩ φ₁) (B : FVec Ideal ⟨2, ![k, n]⟩ φ₂)
    (x : FVec Ideal ⟨2, ![m, k]⟩ ψ₁) (y : FVec Ideal ⟨2, ![k, n]⟩ ψ₂)
    (p : Fin m) (q : Fin n) (a : Fin M)
    (hx : ∀ c : Fin k, x (ix2 p c) = A (ix2 a c)) (hy : ∀ c : Fin k, y (ix2 c q) = B (ix2 c q)) :
    matmul (LibDot.dims wb) precb x y (constant ⟨2, ![m, n]⟩ .f32 0x00000000#32) (ix2 p q)
      = Host.dotGeneral (LibDot.dims wA) precA A B (ix2 a q) := by
  rw [LibDot.matmul_zero_apply, LibDot.dotGeneral_apply]
  exact Finset.sum_congr rfl fun c _ => by rw [hx c, hy c]

end Cert.LibPoint
-- ==== Proof.Region0.lean ====
/-
  Region 0 of the kernel program: a row-blocked matrix product. Grid point t takes rows [2000·t, 2000·t + 2000) of the
  left array and the whole right array and writes the product of the two blocks to the same rows of the output array.
  The 25 row blocks tile the 50000 rows, so after the region the output array is the whole product of the two arrays
  as the region finds them: entry (a, q) is the sum over c of left (a, c) * right (c, q).
-/
import proofs.«104783_j47433618817228_1_alg».proof.Proof.Gen.KernelIdeal.Frame
import proofs.«104783_j47433618817228_1_alg».proof.Proof.Gen.ReferenceIdeal
import proofs.«104783_j47433618817228_1_alg».proof.Proof.LibPoint
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-- The whole product of the two arrays, as the host computes it. -/
abbrev prod0 (A : S50000x128.Idx → EReal) (B : S128x128.Idx → EReal) : S50000x128.Idx → EReal :=
  Host.dotGeneral (F := Ideal) (φ₁ := .f32) (φ₂ := .f32) Cert.ReferenceIdeal.dot_S50000x128_S128x128_S50000x128_1_0_0_1_n_n none A B

/-- The block index maps over the grid: the left and output blocks move together down the rows, the right block stays. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some grid point's. -/
theorem idx_onto0 : ∀ q0 : Fin 25, ∃ t : Fin cfg0.N, win0_2.index t (0 : Fin 2) = q0.val ∧ win0_2.index t (1 : Fin 2) = 0 :=
  (by decide +kernel : ∀ q0 : Fin 25, ∃ t : Fin grid0.N, win0_2.index t (0 : Fin 2) = q0.val ∧ win0_2.index t (1 : Fin 2) = 0)

/-- The body's stored value at (p, q): the product of the two loaded blocks there. -/
theorem pay0_entry (x0 : Vec Ideal S2000x128 .f32) (x1 : Vec Ideal S128x128 .f32)
    (A : S50000x128.Idx → EReal) (B : S128x128.Idx → EReal) (p : Fin 2000) (q : Fin 128) (a : Fin 50000)
    (hx : ∀ c : Fin 128, x0 (ix2 p c) = A (ix2 a c)) (hy : ∀ c : Fin 128, x1 (ix2 c q) = B (ix2 c q)) :
    k0_pay1 (F := Ideal) x0 x1 (ix2 p q) = prod0 A B (ix2 a q) :=
  Cert.LibPoint.block_product_entry (φ₁ := .f32) (φ₂ := .f32) (ψ₁ := .bf16) (ψ₂ := .bf16)
    Cert.ReferenceIdeal.dot_S50000x128_S128x128_S50000x128_1_0_0_1_n_n.wf dot_S2000x128_S128x128_S2000x128_1_0_0_1_n_n.wf none none A B
    (truncf .bf16 x0 bitsLt_bf16_f32) (truncf .bf16 x1 bitsLt_bf16_f32) p q a hx hy

/-- What grid point t writes back is block t of the whole product of the arrays as the region finds them. -/
theorem flushed0_eq (c : Dev nD) (t : Fin cfg0.N) :
    (dat0 V c).flushed 2 t = ((cfg0.win 2).blk t).view.read (Elt Ideal)
      (prod0 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x128) hz0]
  obtain ⟨e0, e1, e2, e3, e4, e5⟩ := idx_facts0 t
  funext j
  obtain ⟨p, q, rfl⟩ : ∃ (p : Fin 2000) (q : Fin 128), j = ix2 p q := ⟨j 0, j 1, eq_ix2 j⟩
  have ha : win0_2.index t (0 : Fin 2) * 2000 + 1 * p.val < 50000 := by have := p.isLt; omega
  have hout : ((cfg0.win 2).blk t).view.emb (ix2 p q) = ix2 (⟨win0_2.index t (0 : Fin 2) * 2000 + 1 * p.val, ha⟩ : Fin 50000) q := by
    funext d; apply Fin.ext
    match d with
    | ⟨0, _⟩ => rfl
    | ⟨1, _⟩ => show win0_2.index t (1 : Fin 2) * 128 + 1 * q.val = q.val; omega
  have hin0 : ∀ c' : Fin 128, ((cfg0.win 0).blk t).view.emb (ix2 p c') = ix2 (⟨win0_2.index t (0 : Fin 2) * 2000 + 1 * p.val, ha⟩ : Fin 50000) c' := by
    intro c'; funext d; apply Fin.ext
    match d with
    | ⟨0, _⟩ => show win0_0.index t (0 : Fin 2) * 2000 + 1 * p.val = win0_2.index t (0 : Fin 2) * 2000 + 1 * p.val; omega
    | ⟨1, _⟩ => show win0_0.index t (1 : Fin 2) * 128 + 1 * c'.val = c'.val; omega
  have hin1 : ∀ c' : Fin 128, ((cfg0.win 1).blk t).view.emb (ix2 c' q) = ix2 c' q := by
    intro c'; funext d; apply Fin.ext
    match d with
    | ⟨0, _⟩ => show win0_1.index t (0 : Fin 2) * 128 + 1 * c'.val = c'.val; omega
    | ⟨1, _⟩ => show win0_1.index t (1 : Fin 2) * 128 + 1 * q.val = q.val; omega
  show k0_pay1 (F := Ideal) (iblk0 V c 0 t) (iblk0 V c 1 t) (ix2 p q)
    = prod0 (V c (Pipeline.arrRef spec0 0)) (V c (Pipeline.arrRef spec0 1)) (((cfg0.win 2).blk t).view.emb (ix2 p q))
  rw [hout]
  refine pay0_entry _ _ _ _ p q _ (fun c' => ?_) (fun c' => ?_)
  · show V c (Pipeline.arrRef spec0 0) (((cfg0.win 0).blk t).view.emb (ix2 p c')) = _
    rw [hin0 c']
  · show V c (Pipeline.arrRef spec0 1) (((cfg0.win 1).blk t).view.emb (ix2 c' q)) = _
    rw [hin1 c']

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The row blocks cover the output array: row r lies in block r / 2000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht0, ht1⟩ := idx_onto0 ⟨(i 0).val / 2000, by omega⟩
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; simp only [] at ht0; omega
  | ⟨1, _⟩ => show win0_2.index t (1 : Fin 2) * 128 ≤ (i 1).val ∧ (i 1).val < win0_2.index t (1 : Fin 2) * 128 + 128; omega

/-- After the region the output array holds the whole product of the two arrays as the region finds them. -/
theorem region0 (c : Dev nD) :
    (dat0 V c).arrAt 2 cfg0.N = prod0 (V c (Pipeline.arrRef spec0 0)) (V c (Pipeline.arrRef spec0 1)) :=
  (dat0 V c).arrAt_eq_of_cover 2 _ (fun t _ => flushed0_eq V c t) (cover0)

end Cert.KernelIdeal.RegVal
-- ==== Proof.Region1.lean ====
/-
  Region 1 of the kernel program: a row-blocked pointwise stage. Grid point t takes rows [2000·t, 2000·t + 2000) of the
  aggregated array and the one bias row, adds the bias row to every row, applies the leaky rectifier u ↦ (u if u ≥ 0 else 0.01·u)
  and writes the result to the same rows of the output array. The 25 row blocks tile the 50000 rows, so after the region
  the output array is that same pointwise function of the whole arrays as the region finds them.
-/
import proofs.«104783_j47433618817228_1_alg».proof.Proof.Gen.KernelIdeal.Frame
import proofs.«104783_j47433618817228_1_alg».proof.Proof.Gen.ReferenceIdeal
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-- The aggregated array plus the bias row repeated down the rows, as the host computes it. -/
abbrev biased1 (A : S50000x128.Idx → EReal) (B : S1x128.Idx → EReal) : S50000x128.Idx → EReal :=
  addf (F := Ideal) (φ := .f32) A (broadcastInDim Cert.ReferenceIdeal.S50000x128 ![0, 1] Cert.ReferenceIdeal.Facts₀.bcast_S1x128_S50000x128_0_1 B)

/-- The leaky rectifier of that, as the host computes it. -/
abbrev act1 (A : S50000x128.Idx → EReal) (B : S1x128.Idx → EReal) : S50000x128.Idx → EReal :=
  select (cmpf (F := Ideal) .oge (biased1 A B) (broadcastInDim Cert.ReferenceIdeal.S50000x128 ![] Cert.ReferenceIdeal.Facts₀.bcast_S_S50000x128 (constant (F := Ideal) Cert.ReferenceIdeal.S_ .f32 0x00000000#32)))
    (biased1 A B) (mulf (F := Ideal) (φ := .f32) (broadcastInDim Cert.ReferenceIdeal.S50000x128 ![] Cert.ReferenceIdeal.Facts₀.bcast_S_S50000x128 (constant (F := Ideal) Cert.ReferenceIdeal.S_ .f32 0x3C23D70A#32)) (biased1 A B))

/-- The stage's whole-array function. -/
abbrev post1 (A : S50000x128.Idx → EReal) (B : S1x128.Idx → EReal) : S50000x128.Idx → EReal :=
  act1 A B

/-- The leaky rectifier on one extended real. -/
abbrev sc1 (u : EReal) : EReal :=
  Scalar.select (FloatOps.cmpf (F := Ideal) (φ := .f32) .oge u (Ideal.ofBits .f32 0x00000000#32)) u (Ideal.ofBits .f32 0x3C23D70A#32 * u)

/-- The block index maps over the grid: the row blocks of the inputs and the output move together, the bias row stays. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every row block is some grid point's. -/
theorem idx_onto1 : ∀ q0 : Fin 25, ∃ t : Fin cfg1.N, win1_2.index t (0 : Fin 2) = q0.val ∧ win1_2.index t (1 : Fin 2) = 0 :=
  (by decide +kernel : ∀ q0 : Fin 25, ∃ t : Fin grid1.N, win1_2.index t (0 : Fin 2) = q0.val ∧ win1_2.index t (1 : Fin 2) = 0)

/-- The body's stored value at (p, q) is the stage's function at (a, q), when the loaded blocks hold row a there. -/
theorem pay1_entry (x0 : Vec Ideal S2000x128 .f32) (x1 : Vec Ideal S1x128 .f32)
    (A : S50000x128.Idx → EReal) (B : S1x128.Idx → EReal) (p : Fin 2000) (q : Fin 128) (a : Fin 50000)
    (hx : x0 (ix2 p q) = A (ix2 a q)) (hy : x1 (ix2 (0 : Fin 1) q) = B (ix2 (0 : Fin 1) q)) :
    k1_pay1 (F := Ideal) x0 x1 (ix2 p q) = post1 A B (ix2 a q) := by
  have hb : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun d => by match d with | ⟨0, _⟩ => rfl | ⟨1, _⟩ => rfl)
  have hB : broadcastInDim Cert.ReferenceIdeal.S50000x128 ![0, 1] Cert.ReferenceIdeal.Facts₀.bcast_S1x128_S50000x128_0_1 B (ix2 a q) = B (ix2 (0 : Fin 1) q) :=
    broadcastInDim_apply _ _ B (ix2 a q) (ix2 (0 : Fin 1) q) (fun d => by match d with | ⟨0, _⟩ => rfl | ⟨1, _⟩ => rfl)
  have e1 : k1_pay1 (F := Ideal) x0 x1 (ix2 p q) = sc1 (shapeCast S2000x128 x0 shapeCasts_S2000x128_S2000x128 (ix2 p q) + broadcastTo S2000x128 (shapeCast S1x128 x1 shapeCasts_S1x128_S1x128) broadcasts_S1x128_S2000x128 (ix2 p q)) := rfl
  have e2 : post1 A B (ix2 a q) = sc1 (A (ix2 a q) + broadcastInDim Cert.ReferenceIdeal.S50000x128 ![0, 1] Cert.ReferenceIdeal.Facts₀.bcast_S1x128_S50000x128_0_1 B (ix2 a q)) := rfl
  rw [e1, e2, shapeCast_self x0, hb, hB, hx, hy]

/-- What grid point t writes back is block t of the stage's function of the arrays as the region finds them. -/
theorem flushed1_eq (c : Dev nD) (t : Fin cfg1.N) :
    (dat1 V c).flushed 2 t = ((cfg1.win 2).blk t).view.read (Elt Ideal)
      (post1 (V c (Pipeline.arrRef spec1 0)) (V c (Pipeline.arrRef spec1 1))) := by
  show (cfg1.win 2).cut (grid1.coords t) ((dat1 V c).after 2 t) = _
  rw [after1_2]
  unfold out1_2
  rw [View.canon_unit_zero hz1]
  simp only [View.ld_unit_zero (S := S2000x128) hz1, View.ld_unit_zero (S := S1x128) hz1]
  obtain ⟨e0, e1, e2, e3, e4, e5⟩ := idx_facts1 t
  funext j
  obtain ⟨p, q, rfl⟩ : ∃ (p : Fin 2000) (q : Fin 128), j = ix2 p q := ⟨j 0, j 1, eq_ix2 j⟩
  have ha : win1_2.index t (0 : Fin 2) * 2000 + 1 * p.val < 50000 := by have := p.isLt; omega
  have hout : ((cfg1.win 2).blk t).view.emb (ix2 p q) = ix2 (⟨win1_2.index t (0 : Fin 2) * 2000 + 1 * p.val, ha⟩ : Fin 50000) q := by
    funext d; apply Fin.ext
    match d with
    | ⟨0, _⟩ => rfl
    | ⟨1, _⟩ => show win1_2.index t (1 : Fin 2) * 128 + 1 * q.val = q.val; omega
  have hin0 : ((cfg1.win 0).blk t).view.emb (ix2 p q) = ix2 (⟨win1_2.index t (0 : Fin 2) * 2000 + 1 * p.val, ha⟩ : Fin 50000) q := by
    funext d; apply Fin.ext
    match d with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = q.val; omega
  have hin1 : ((cfg1.win 1).blk t).view.emb (ix2 (0 : Fin 1) q) = ix2 (0 : Fin 1) q := by
    funext d; apply Fin.ext
    match d with
    | ⟨0, _⟩ => show win1_1.index t (0 : Fin 2) * 1 + 1 * 0 = 0; omega
    | ⟨1, _⟩ => show win1_1.index t (1 : Fin 2) * 128 + 1 * q.val = q.val; omega
  show k1_pay1 (F := Ideal) (iblk1 V c 0 t) (iblk1 V c 1 t) (ix2 p q)
    = post1 (V c (Pipeline.arrRef spec1 0)) (V c (Pipeline.arrRef spec1 1)) (((cfg1.win 2).blk t).view.emb (ix2 p q))
  rw [hout]
  refine pay1_entry _ _ _ _ p q _ ?_ ?_
  · show V c (Pipeline.arrRef spec1 0) (((cfg1.win 0).blk t).view.emb (ix2 p q)) = _
    rw [hin0]
  · show V c (Pipeline.arrRef spec1 1) (((cfg1.win 1).blk t).view.emb (ix2 (0 : Fin 1) q)) = _
    rw [hin1]

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v46).slice (win1_2.rect t)).set ↔ _
  rw [View.set_slice_whole, Rect.mem_set_unit]
  exact Iff.rfl

/-- The row blocks cover the output array: row r lies in block r / 2000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht0, ht1⟩ := idx_onto1 ⟨(i 0).val / 2000, by omega⟩
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; simp only [] at ht0; omega
  | ⟨1, _⟩ => show win1_2.index t (1 : Fin 2) * 128 ≤ (i 1).val ∧ (i 1).val < win1_2.index t (1 : Fin 2) * 128 + 128; omega

/-- After the region the output array holds the stage's function of the arrays as the region finds them. -/
theorem region1 (c : Dev nD) :
    (dat1 V c).arrAt 2 cfg1.N = post1 (V c (Pipeline.arrRef spec1 0)) (V c (Pipeline.arrRef spec1 1)) :=
  (dat1 V c).arrAt_eq_of_cover 2 _ (fun t _ => flushed1_eq V c t) (cover1)

end Cert.KernelIdeal.RegVal
-- ==== Proof.Region2.lean ====
/-
  Region 2 of the kernel program: a row-blocked matrix product. Grid point t takes rows [2000·t, 2000·t + 2000) of the
  left array and the whole right array and writes the product of the two blocks to the same rows of the output array.
  The 25 row blocks tile the 50000 rows, so after the region the output array is the whole product of the two arrays
  as the region finds them: entry (a, q) is the sum over c of left (a, c) * right (c, q).
-/
import proofs.«104783_j47433618817228_1_alg».proof.Proof.Gen.KernelIdeal.Frame
import proofs.«104783_j47433618817228_1_alg».proof.Proof.Gen.ReferenceIdeal
import proofs.«104783_j47433618817228_1_alg».proof.Proof.LibPoint
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The whole product of the two arrays, as the host computes it. -/
abbrev prod2 (A : S50000x128.Idx → EReal) (B : S128x128.Idx → EReal) : S50000x128.Idx → EReal :=
  Host.dotGeneral (F := Ideal) (φ₁ := .f32) (φ₂ := .f32) Cert.ReferenceIdeal.dot_S50000x128_S128x128_S50000x128_1_0_0_1_n_n none A B

/-- The block index maps over the grid: the left and output blocks move together down the rows, the right block stays. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every row block is some grid point's. -/
theorem idx_onto2 : ∀ q0 : Fin 25, ∃ t : Fin cfg2.N, win2_2.index t (0 : Fin 2) = q0.val ∧ win2_2.index t (1 : Fin 2) = 0 :=
  (by decide +kernel : ∀ q0 : Fin 25, ∃ t : Fin grid2.N, win2_2.index t (0 : Fin 2) = q0.val ∧ win2_2.index t (1 : Fin 2) = 0)

/-- The body's stored value at (p, q): the product of the two loaded blocks there. -/
theorem pay2_entry (x0 : Vec Ideal S2000x128 .f32) (x1 : Vec Ideal S128x128 .f32)
    (A : S50000x128.Idx → EReal) (B : S128x128.Idx → EReal) (p : Fin 2000) (q : Fin 128) (a : Fin 50000)
    (hx : ∀ c : Fin 128, x0 (ix2 p c) = A (ix2 a c)) (hy : ∀ c : Fin 128, x1 (ix2 c q) = B (ix2 c q)) :
    k2_pay1 (F := Ideal) x0 x1 (ix2 p q) = prod2 A B (ix2 a q) := by
  have hx' : ∀ c : Fin 128, (truncf .bf16 (shapeCast S2000x128 x0 shapeCasts_S2000x128_S2000x128) bitsLt_bf16_f32 : FVec Ideal S2000x128 .bf16) (ix2 p c) = A (ix2 a c) := by
    intro c
    rw [← hx c]
    show shapeCast S2000x128 x0 shapeCasts_S2000x128_S2000x128 (ix2 p c) = x0 (ix2 p c)
    rw [shapeCast_self]
  exact Cert.LibPoint.block_product_entry (φ₁ := .f32) (φ₂ := .f32) (ψ₁ := .bf16) (ψ₂ := .bf16)
    Cert.ReferenceIdeal.dot_S50000x128_S128x128_S50000x128_1_0_0_1_n_n.wf dot_S2000x128_S128x128_S2000x128_1_0_0_1_n_n.wf none none A B
    (truncf .bf16 (shapeCast S2000x128 x0 shapeCasts_S2000x128_S2000x128) bitsLt_bf16_f32) (truncf .bf16 x1 bitsLt_bf16_f32) p q a hx' hy

/-- What grid point t writes back is block t of the whole product of the arrays as the region finds them. -/
theorem flushed2_eq (c : Dev nD) (t : Fin cfg2.N) :
    (dat2 V c).flushed 2 t = ((cfg2.win 2).blk t).view.read (Elt Ideal)
      (prod2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x128) hz2]
  obtain ⟨e0, e1, e2, e3, e4, e5⟩ := idx_facts2 t
  funext j
  obtain ⟨p, q, rfl⟩ : ∃ (p : Fin 2000) (q : Fin 128), j = ix2 p q := ⟨j 0, j 1, eq_ix2 j⟩
  have ha : win2_2.index t (0 : Fin 2) * 2000 + 1 * p.val < 50000 := by have := p.isLt; omega
  have hout : ((cfg2.win 2).blk t).view.emb (ix2 p q) = ix2 (⟨win2_2.index t (0 : Fin 2) * 2000 + 1 * p.val, ha⟩ : Fin 50000) q := by
    funext d; apply Fin.ext
    match d with
    | ⟨0, _⟩ => rfl
    | ⟨1, _⟩ => show win2_2.index t (1 : Fin 2) * 128 + 1 * q.val = q.val; omega
  have hin0 : ∀ c' : Fin 128, ((cfg2.win 0).blk t).view.emb (ix2 p c') = ix2 (⟨win2_2.index t (0 : Fin 2) * 2000 + 1 * p.val, ha⟩ : Fin 50000) c' := by
    intro c'; funext d; apply Fin.ext
    match d with
    | ⟨0, _⟩ => show win2_0.index t (0 : Fin 2) * 2000 + 1 * p.val = win2_2.index t (0 : Fin 2) * 2000 + 1 * p.val; omega
    | ⟨1, _⟩ => show win2_0.index t (1 : Fin 2) * 128 + 1 * c'.val = c'.val; omega
  have hin1 : ∀ c' : Fin 128, ((cfg2.win 1).blk t).view.emb (ix2 c' q) = ix2 c' q := by
    intro c'; funext d; apply Fin.ext
    match d with
    | ⟨0, _⟩ => show win2_1.index t (0 : Fin 2) * 128 + 1 * c'.val = c'.val; omega
    | ⟨1, _⟩ => show win2_1.index t (1 : Fin 2) * 128 + 1 * q.val = q.val; omega
  show k2_pay1 (F := Ideal) (iblk2 V c 0 t) (iblk2 V c 1 t) (ix2 p q)
    = prod2 (V c (Pipeline.arrRef spec2 0)) (V c (Pipeline.arrRef spec2 1)) (((cfg2.win 2).blk t).view.emb (ix2 p q))
  rw [hout]
  refine pay2_entry _ _ _ _ p q _ (fun c' => ?_) (fun c' => ?_)
  · show V c (Pipeline.arrRef spec2 0) (((cfg2.win 0).blk t).view.emb (ix2 p c')) = _
    rw [hin0 c']
  · show V c (Pipeline.arrRef spec2 1) (((cfg2.win 1).blk t).view.emb (ix2 c' q)) = _
    rw [hin1 c']

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v47).slice (win2_2.rect t)).set ↔ _
  rw [View.set_slice_whole, Rect.mem_set_unit]
  exact Iff.rfl

/-- The row blocks cover the output array: row r lies in block r / 2000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht0, ht1⟩ := idx_onto2 ⟨(i 0).val / 2000, by omega⟩
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; simp only [] at ht0; omega
  | ⟨1, _⟩ => show win2_2.index t (1 : Fin 2) * 128 ≤ (i 1).val ∧ (i 1).val < win2_2.index t (1 : Fin 2) * 128 + 128; omega

/-- After the region the output array holds the whole product of the two arrays as the region finds them. -/
theorem region2 (c : Dev nD) :
    (dat2 V c).arrAt 2 cfg2.N = prod2 (V c (Pipeline.arrRef spec2 0)) (V c (Pipeline.arrRef spec2 1)) :=
  (dat2 V c).arrAt_eq_of_cover 2 _ (fun t _ => flushed2_eq V c t) (cover2)

end Cert.KernelIdeal.RegVal
-- ==== Proof.WalkA.lean ====
/-
  The kernel program's buffers followed from the launch through the first layer and the second layer's product.
  Each lemma says what one buffer holds at one segment boundary, as a function of the fourteen argument arrays:
  an argument array is never written; the edge endpoints, the edge weights dinv[src]·dinv[dst] and the self weights
  dinv² are computed once by host operations; a region's output is the whole-array function of its inputs (the
  region modules); the host operations between regions gather rows along the edges, weight them, scatter-add them
  to the destination rows and add the self-weighted rows.
-/
import proofs.«104783_j47433618817228_1_alg».proof.Proof.Gen.KernelIdeal.Frame
import proofs.«104783_j47433618817228_1_alg».proof.Proof.ReadP
import proofs.«104783_j47433618817228_1_alg».proof.Proof.LibRow
import proofs.«104783_j47433618817228_1_alg».proof.Proof.Region0
import proofs.«104783_j47433618817228_1_alg».proof.Proof.Region1
import proofs.«104783_j47433618817228_1_alg».proof.Proof.Region2
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The launch memory -/

theorem at0_arg0 : W0 m ρ c (Proc.devRef .tc main_arg0) = m ((c : Thread nD τ).loc main_arg0) := rfl
theorem at0_arg13 : W0 m ρ c (Proc.devRef .tc main_arg13) = m ((c : Thread nD τ).loc main_arg13) := rfl
theorem at0_arg12 : W0 m ρ c (Proc.devRef .tc main_arg12) = m ((c : Thread nD τ).loc main_arg12) := rfl
theorem at0_arg11 : W0 m ρ c (Proc.devRef .tc main_arg11) = m ((c : Thread nD τ).loc main_arg11) := rfl
theorem at0_arg10 : W0 m ρ c (Proc.devRef .tc main_arg10) = m ((c : Thread nD τ).loc main_arg10) := rfl
theorem at0_arg9 : W0 m ρ c (Proc.devRef .tc main_arg9) = m ((c : Thread nD τ).loc main_arg9) := rfl
theorem at0_arg8 : W0 m ρ c (Proc.devRef .tc main_arg8) = m ((c : Thread nD τ).loc main_arg8) := rfl
theorem at0_arg7 : W0 m ρ c (Proc.devRef .tc main_arg7) = m ((c : Thread nD τ).loc main_arg7) := rfl
theorem at0_arg6 : W0 m ρ c (Proc.devRef .tc main_arg6) = m ((c : Thread nD τ).loc main_arg6) := rfl
theorem at0_arg5 : W0 m ρ c (Proc.devRef .tc main_arg5) = m ((c : Thread nD τ).loc main_arg5) := rfl
theorem at0_arg4 : W0 m ρ c (Proc.devRef .tc main_arg4) = m ((c : Thread nD τ).loc main_arg4) := rfl
theorem at0_arg3 : W0 m ρ c (Proc.devRef .tc main_arg3) = m ((c : Thread nD τ).loc main_arg3) := rfl
theorem at0_arg2 : W0 m ρ c (Proc.devRef .tc main_arg2) = m ((c : Thread nD τ).loc main_arg2) := rfl
theorem at0_arg1 : W0 m ρ c (Proc.devRef .tc main_arg1) = m ((c : Thread nD τ).loc main_arg1) := rfl

/-! ## Boundary 1: after the host operations before region 0 -/

theorem at1_arg0 : W1 m ρ c (Proc.devRef .tc main_arg0) = m ((c : Thread nD τ).loc main_arg0) :=
  (by after_results_simp : StableHlo.after hostOps0 (W0 m ρ c) (Proc.devRef .tc main_arg0) = W0 m ρ c (Proc.devRef .tc main_arg0)).trans (at0_arg0 m ρ c)

theorem at1_arg13 : W1 m ρ c (Proc.devRef .tc main_arg13) = m ((c : Thread nD τ).loc main_arg13) :=
  (by after_results_simp : StableHlo.after hostOps0 (W0 m ρ c) (Proc.devRef .tc main_arg13) = W0 m ρ c (Proc.devRef .tc main_arg13)).trans (at0_arg13 m ρ c)

theorem at1_arg12 : W1 m ρ c (Proc.devRef .tc main_arg12) = m ((c : Thread nD τ).loc main_arg12) :=
  (by after_results_simp : StableHlo.after hostOps0 (W0 m ρ c) (Proc.devRef .tc main_arg12) = W0 m ρ c (Proc.devRef .tc main_arg12)).trans (at0_arg12 m ρ c)

/-- Written by the host operations between the regions. -/
theorem at1_v1 : W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  after_results_simp
  simp only [at0_arg1 m ρ c]
  rfl

/-- Written by the host operations between the regions. -/
theorem at1_v25 : W1 m ρ c (Proc.devRef .tc main_v25) = Cert.ReferenceIdeal.ReadP.val_main_v26 (F := Ideal) (m ((c : Thread nD τ).loc main_arg1)) := by
  show StableHlo.after hostOps0 (W0 m ρ c) (Proc.devRef .tc main_v25) = _
  after_results_simp
  simp only [at0_arg1 m ρ c]
  rfl

/-- Written by the host operations between the regions. -/
theorem at1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  simp only [at0_arg1 m ρ c]
  rfl

/-- Written by the host operations between the regions. -/
theorem at1_v26 : W1 m ρ c (Proc.devRef .tc main_v26) = Cert.ReferenceIdeal.ReadP.val_main_v40 (F := Ideal) (m ((c : Thread nD τ).loc main_arg1)) := by
  show StableHlo.after hostOps0 (W0 m ρ c) (Proc.devRef .tc main_v26) = _
  after_results_simp
  simp only [at0_arg1 m ρ c]
  rfl

theorem at1_arg11 : W1 m ρ c (Proc.devRef .tc main_arg11) = m ((c : Thread nD τ).loc main_arg11) :=
  (by after_results_simp : StableHlo.after hostOps0 (W0 m ρ c) (Proc.devRef .tc main_arg11) = W0 m ρ c (Proc.devRef .tc main_arg11)).trans (at0_arg11 m ρ c)

theorem at1_arg10 : W1 m ρ c (Proc.devRef .tc main_arg10) = m ((c : Thread nD τ).loc main_arg10) :=
  (by after_results_simp : StableHlo.after hostOps0 (W0 m ρ c) (Proc.devRef .tc main_arg10) = W0 m ρ c (Proc.devRef .tc main_arg10)).trans (at0_arg10 m ρ c)

theorem at1_arg9 : W1 m ρ c (Proc.devRef .tc main_arg9) = m ((c : Thread nD τ).loc main_arg9) :=
  (by after_results_simp : StableHlo.after hostOps0 (W0 m ρ c) (Proc.devRef .tc main_arg9) = W0 m ρ c (Proc.devRef .tc main_arg9)).trans (at0_arg9 m ρ c)

theorem at1_arg8 : W1 m ρ c (Proc.devRef .tc main_arg8) = m ((c : Thread nD τ).loc main_arg8) :=
  (by after_results_simp : StableHlo.after hostOps0 (W0 m ρ c) (Proc.devRef .tc main_arg8) = W0 m ρ c (Proc.devRef .tc main_arg8)).trans (at0_arg8 m ρ c)

theorem at1_arg7 : W1 m ρ c (Proc.devRef .tc main_arg7) = m ((c : Thread nD τ).loc main_arg7) :=
  (by after_results_simp : StableHlo.after hostOps0 (W0 m ρ c) (Proc.devRef .tc main_arg7) = W0 m ρ c (Proc.devRef .tc main_arg7)).trans (at0_arg7 m ρ c)

theorem at1_arg6 : W1 m ρ c (Proc.devRef .tc main_arg6) = m ((c : Thread nD τ).loc main_arg6) :=
  (by after_results_simp : StableHlo.after hostOps0 (W0 m ρ c) (Proc.devRef .tc main_arg6) = W0 m ρ c (Proc.devRef .tc main_arg6)).trans (at0_arg6 m ρ c)

theorem at1_arg5 : W1 m ρ c (Proc.devRef .tc main_arg5) = m ((c : Thread nD τ).loc main_arg5) :=
  (by after_results_simp : StableHlo.after hostOps0 (W0 m ρ c) (Proc.devRef .tc main_arg5) = W0 m ρ c (Proc.devRef .tc main_arg5)).trans (at0_arg5 m ρ c)

theorem at1_arg4 : W1 m ρ c (Proc.devRef .tc main_arg4) = m ((c : Thread nD τ).loc main_arg4) :=
  (by after_results_simp : StableHlo.after hostOps0 (W0 m ρ c) (Proc.devRef .tc main_arg4) = W0 m ρ c (Proc.devRef .tc main_arg4)).trans (at0_arg4 m ρ c)

theorem at1_arg3 : W1 m ρ c (Proc.devRef .tc main_arg3) = m ((c : Thread nD τ).loc main_arg3) :=
  (by after_results_simp : StableHlo.after hostOps0 (W0 m ρ c) (Proc.devRef .tc main_arg3) = W0 m ρ c (Proc.devRef .tc main_arg3)).trans (at0_arg3 m ρ c)

theorem at1_arg2 : W1 m ρ c (Proc.devRef .tc main_arg2) = m ((c : Thread nD τ).loc main_arg2) :=
  (by after_results_simp : StableHlo.after hostOps0 (W0 m ρ c) (Proc.devRef .tc main_arg2) = W0 m ρ c (Proc.devRef .tc main_arg2)).trans (at0_arg2 m ρ c)

/-! ## Boundary 2: after region 0 -/

theorem at2_arg0 : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (at1_arg0 m ρ c)))

theorem at2_arg13 : W2 m ρ c (Proc.devRef .tc main_arg13) = m ((c : Thread nD τ).loc main_arg13) :=
  (W2_of_ne m ρ c main_arg13 (by decide)).trans (at1_arg13 m ρ c)

theorem at2_arg12 : W2 m ρ c (Proc.devRef .tc main_arg12) = m ((c : Thread nD τ).loc main_arg12) :=
  (W2_of_ne m ρ c main_arg12 (by decide)).trans (at1_arg12 m ρ c)

theorem at2_v1 : W2 m ρ c (Proc.devRef .tc main_v1) = Cert.ReferenceIdeal.ReadP.val_main_v1 (F := Ideal) (m ((c : Thread nD τ).loc main_arg1)) :=
  (W2_of_ne m ρ c main_v1 (by decide)).trans (at1_v1 m ρ c)

theorem at2_v25 : W2 m ρ c (Proc.devRef .tc main_v25) = Cert.ReferenceIdeal.ReadP.val_main_v26 (F := Ideal) (m ((c : Thread nD τ).loc main_arg1)) :=
  (W2_of_ne m ρ c main_v25 (by decide)).trans (at1_v25 m ρ c)

theorem at2_v3 : W2 m ρ c (Proc.devRef .tc main_v3) = Cert.ReferenceIdeal.ReadP.val_main_v3 (F := Ideal) (m ((c : Thread nD τ).loc main_arg1)) :=
  (W2_of_ne m ρ c main_v3 (by decide)).trans (at1_v3 m ρ c)

theorem at2_v26 : W2 m ρ c (Proc.devRef .tc main_v26) = Cert.ReferenceIdeal.ReadP.val_main_v40 (F := Ideal) (m ((c : Thread nD τ).loc main_arg1)) :=
  (W2_of_ne m ρ c main_v26 (by decide)).trans (at1_v26 m ρ c)

theorem at2_arg11 : W2 m ρ c (Proc.devRef .tc main_arg11) = m ((c : Thread nD τ).loc main_arg11) :=
  (W2_of_ne m ρ c main_arg11 (by decide)).trans (at1_arg11 m ρ c)

theorem at2_arg10 : W2 m ρ c (Proc.devRef .tc main_arg10) = m ((c : Thread nD τ).loc main_arg10) :=
  (W2_of_ne m ρ c main_arg10 (by decide)).trans (at1_arg10 m ρ c)

theorem at2_arg9 : W2 m ρ c (Proc.devRef .tc main_arg9) = m ((c : Thread nD τ).loc main_arg9) :=
  (W2_of_ne m ρ c main_arg9 (by decide)).trans (at1_arg9 m ρ c)

theorem at2_arg8 : W2 m ρ c (Proc.devRef .tc main_arg8) = m ((c : Thread nD τ).loc main_arg8) :=
  (W2_of_ne m ρ c main_arg8 (by decide)).trans (at1_arg8 m ρ c)

theorem at2_arg7 : W2 m ρ c (Proc.devRef .tc main_arg7) = m ((c : Thread nD τ).loc main_arg7) :=
  (W2_of_ne m ρ c main_arg7 (by decide)).trans (at1_arg7 m ρ c)

theorem at2_arg6 : W2 m ρ c (Proc.devRef .tc main_arg6) = m ((c : Thread nD τ).loc main_arg6) :=
  (W2_of_ne m ρ c main_arg6 (by decide)).trans (at1_arg6 m ρ c)

theorem at2_arg5 : W2 m ρ c (Proc.devRef .tc main_arg5) = m ((c : Thread nD τ).loc main_arg5) :=
  (W2_of_ne m ρ c main_arg5 (by decide)).trans (at1_arg5 m ρ c)

theorem at2_arg4 : W2 m ρ c (Proc.devRef .tc main_arg4) = m ((c : Thread nD τ).loc main_arg4) :=
  (W2_of_ne m ρ c main_arg4 (by decide)).trans (at1_arg4 m ρ c)

/-- Region 0's output array after the region. -/
theorem at2_v27 : W2 m ρ c (Proc.devRef .tc main_v27) = Cert.ReferenceIdeal.ReadP.val_main_v4 (F := Ideal) (m ((c : Thread nD τ).loc main_arg0)) (m ((c : Thread nD τ).loc main_arg2)) := by
  refine (W2_arr m ρ c 2).trans ((RegVal.region0 (V1 m ρ) c).trans ?_)
  show RegVal.prod0 (W1 m ρ c (Proc.devRef .tc main_arg0)) (W1 m ρ c (Proc.devRef .tc main_arg2)) = _
  rw [at1_arg0 m ρ c, at1_arg2 m ρ c]
  rfl

theorem at2_arg3 : W2 m ρ c (Proc.devRef .tc main_arg3) = m ((c : Thread nD τ).loc main_arg3) :=
  (W2_of_ne m ρ c main_arg3 (by decide)).trans (at1_arg3 m ρ c)

/-! ## Boundary 3: after the host operations before region 1 -/

theorem at3_arg0 : W3 m ρ c (Proc.devRef .tc main_arg0) = m ((c : Thread nD τ).loc main_arg0) :=
  (by after_results_simp : StableHlo.after hostOps1 (W2 m ρ c) (Proc.devRef .tc main_arg0) = W2 m ρ c (Proc.devRef .tc main_arg0)).trans (at2_arg0 m ρ c)

theorem at3_arg13 : W3 m ρ c (Proc.devRef .tc main_arg13) = m ((c : Thread nD τ).loc main_arg13) :=
  (by after_results_simp : StableHlo.after hostOps1 (W2 m ρ c) (Proc.devRef .tc main_arg13) = W2 m ρ c (Proc.devRef .tc main_arg13)).trans (at2_arg13 m ρ c)

theorem at3_arg12 : W3 m ρ c (Proc.devRef .tc main_arg12) = m ((c : Thread nD τ).loc main_arg12) :=
  (by after_results_simp : StableHlo.after hostOps1 (W2 m ρ c) (Proc.devRef .tc main_arg12) = W2 m ρ c (Proc.devRef .tc main_arg12)).trans (at2_arg12 m ρ c)

theorem at3_v1 : W3 m ρ c (Proc.devRef .tc main_v1) = Cert.ReferenceIdeal.ReadP.val_main_v1 (F := Ideal) (m ((c : Thread nD τ).loc main_arg1)) :=
  (by after_results_simp : StableHlo.after hostOps1 (W2 m ρ c) (Proc.devRef .tc main_v1) = W2 m ρ c (Proc.devRef .tc main_v1)).trans (at2_v1 m ρ c)

theorem at3_v25 : W3 m ρ c (Proc.devRef .tc main_v25) = Cert.ReferenceIdeal.ReadP.val_main_v26 (F := Ideal) (m ((c : Thread nD τ).loc main_arg1)) :=
  (by after_results_simp : StableHlo.after hostOps1 (W2 m ρ c) (Proc.devRef .tc main_v25) = W2 m ρ c (Proc.devRef .tc main_v25)).trans (at2_v25 m ρ c)

theorem at3_v3 : W3 m ρ c (Proc.devRef .tc main_v3) = Cert.ReferenceIdeal.ReadP.val_main_v3 (F := Ideal) (m ((c : Thread nD τ).loc main_arg1)) :=
  (by after_results_simp : StableHlo.after hostOps1 (W2 m ρ c) (Proc.devRef .tc main_v3) = W2 m ρ c (Proc.devRef .tc main_v3)).trans (at2_v3 m ρ c)

theorem at3_v26 : W3 m ρ c (Proc.devRef .tc main_v26) = Cert.ReferenceIdeal.ReadP.val_main_v40 (F := Ideal) (m ((c : Thread nD τ).loc main_arg1)) :=
  (by after_results_simp : StableHlo.after hostOps1 (W2 m ρ c) (Proc.devRef .tc main_v26) = W2 m ρ c (Proc.devRef .tc main_v26)).trans (at2_v26 m ρ c)

theorem at3_arg11 : W3 m ρ c (Proc.devRef .tc main_arg11) = m ((c : Thread nD τ).loc main_arg11) :=
  (by after_results_simp : StableHlo.after hostOps1 (W2 m ρ c) (Proc.devRef .tc main_arg11) = W2 m ρ c (Proc.devRef .tc main_arg11)).trans (at2_arg11 m ρ c)

theorem at3_arg10 : W3 m ρ c (Proc.devRef .tc main_arg10) = m ((c : Thread nD τ).loc main_arg10) :=
  (by after_results_simp : StableHlo.after hostOps1 (W2 m ρ c) (Proc.devRef .tc main_arg10) = W2 m ρ c (Proc.devRef .tc main_arg10)).trans (at2_arg10 m ρ c)

theorem at3_arg9 : W3 m ρ c (Proc.devRef .tc main_arg9) = m ((c : Thread nD τ).loc main_arg9) :=
  (by after_results_simp : StableHlo.after hostOps1 (W2 m ρ c) (Proc.devRef .tc main_arg9) = W2 m ρ c (Proc.devRef .tc main_arg9)).trans (at2_arg9 m ρ c)

theorem at3_arg8 : W3 m ρ c (Proc.devRef .tc main_arg8) = m ((c : Thread nD τ).loc main_arg8) :=
  (by after_results_simp : StableHlo.after hostOps1 (W2 m ρ c) (Proc.devRef .tc main_arg8) = W2 m ρ c (Proc.devRef .tc main_arg8)).trans (at2_arg8 m ρ c)

theorem at3_arg7 : W3 m ρ c (Proc.devRef .tc main_arg7) = m ((c : Thread nD τ).loc main_arg7) :=
  (by after_results_simp : StableHlo.after hostOps1 (W2 m ρ c) (Proc.devRef .tc main_arg7) = W2 m ρ c (Proc.devRef .tc main_arg7)).trans (at2_arg7 m ρ c)

theorem at3_arg6 : W3 m ρ c (Proc.devRef .tc main_arg6) = m ((c : Thread nD τ).loc main_arg6) :=
  (by after_results_simp : StableHlo.after hostOps1 (W2 m ρ c) (Proc.devRef .tc main_arg6) = W2 m ρ c (Proc.devRef .tc main_arg6)).trans (at2_arg6 m ρ c)

theorem at3_arg5 : W3 m ρ c (Proc.devRef .tc main_arg5) = m ((c : Thread nD τ).loc main_arg5) :=
  (by after_results_simp : StableHlo.after hostOps1 (W2 m ρ c) (Proc.devRef .tc main_arg5) = W2 m ρ c (Proc.devRef .tc main_arg5)).trans (at2_arg5 m ρ c)

theorem at3_arg4 : W3 m ρ c (Proc.devRef .tc main_arg4) = m ((c : Thread nD τ).loc main_arg4) :=
  (by after_results_simp : StableHlo.after hostOps1 (W2 m ρ c) (Proc.devRef .tc main_arg4) = W2 m ρ c (Proc.devRef .tc main_arg4)).trans (at2_arg4 m ρ c)

/-- Written by the host operations between the regions. -/
theorem at3_v44 : W3 m ρ c (Proc.devRef .tc main_v44) = Cert.ReferenceIdeal.ReadP.val_main_v44 (F := Ideal) (m ((c : Thread nD τ).loc main_arg0)) (m ((c : Thread nD τ).loc main_arg1)) (m ((c : Thread nD τ).loc main_arg2)) := by
  show StableHlo.after hostOps1 (W2 m ρ c) (Proc.devRef .tc main_v44) = _
  after_results_simp
  simp only [at2_v1 m ρ c, at2_v27 m ρ c, at2_v25 m ρ c, at2_v3 m ρ c, at2_v26 m ρ c]
  rfl

/-- Written by the host operations between the regions. -/
theorem at3_v45 : W3 m ρ c (Proc.devRef .tc main_v45) = Cert.ReferenceIdeal.ReadP.val_main_v45 (F := Ideal) (m ((c : Thread nD τ).loc main_arg3)) := by
  show StableHlo.after hostOps1 (W2 m ρ c) (Proc.devRef .tc main_v45) = _
  after_results_simp
  simp only [at2_arg3 m ρ c]
  exact Cert.LibRow.reshape_row_eq_broadcast _ _ _

/-! ## Boundary 4: after region 1 -/

theorem at4_arg0 : W4 m ρ c (Proc.devRef .tc main_arg0) = m ((c : Thread nD τ).loc main_arg0) :=
  (W4_of_ne m ρ c main_arg0 (by decide)).trans (at3_arg0 m ρ c)

theorem at4_arg13 : W4 m ρ c (Proc.devRef .tc main_arg13) = m ((c : Thread nD τ).loc main_arg13) :=
  (W4_of_ne m ρ c main_arg13 (by decide)).trans (at3_arg13 m ρ c)

theorem at4_arg12 : W4 m ρ c (Proc.devRef .tc main_arg12) = m ((c : Thread nD τ).loc main_arg12) :=
  (W4_of_ne m ρ c main_arg12 (by decide)).trans (at3_arg12 m ρ c)

theorem at4_v1 : W4 m ρ c (Proc.devRef .tc main_v1) = Cert.ReferenceIdeal.ReadP.val_main_v1 (F := Ideal) (m ((c : Thread nD τ).loc main_arg1)) :=
  (W4_of_ne m ρ c main_v1 (by decide)).trans (at3_v1 m ρ c)

theorem at4_v25 : W4 m ρ c (Proc.devRef .tc main_v25) = Cert.ReferenceIdeal.ReadP.val_main_v26 (F := Ideal) (m ((c : Thread nD τ).loc main_arg1)) :=
  (W4_of_ne m ρ c main_v25 (by decide)).trans (at3_v25 m ρ c)

theorem at4_v3 : W4 m ρ c (Proc.devRef .tc main_v3) = Cert.ReferenceIdeal.ReadP.val_main_v3 (F := Ideal) (m ((c : Thread nD τ).loc main_arg1)) :=
  (W4_of_ne m ρ c main_v3 (by decide)).trans (at3_v3 m ρ c)

theorem at4_v26 : W4 m ρ c (Proc.devRef .tc main_v26) = Cert.ReferenceIdeal.ReadP.val_main_v40 (F := Ideal) (m ((c : Thread nD τ).loc main_arg1)) :=
  (W4_of_ne m ρ c main_v26 (by decide)).trans (at3_v26 m ρ c)

theorem at4_arg11 : W4 m ρ c (Proc.devRef .tc main_arg11) = m ((c : Thread nD τ).loc main_arg11) :=
  (W4_of_ne m ρ c main_arg11 (by decide)).trans (at3_arg11 m ρ c)

theorem at4_arg10 : W4 m ρ c (Proc.devRef .tc main_arg10) = m ((c : Thread nD τ).loc main_arg10) :=
  (W4_of_ne m ρ c main_arg10 (by decide)).trans (at3_arg10 m ρ c)

theorem at4_arg9 : W4 m ρ c (Proc.devRef .tc main_arg9) = m ((c : Thread nD τ).loc main_arg9) :=
  (W4_of_ne m ρ c main_arg9 (by decide)).trans (at3_arg9 m ρ c)

theorem at4_arg8 : W4 m ρ c (Proc.devRef .tc main_arg8) = m ((c : Thread nD τ).loc main_arg8) :=
  (W4_of_ne m ρ c main_arg8 (by decide)).trans (at3_arg8 m ρ c)

theorem at4_arg7 : W4 m ρ c (Proc.devRef .tc main_arg7) = m ((c : Thread nD τ).loc main_arg7) :=
  (W4_of_ne m ρ c main_arg7 (by decide)).trans (at3_arg7 m ρ c)

theorem at4_arg6 : W4 m ρ c (Proc.devRef .tc main_arg6) = m ((c : Thread nD τ).loc main_arg6) :=
  (W4_of_ne m ρ c main_arg6 (by decide)).trans (at3_arg6 m ρ c)

theorem at4_arg5 : W4 m ρ c (Proc.devRef .tc main_arg5) = m ((c : Thread nD τ).loc main_arg5) :=
  (W4_of_ne m ρ c main_arg5 (by decide)).trans (at3_arg5 m ρ c)

/-- Region 1's output array after the region. -/
theorem at4_v46 : W4 m ρ c (Proc.devRef .tc main_v46) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((RegVal.region1 (V3 m ρ) c).trans ?_)
  show RegVal.post1 (W3 m ρ c (Proc.devRef .tc main_v44)) (W3 m ρ c (Proc.devRef .tc main_v45)) = _
  rw [at3_v44 m ρ c, at3_v45 m ρ c]
  rfl

theorem at4_arg4 : W4 m ρ c (Proc.devRef .tc main_arg4) = m ((c : Thread nD τ).loc main_arg4) :=
  (W4_of_ne m ρ c main_arg4 (by decide)).trans (at3_arg4 m ρ c)

/-! ## Boundary 5: after region 2 -/

theorem at5_arg0 : W5 m ρ c (Proc.devRef .tc main_arg0) = m ((c : Thread nD τ).loc main_arg0) :=
  (W5_of_ne m ρ c main_arg0 (by decide)).trans (at4_arg0 m ρ c)

theorem at5_arg13 : W5 m ρ c (Proc.devRef .tc main_arg13) = m ((c : Thread nD τ).loc main_arg13) :=
  (W5_of_ne m ρ c main_arg13 (by decide)).trans (at4_arg13 m ρ c)

theorem at5_arg12 : W5 m ρ c (Proc.devRef .tc main_arg12) = m ((c : Thread nD τ).loc main_arg12) :=
  (W5_of_ne m ρ c main_arg12 (by decide)).trans (at4_arg12 m ρ c)

theorem at5_v1 : W5 m ρ c (Proc.devRef .tc main_v1) = Cert.ReferenceIdeal.ReadP.val_main_v1 (F := Ideal) (m ((c : Thread nD τ).loc main_arg1)) :=
  (W5_of_ne m ρ c main_v1 (by decide)).trans (at4_v1 m ρ c)

theorem at5_v25 : W5 m ρ c (Proc.devRef .tc main_v25) = Cert.ReferenceIdeal.ReadP.val_main_v26 (F := Ideal) (m ((c : Thread nD τ).loc main_arg1)) :=
  (W5_of_ne m ρ c main_v25 (by decide)).trans (at4_v25 m ρ c)

theorem at5_v3 : W5 m ρ c (Proc.devRef .tc main_v3) = Cert.ReferenceIdeal.ReadP.val_main_v3 (F := Ideal) (m ((c : Thread nD τ).loc main_arg1)) :=
  (W5_of_ne m ρ c main_v3 (by decide)).trans (at4_v3 m ρ c)

theorem at5_v26 : W5 m ρ c (Proc.devRef .tc main_v26) = Cert.ReferenceIdeal.ReadP.val_main_v40 (F := Ideal) (m ((c : Thread nD τ).loc main_arg1)) :=
  (W5_of_ne m ρ c main_v26 (by decide)).trans (at4_v26 m ρ c)

theorem at5_arg11 : W5 m ρ c (Proc.devRef .tc main_arg11) = m ((c : Thread nD τ).loc main_arg11) :=
  (W5_of_ne m ρ c main_arg11 (by decide)).trans (at4_arg11 m ρ c)

theorem at5_arg10 : W5 m ρ c (Proc.devRef .tc main_arg10) = m ((c : Thread nD τ).loc main_arg10) :=
  (W5_of_ne m ρ c main_arg10 (by decide)).trans (at4_arg10 m ρ c)

theorem at5_arg9 : W5 m ρ c (Proc.devRef .tc main_arg9) = m ((c : Thread nD τ).loc main_arg9) :=
  (W5_of_ne m ρ c main_arg9 (by decide)).trans (at4_arg9 m ρ c)

theorem at5_arg8 : W5 m ρ c (Proc.devRef .tc main_arg8) = m ((c : Thread nD τ).loc main_arg8) :=
  (W5_of_ne m ρ c main_arg8 (by decide)).trans (at4_arg8 m ρ c)

theorem at5_arg7 : W5 m ρ c (Proc.devRef .tc main_arg7) = m ((c : Thread nD τ).loc main_arg7) :=
  (W5_of_ne m ρ c main_arg7 (by decide)).trans (at4_arg7 m ρ c)

theorem at5_arg6 : W5 m ρ c (Proc.devRef .tc main_arg6) = m ((c : Thread nD τ).loc main_arg6) :=
  (W5_of_ne m ρ c main_arg6 (by decide)).trans (at4_arg6 m ρ c)

/-- Region 2's output array after the region. -/
theorem at5_v47 : W5 m ρ c (Proc.devRef .tc main_v47) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((RegVal.region2 (V4 m ρ) c).trans ?_)
  show RegVal.prod2 (W4 m ρ c (Proc.devRef .tc main_v46)) (W4 m ρ c (Proc.devRef .tc main_arg4)) = _
  rw [at4_v46 m ρ c, at4_arg4 m ρ c]
  rfl

theorem at5_arg5 : W5 m ρ c (Proc.devRef .tc main_arg5) = m ((c : Thread nD τ).loc main_arg5) :=
  (W5_of_ne m ρ c main_arg5 (by decide)).trans (at4_arg5 m ρ c)

end Cert.KernelIdeal.Walk
-- ==== Proof.Region3.lean ====
/-
  Region 3 of the kernel program: a row-blocked pointwise stage. Grid point t takes rows [2000·t, 2000·t + 2000) of the
  aggregated array and the one bias row, adds the bias row to every row, applies the leaky rectifier u ↦ (u if u ≥ 0 else 0.01·u)
  and writes the result to the same rows of the output array. The 25 row blocks tile the 50000 rows, so after the region
  the output array is that same pointwise function of the whole arrays as the region finds them.
-/
import proofs.«104783_j47433618817228_1_alg».proof.Proof.Gen.KernelIdeal.Frame
import proofs.«104783_j47433618817228_1_alg».proof.Proof.Gen.ReferenceIdeal
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The aggregated array plus the bias row repeated down the rows, as the host computes it. -/
abbrev biased3 (A : S50000x128.Idx → EReal) (B : S1x128.Idx → EReal) : S50000x128.Idx → EReal :=
  addf (F := Ideal) (φ := .f32) A (broadcastInDim Cert.ReferenceIdeal.S50000x128 ![0, 1] Cert.ReferenceIdeal.Facts₀.bcast_S1x128_S50000x128_0_1 B)

/-- The leaky rectifier of that, as the host computes it. -/
abbrev act3 (A : S50000x128.Idx → EReal) (B : S1x128.Idx → EReal) : S50000x128.Idx → EReal :=
  select (cmpf (F := Ideal) .oge (biased3 A B) (broadcastInDim Cert.ReferenceIdeal.S50000x128 ![] Cert.ReferenceIdeal.Facts₀.bcast_S_S50000x128 (constant (F := Ideal) Cert.ReferenceIdeal.S_ .f32 0x00000000#32)))
    (biased3 A B) (mulf (F := Ideal) (φ := .f32) (broadcastInDim Cert.ReferenceIdeal.S50000x128 ![] Cert.ReferenceIdeal.Facts₀.bcast_S_S50000x128 (constant (F := Ideal) Cert.ReferenceIdeal.S_ .f32 0x3C23D70A#32)) (biased3 A B))

/-- The stage's whole-array function. -/
abbrev post3 (A : S50000x128.Idx → EReal) (B : S1x128.Idx → EReal) : S50000x128.Idx → EReal :=
  act3 A B

/-- The leaky rectifier on one extended real. -/
abbrev sc3 (u : EReal) : EReal :=
  Scalar.select (FloatOps.cmpf (F := Ideal) (φ := .f32) .oge u (Ideal.ofBits .f32 0x00000000#32)) u (Ideal.ofBits .f32 0x3C23D70A#32 * u)

/-- The block index maps over the grid: the row blocks of the inputs and the output move together, the bias row stays. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 24 :=
  (by decide +kernel : ∀ t : Fin grid3.N, _)

/-- Every row block is some grid point's. -/
theorem idx_onto3 : ∀ q0 : Fin 25, ∃ t : Fin cfg3.N, win3_2.index t (0 : Fin 2) = q0.val ∧ win3_2.index t (1 : Fin 2) = 0 :=
  (by decide +kernel : ∀ q0 : Fin 25, ∃ t : Fin grid3.N, win3_2.index t (0 : Fin 2) = q0.val ∧ win3_2.index t (1 : Fin 2) = 0)

/-- The body's stored value at (p, q) is the stage's function at (a, q), when the loaded blocks hold row a there. -/
theorem pay3_entry (x0 : Vec Ideal S2000x128 .f32) (x1 : Vec Ideal S1x128 .f32)
    (A : S50000x128.Idx → EReal) (B : S1x128.Idx → EReal) (p : Fin 2000) (q : Fin 128) (a : Fin 50000)
    (hx : x0 (ix2 p q) = A (ix2 a q)) (hy : x1 (ix2 (0 : Fin 1) q) = B (ix2 (0 : Fin 1) q)) :
    k3_pay1 (F := Ideal) x0 x1 (ix2 p q) = post3 A B (ix2 a q) := by
  have hb : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun d => by match d with | ⟨0, _⟩ => rfl | ⟨1, _⟩ => rfl)
  have hB : broadcastInDim Cert.ReferenceIdeal.S50000x128 ![0, 1] Cert.ReferenceIdeal.Facts₀.bcast_S1x128_S50000x128_0_1 B (ix2 a q) = B (ix2 (0 : Fin 1) q) :=
    broadcastInDim_apply _ _ B (ix2 a q) (ix2 (0 : Fin 1) q) (fun d => by match d with | ⟨0, _⟩ => rfl | ⟨1, _⟩ => rfl)
  have e1 : k3_pay1 (F := Ideal) x0 x1 (ix2 p q) = sc3 (shapeCast S2000x128 x0 shapeCasts_S2000x128_S2000x128 (ix2 p q) + broadcastTo S2000x128 (shapeCast S1x128 x1 shapeCasts_S1x128_S1x128) broadcasts_S1x128_S2000x128 (ix2 p q)) := rfl
  have e2 : post3 A B (ix2 a q) = sc3 (A (ix2 a q) + broadcastInDim Cert.ReferenceIdeal.S50000x128 ![0, 1] Cert.ReferenceIdeal.Facts₀.bcast_S1x128_S50000x128_0_1 B (ix2 a q)) := rfl
  rw [e1, e2, shapeCast_self x0, hb, hB, hx, hy]

/-- What grid point t writes back is block t of the stage's function of the arrays as the region finds them. -/
theorem flushed3_eq (c : Dev nD) (t : Fin cfg3.N) :
    (dat3 V c).flushed 2 t = ((cfg3.win 2).blk t).view.read (Elt Ideal)
      (post3 (V c (Pipeline.arrRef spec3 0)) (V c (Pipeline.arrRef spec3 1))) := by
  show (cfg3.win 2).cut (grid3.coords t) ((dat3 V c).after 2 t) = _
  rw [after3_2]
  unfold out3_2
  rw [View.canon_unit_zero hz3]
  simp only [View.ld_unit_zero (S := S2000x128) hz3, View.ld_unit_zero (S := S1x128) hz3]
  obtain ⟨e0, e1, e2, e3, e4, e5⟩ := idx_facts3 t
  funext j
  obtain ⟨p, q, rfl⟩ : ∃ (p : Fin 2000) (q : Fin 128), j = ix2 p q := ⟨j 0, j 1, eq_ix2 j⟩
  have ha : win3_2.index t (0 : Fin 2) * 2000 + 1 * p.val < 50000 := by have := p.isLt; omega
  have hout : ((cfg3.win 2).blk t).view.emb (ix2 p q) = ix2 (⟨win3_2.index t (0 : Fin 2) * 2000 + 1 * p.val, ha⟩ : Fin 50000) q := by
    funext d; apply Fin.ext
    match d with
    | ⟨0, _⟩ => rfl
    | ⟨1, _⟩ => show win3_2.index t (1 : Fin 2) * 128 + 1 * q.val = q.val; omega
  have hin0 : ((cfg3.win 0).blk t).view.emb (ix2 p q) = ix2 (⟨win3_2.index t (0 : Fin 2) * 2000 + 1 * p.val, ha⟩ : Fin 50000) q := by
    funext d; apply Fin.ext
    match d with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = q.val; omega
  have hin1 : ((cfg3.win 1).blk t).view.emb (ix2 (0 : Fin 1) q) = ix2 (0 : Fin 1) q := by
    funext d; apply Fin.ext
    match d with
    | ⟨0, _⟩ => show win3_1.index t (0 : Fin 2) * 1 + 1 * 0 = 0; omega
    | ⟨1, _⟩ => show win3_1.index t (1 : Fin 2) * 128 + 1 * q.val = q.val; omega
  show k3_pay1 (F := Ideal) (iblk3 V c 0 t) (iblk3 V c 1 t) (ix2 p q)
    = post3 (V c (Pipeline.arrRef spec3 0)) (V c (Pipeline.arrRef spec3 1)) (((cfg3.win 2).blk t).view.emb (ix2 p q))
  rw [hout]
  refine pay3_entry _ _ _ _ p q _ ?_ ?_
  · show V c (Pipeline.arrRef spec3 0) (((cfg3.win 0).blk t).view.emb (ix2 p q)) = _
    rw [hin0]
  · show V c (Pipeline.arrRef spec3 1) (((cfg3.win 1).blk t).view.emb (ix2 (0 : Fin 1) q)) = _
    rw [hin1]

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v66).slice (win3_2.rect t)).set ↔ _
  rw [View.set_slice_whole, Rect.mem_set_unit]
  exact Iff.rfl

/-- The row blocks cover the output array: row r lies in block r / 2000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht0, ht1⟩ := idx_onto3 ⟨(i 0).val / 2000, by omega⟩
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; simp only [] at ht0; omega
  | ⟨1, _⟩ => show win3_2.index t (1 : Fin 2) * 128 ≤ (i 1).val ∧ (i 1).val < win3_2.index t (1 : Fin 2) * 128 + 128; omega

/-- After the region the output array holds the stage's function of the arrays as the region finds them. -/
theorem region3 (c : Dev nD) :
    (dat3 V c).arrAt 2 cfg3.N = post3 (V c (Pipeline.arrRef spec3 0)) (V c (Pipeline.arrRef spec3 1)) :=
  (dat3 V c).arrAt_eq_of_cover 2 _ (fun t _ => flushed3_eq V c t) (cover3)

end Cert.KernelIdeal.RegVal
-- ==== Proof.Region4.lean ====
/-
  Region 4 of the kernel program: a row-blocked matrix product. Grid point t takes rows [2000·t, 2000·t + 2000) of the
  left array and the whole right array and writes the product of the two blocks to the same rows of the output array.
  The 25 row blocks tile the 50000 rows, so after the region the output array is the whole product of the two arrays
  as the region finds them: entry (a, q) is the sum over c of left (a, c) * right (c, q).
-/
import proofs.«104783_j47433618817228_1_alg».proof.Proof.Gen.KernelIdeal.Frame
import proofs.«104783_j47433618817228_1_alg».proof.Proof.Gen.ReferenceIdeal
import proofs.«104783_j47433618817228_1_alg».proof.Proof.LibPoint
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz4 : (![0, 0] : Fin 2 → Nat) = fun _ => 0 := funext fun a => by fin_cases a <;> rfl

/-- The whole product of the two arrays, as the host computes it. -/
abbrev prod4 (A : S50000x128.Idx → EReal) (B : S128x128.Idx → EReal) : S50000x128.Idx → EReal :=
  Host.dotGeneral (F := Ideal) (φ₁ := .f32) (φ₂ := .f32) Cert.ReferenceIdeal.dot_S50000x128_S128x128_S50000x128_1_0_0_1_n_n none A B

/-- The block index maps over the grid: the left and output blocks move together down the rows, the right block stays. -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 24 :=
  (by decide +kernel : ∀ t : Fin grid4.N, _)

/-- Every row block is some grid point's. -/
theorem idx_onto4 : ∀ q0 : Fin 25, ∃ t : Fin cfg4.N, win4_2.index t (0 : Fin 2) = q0.val ∧ win4_2.index t (1 : Fin 2) = 0 :=
  (by decide +kernel : ∀ q0 : Fin 25, ∃ t : Fin grid4.N, win4_2.index t (0 : Fin 2) = q0.val ∧ win4_2.index t (1 : Fin 2) = 0)

/-- The body's stored value at (p, q): the product of the two loaded blocks there. -/
theorem pay4_entry (x0 : Vec Ideal S2000x128 .f32) (x1 : Vec Ideal S128x128 .f32)
    (A : S50000x128.Idx → EReal) (B : S128x128.Idx → EReal) (p : Fin 2000) (q : Fin 128) (a : Fin 50000)
    (hx : ∀ c : Fin 128, x0 (ix2 p c) = A (ix2 a c)) (hy : ∀ c : Fin 128, x1 (ix2 c q) = B (ix2 c q)) :
    k4_pay1 (F := Ideal) x0 x1 (ix2 p q) = prod4 A B (ix2 a q) := by
  have hx' : ∀ c : Fin 128, (truncf .bf16 (shapeCast S2000x128 x0 shapeCasts_S2000x128_S2000x128) bitsLt_bf16_f32 : FVec Ideal S2000x128 .bf16) (ix2 p c) = A (ix2 a c) := by
    intro c
    rw [← hx c]
    show shapeCast S2000x128 x0 shapeCasts_S2000x128_S2000x128 (ix2 p c) = x0 (ix2 p c)
    rw [shapeCast_self]
  exact Cert.LibPoint.block_product_entry (φ₁ := .f32) (φ₂ := .f32) (ψ₁ := .bf16) (ψ₂ := .bf16)
    Cert.ReferenceIdeal.dot_S50000x128_S128x128_S50000x128_1_0_0_1_n_n.wf dot_S2000x128_S128x128_S2000x128_1_0_0_1_n_n.wf none none A B
    (truncf .bf16 (shapeCast S2000x128 x0 shapeCasts_S2000x128_S2000x128) bitsLt_bf16_f32) (truncf .bf16 x1 bitsLt_bf16_f32) p q a hx' hy

/-- What grid point t writes back is block t of the whole product of the arrays as the region finds them. -/
theorem flushed4_eq (c : Dev nD) (t : Fin cfg4.N) :
    (dat4 V c).flushed 2 t = ((cfg4.win 2).blk t).view.read (Elt Ideal)
      (prod4 (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S2000x128) hz4, View.ld_unit_zero (S := S128x128) hz4]
  obtain ⟨e0, e1, e2, e3, e4, e5⟩ := idx_facts4 t
  funext j
  obtain ⟨p, q, rfl⟩ : ∃ (p : Fin 2000) (q : Fin 128), j = ix2 p q := ⟨j 0, j 1, eq_ix2 j⟩
  have ha : win4_2.index t (0 : Fin 2) * 2000 + 1 * p.val < 50000 := by have := p.isLt; omega
  have hout : ((cfg4.win 2).blk t).view.emb (ix2 p q) = ix2 (⟨win4_2.index t (0 : Fin 2) * 2000 + 1 * p.val, ha⟩ : Fin 50000) q := by
    funext d; apply Fin.ext
    match d with
    | ⟨0, _⟩ => rfl
    | ⟨1, _⟩ => show win4_2.index t (1 : Fin 2) * 128 + 1 * q.val = q.val; omega
  have hin0 : ∀ c' : Fin 128, ((cfg4.win 0).blk t).view.emb (ix2 p c') = ix2 (⟨win4_2.index t (0 : Fin 2) * 2000 + 1 * p.val, ha⟩ : Fin 50000) c' := by
    intro c'; funext d; apply Fin.ext
    match d with
    | ⟨0, _⟩ => show win4_0.index t (0 : Fin 2) * 2000 + 1 * p.val = win4_2.index t (0 : Fin 2) * 2000 + 1 * p.val; omega
    | ⟨1, _⟩ => show win4_0.index t (1 : Fin 2) * 128 + 1 * c'.val = c'.val; omega
  have hin1 : ∀ c' : Fin 128, ((cfg4.win 1).blk t).view.emb (ix2 c' q) = ix2 c' q := by
    intro c'; funext d; apply Fin.ext
    match d with
    | ⟨0, _⟩ => show win4_1.index t (0 : Fin 2) * 128 + 1 * c'.val = c'.val; omega
    | ⟨1, _⟩ => show win4_1.index t (1 : Fin 2) * 128 + 1 * q.val = q.val; omega
  show k4_pay1 (F := Ideal) (iblk4 V c 0 t) (iblk4 V c 1 t) (ix2 p q)
    = prod4 (V c (Pipeline.arrRef spec4 0)) (V c (Pipeline.arrRef spec4 1)) (((cfg4.win 2).blk t).view.emb (ix2 p q))
  rw [hout]
  refine pay4_entry _ _ _ _ p q _ (fun c' => ?_) (fun c' => ?_)
  · show V c (Pipeline.arrRef spec4 0) (((cfg4.win 0).blk t).view.emb (ix2 p c')) = _
    rw [hin0 c']
  · show V c (Pipeline.arrRef spec4 1) (((cfg4.win 1).blk t).view.emb (ix2 c' q)) = _
    rw [hin1 c']

/-- An index of the output array is in point t's block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v67).slice (win4_2.rect t)).set ↔ _
  rw [View.set_slice_whole, Rect.mem_set_unit]
  exact Iff.rfl

/-- The row blocks cover the output array: row r lies in block r / 2000. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht0, ht1⟩ := idx_onto4 ⟨(i 0).val / 2000, by omega⟩
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; simp only [] at ht0; omega
  | ⟨1, _⟩ => show win4_2.index t (1 : Fin 2) * 128 ≤ (i 1).val ∧ (i 1).val < win4_2.index t (1 : Fin 2) * 128 + 128; omega

/-- After the region the output array holds the whole product of the two arrays as the region finds them. -/
theorem region4 (c : Dev nD) :
    (dat4 V c).arrAt 2 cfg4.N = prod4 (V c (Pipeline.arrRef spec4 0)) (V c (Pipeline.arrRef spec4 1)) :=
  (dat4 V c).arrAt_eq_of_cover 2 _ (fun t _ => flushed4_eq V c t) (cover4)

end Cert.KernelIdeal.RegVal
-- ==== Proof.Region5.lean ====
/-
  Region 5 of the kernel program: a row-blocked pointwise stage. Grid point t takes rows [2000·t, 2000·t + 2000) of the
  aggregated array and of the residual array and the one bias row, adds the bias row to every row, applies the leaky rectifier u ↦ (u if u ≥ 0 else 0.01·u), adds the residual rows
  and writes the result to the same rows of the output array. The 25 row blocks tile the 50000 rows, so after the region
  the output array is that same pointwise function of the whole arrays as the region finds them.
-/
import proofs.«104783_j47433618817228_1_alg».proof.Proof.Gen.KernelIdeal.Frame
import proofs.«104783_j47433618817228_1_alg».proof.Proof.Gen.ReferenceIdeal
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz5 : (![0, 0] : Fin 2 → Nat) = fun _ => 0 := funext fun a => by fin_cases a <;> rfl

/-- The aggregated array plus the bias row repeated down the rows, as the host computes it. -/
abbrev biased5 (A : S50000x128.Idx → EReal) (B : S1x128.Idx → EReal) : S50000x128.Idx → EReal :=
  addf (F := Ideal) (φ := .f32) A (broadcastInDim Cert.ReferenceIdeal.S50000x128 ![0, 1] Cert.ReferenceIdeal.Facts₀.bcast_S1x128_S50000x128_0_1 B)

/-- The leaky rectifier of that, as the host computes it. -/
abbrev act5 (A : S50000x128.Idx → EReal) (B : S1x128.Idx → EReal) : S50000x128.Idx → EReal :=
  select (cmpf (F := Ideal) .oge (biased5 A B) (broadcastInDim Cert.ReferenceIdeal.S50000x128 ![] Cert.ReferenceIdeal.Facts₀.bcast_S_S50000x128 (constant (F := Ideal) Cert.ReferenceIdeal.S_ .f32 0x00000000#32)))
    (biased5 A B) (mulf (F := Ideal) (φ := .f32) (broadcastInDim Cert.ReferenceIdeal.S50000x128 ![] Cert.ReferenceIdeal.Facts₀.bcast_S_S50000x128 (constant (F := Ideal) Cert.ReferenceIdeal.S_ .f32 0x3C23D70A#32)) (biased5 A B))

/-- The stage's whole-array function. -/
abbrev post5 (A : S50000x128.Idx → EReal) (B : S1x128.Idx → EReal) (R : S50000x128.Idx → EReal) : S50000x128.Idx → EReal :=
  addf (F := Ideal) (φ := .f32) (act5 A B) R

/-- The leaky rectifier on one extended real. -/
abbrev sc5 (u : EReal) : EReal :=
  Scalar.select (FloatOps.cmpf (F := Ideal) (φ := .f32) .oge u (Ideal.ofBits .f32 0x00000000#32)) u (Ideal.ofBits .f32 0x3C23D70A#32 * u)

/-- The block index maps over the grid: the row blocks of the inputs and the output move together, the bias row stays. -/
theorem idx_facts5 : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_3.index t (1 : Fin 2) = 0 ∧ win5_3.index t (0 : Fin 2) ≤ 24
    ∧ win5_2.index t (0 : Fin 2) = win5_3.index t (0 : Fin 2) ∧ win5_2.index t (1 : Fin 2) = 0 :=
  (by decide +kernel : ∀ t : Fin grid5.N, _)

/-- Every row block is some grid point's. -/
theorem idx_onto5 : ∀ q0 : Fin 25, ∃ t : Fin cfg5.N, win5_3.index t (0 : Fin 2) = q0.val ∧ win5_3.index t (1 : Fin 2) = 0 :=
  (by decide +kernel : ∀ q0 : Fin 25, ∃ t : Fin grid5.N, win5_3.index t (0 : Fin 2) = q0.val ∧ win5_3.index t (1 : Fin 2) = 0)

/-- The body's stored value at (p, q) is the stage's function at (a, q), when the loaded blocks hold row a there. -/
theorem pay5_entry (x0 : Vec Ideal S2000x128 .f32) (x1 : Vec Ideal S1x128 .f32) (x2 : Vec Ideal S2000x128 .f32)
    (A : S50000x128.Idx → EReal) (B : S1x128.Idx → EReal) (R : S50000x128.Idx → EReal) (p : Fin 2000) (q : Fin 128) (a : Fin 50000)
    (hx : x0 (ix2 p q) = A (ix2 a q)) (hy : x1 (ix2 (0 : Fin 1) q) = B (ix2 (0 : Fin 1) q)) (hr : x2 (ix2 p q) = R (ix2 a q)) :
    k5_pay1 (F := Ideal) x0 x1 x2 (ix2 p q) = post5 A B R (ix2 a q) := by
  have hb : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun d => by match d with | ⟨0, _⟩ => rfl | ⟨1, _⟩ => rfl)
  have hB : broadcastInDim Cert.ReferenceIdeal.S50000x128 ![0, 1] Cert.ReferenceIdeal.Facts₀.bcast_S1x128_S50000x128_0_1 B (ix2 a q) = B (ix2 (0 : Fin 1) q) :=
    broadcastInDim_apply _ _ B (ix2 a q) (ix2 (0 : Fin 1) q) (fun d => by match d with | ⟨0, _⟩ => rfl | ⟨1, _⟩ => rfl)
  have e1 : k5_pay1 (F := Ideal) x0 x1 x2 (ix2 p q) = sc5 (shapeCast S2000x128 x0 shapeCasts_S2000x128_S2000x128 (ix2 p q) + broadcastTo S2000x128 (shapeCast S1x128 x1 shapeCasts_S1x128_S1x128) broadcasts_S1x128_S2000x128 (ix2 p q)) + shapeCast S2000x128 x2 shapeCasts_S2000x128_S2000x128 (ix2 p q) := rfl
  have e2 : post5 A B R (ix2 a q) = sc5 (A (ix2 a q) + broadcastInDim Cert.ReferenceIdeal.S50000x128 ![0, 1] Cert.ReferenceIdeal.Facts₀.bcast_S1x128_S50000x128_0_1 B (ix2 a q)) + R (ix2 a q) := rfl
  rw [e1, e2, shapeCast_self x0, hb, hB, hx, hy, shapeCast_self x2, hr]

set_option maxHeartbeats 2000000 in
/-- What grid point t writes back is block t of the stage's function of the arrays as the region finds them. -/
theorem flushed5_eq (c : Dev nD) (t : Fin cfg5.N) :
    (dat5 V c).flushed 3 t = ((cfg5.win 3).blk t).view.read (Elt Ideal)
      (post5 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S2000x128) hz5, View.ld_unit_zero (S := S1x128) hz5]
  obtain ⟨e0, e1, e2, e3, e4, e5, e6, e7⟩ := idx_facts5 t
  funext j
  obtain ⟨p, q, rfl⟩ : ∃ (p : Fin 2000) (q : Fin 128), j = ix2 p q := ⟨j 0, j 1, eq_ix2 j⟩
  have ha : win5_3.index t (0 : Fin 2) * 2000 + 1 * p.val < 50000 := by have := p.isLt; omega
  have hout : ((cfg5.win 3).blk t).view.emb (ix2 p q) = ix2 (⟨win5_3.index t (0 : Fin 2) * 2000 + 1 * p.val, ha⟩ : Fin 50000) q := by
    funext d; apply Fin.ext
    match d with
    | ⟨0, _⟩ => rfl
    | ⟨1, _⟩ => show win5_3.index t (1 : Fin 2) * 128 + 1 * q.val = q.val; omega
  have hin0 : ((cfg5.win 0).blk t).view.emb (ix2 p q) = ix2 (⟨win5_3.index t (0 : Fin 2) * 2000 + 1 * p.val, ha⟩ : Fin 50000) q := by
    funext d; apply Fin.ext
    match d with
    | ⟨0, _⟩ => show win5_0.index t (0 : Fin 2) * 2000 + 1 * p.val = win5_3.index t (0 : Fin 2) * 2000 + 1 * p.val; omega
    | ⟨1, _⟩ => show win5_0.index t (1 : Fin 2) * 128 + 1 * q.val = q.val; omega
  have hin1 : ((cfg5.win 1).blk t).view.emb (ix2 (0 : Fin 1) q) = ix2 (0 : Fin 1) q := by
    funext d; apply Fin.ext
    match d with
    | ⟨0, _⟩ => show win5_1.index t (0 : Fin 2) * 1 + 1 * 0 = 0; omega
    | ⟨1, _⟩ => show win5_1.index t (1 : Fin 2) * 128 + 1 * q.val = q.val; omega
  have hin2 : ((cfg5.win 2).blk t).view.emb (ix2 p q) = ix2 (⟨win5_3.index t (0 : Fin 2) * 2000 + 1 * p.val, ha⟩ : Fin 50000) q := by
    funext d; apply Fin.ext
    match d with
    | ⟨0, _⟩ => show win5_2.index t (0 : Fin 2) * 2000 + 1 * p.val = win5_3.index t (0 : Fin 2) * 2000 + 1 * p.val; omega
    | ⟨1, _⟩ => show win5_2.index t (1 : Fin 2) * 128 + 1 * q.val = q.val; omega
  show k5_pay1 (F := Ideal) (iblk5 V c 0 t) (iblk5 V c 1 t) (iblk5 V c 2 t) (ix2 p q)
    = post5 (V c (Pipeline.arrRef spec5 0)) (V c (Pipeline.arrRef spec5 1)) (V c (Pipeline.arrRef spec5 2)) (((cfg5.win 3).blk t).view.emb (ix2 p q))
  rw [hout]
  refine pay5_entry _ _ _ _ _ _ p q _ ?_ ?_ ?_
  · show V c (Pipeline.arrRef spec5 0) (((cfg5.win 0).blk t).view.emb (ix2 p q)) = _
    rw [hin0]
  · show V c (Pipeline.arrRef spec5 1) (((cfg5.win 1).blk t).view.emb (ix2 (0 : Fin 1) q)) = _
    rw [hin1]
  · show V c (Pipeline.arrRef spec5 2) (((cfg5.win 2).blk t).view.emb (ix2 p q)) = _
    rw [hin2]

/-- An index of the output array is in point t's block iff each coordinate is in the block's range on its axis. -/
theorem mem_blk5 (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v86).slice (win5_3.rect t)).set ↔ _
  rw [View.set_slice_whole, Rect.mem_set_unit]
  exact Iff.rfl

/-- The row blocks cover the output array: row r lies in block r / 2000. -/
theorem cover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht0, ht1⟩ := idx_onto5 ⟨(i 0).val / 2000, by omega⟩
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; simp only [] at ht0; omega
  | ⟨1, _⟩ => show win5_3.index t (1 : Fin 2) * 128 ≤ (i 1).val ∧ (i 1).val < win5_3.index t (1 : Fin 2) * 128 + 128; omega

/-- After the region the output array holds the stage's function of the arrays as the region finds them. -/
theorem region5 (c : Dev nD) :
    (dat5 V c).arrAt 3 cfg5.N = post5 (V c (Pipeline.arrRef spec5 0)) (V c (Pipeline.arrRef spec5 1)) (V c (Pipeline.arrRef spec5 2)) :=
  (dat5 V c).arrAt_eq_of_cover 3 _ (fun t _ => flushed5_eq V c t) (cover5)

end Cert.KernelIdeal.RegVal
-- ==== Proof.Region6.lean ====
/-
  Region 6 of the kernel program: a row-blocked matrix product. Grid point t takes rows [2000·t, 2000·t + 2000) of the
  left array and the whole right array and writes the product of the two blocks to the same rows of the output array.
  The 25 row blocks tile the 50000 rows, so after the region the output array is the whole product of the two arrays
  as the region finds them: entry (a, q) is the sum over c of left (a, c) * right (c, q).
-/
import proofs.«104783_j47433618817228_1_alg».proof.Proof.Gen.KernelIdeal.Frame
import proofs.«104783_j47433618817228_1_alg».proof.Proof.Gen.ReferenceIdeal
import proofs.«104783_j47433618817228_1_alg».proof.Proof.LibPoint
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz6 : (![0, 0] : Fin 2 → Nat) = fun _ => 0 := funext fun a => by fin_cases a <;> rfl

/-- The whole product of the two arrays, as the host computes it. -/
abbrev prod6 (A : S50000x128.Idx → EReal) (B : S128x64.Idx → EReal) : S50000x64.Idx → EReal :=
  Host.dotGeneral (F := Ideal) (φ₁ := .f32) (φ₂ := .f32) Cert.ReferenceIdeal.dot_S50000x128_S128x64_S50000x64_1_0_0_1_n_n none A B

/-- The block index maps over the grid: the left and output blocks move together down the rows, the right block stays. -/
theorem idx_facts6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 24 :=
  (by decide +kernel : ∀ t : Fin grid6.N, _)

/-- Every row block is some grid point's. -/
theorem idx_onto6 : ∀ q0 : Fin 25, ∃ t : Fin cfg6.N, win6_2.index t (0 : Fin 2) = q0.val ∧ win6_2.index t (1 : Fin 2) = 0 :=
  (by decide +kernel : ∀ q0 : Fin 25, ∃ t : Fin grid6.N, win6_2.index t (0 : Fin 2) = q0.val ∧ win6_2.index t (1 : Fin 2) = 0)

/-- The body's stored value at (p, q): the product of the two loaded blocks there. -/
theorem pay6_entry (x0 : Vec Ideal S2000x128 .f32) (x1 : Vec Ideal S128x64 .f32)
    (A : S50000x128.Idx → EReal) (B : S128x64.Idx → EReal) (p : Fin 2000) (q : Fin 64) (a : Fin 50000)
    (hx : ∀ c : Fin 128, x0 (ix2 p c) = A (ix2 a c)) (hy : ∀ c : Fin 128, x1 (ix2 c q) = B (ix2 c q)) :
    k6_pay1 (F := Ideal) x0 x1 (ix2 p q) = prod6 A B (ix2 a q) := by
  have hx' : ∀ c : Fin 128, (truncf .bf16 (shapeCast S2000x128 x0 shapeCasts_S2000x128_S2000x128) bitsLt_bf16_f32 : FVec Ideal S2000x128 .bf16) (ix2 p c) = A (ix2 a c) := by
    intro c
    rw [← hx c]
    show shapeCast S2000x128 x0 shapeCasts_S2000x128_S2000x128 (ix2 p c) = x0 (ix2 p c)
    rw [shapeCast_self]
  exact Cert.LibPoint.block_product_entry (φ₁ := .f32) (φ₂ := .f32) (ψ₁ := .bf16) (ψ₂ := .bf16)
    Cert.ReferenceIdeal.dot_S50000x128_S128x64_S50000x64_1_0_0_1_n_n.wf dot_S2000x128_S128x64_S2000x64_1_0_0_1_n_n.wf none none A B
    (truncf .bf16 (shapeCast S2000x128 x0 shapeCasts_S2000x128_S2000x128) bitsLt_bf16_f32) (truncf .bf16 x1 bitsLt_bf16_f32) p q a hx' hy

/-- What grid point t writes back is block t of the whole product of the arrays as the region finds them. -/
theorem flushed6_eq (c : Dev nD) (t : Fin cfg6.N) :
    (dat6 V c).flushed 2 t = ((cfg6.win 2).blk t).view.read (Elt Ideal)
      (prod6 (V c (Pipeline.arrRef spec6 0)) (V c (Pipeline.arrRef spec6 1))) := by
  show (cfg6.win 2).cut (grid6.coords t) ((dat6 V c).after 2 t) = _
  rw [after6_2]
  unfold out6_2
  rw [View.canon_unit_zero hz6]
  simp only [View.ld_unit_zero (S := S2000x128) hz6, View.ld_unit_zero (S := S128x64) hz6]
  obtain ⟨e0, e1, e2, e3, e4, e5⟩ := idx_facts6 t
  funext j
  obtain ⟨p, q, rfl⟩ : ∃ (p : Fin 2000) (q : Fin 64), j = ix2 p q := ⟨j 0, j 1, eq_ix2 j⟩
  have ha : win6_2.index t (0 : Fin 2) * 2000 + 1 * p.val < 50000 := by have := p.isLt; omega
  have hout : ((cfg6.win 2).blk t).view.emb (ix2 p q) = ix2 (⟨win6_2.index t (0 : Fin 2) * 2000 + 1 * p.val, ha⟩ : Fin 50000) q := by
    funext d; apply Fin.ext
    match d with
    | ⟨0, _⟩ => rfl
    | ⟨1, _⟩ => show win6_2.index t (1 : Fin 2) * 64 + 1 * q.val = q.val; omega
  have hin0 : ∀ c' : Fin 128, ((cfg6.win 0).blk t).view.emb (ix2 p c') = ix2 (⟨win6_2.index t (0 : Fin 2) * 2000 + 1 * p.val, ha⟩ : Fin 50000) c' := by
    intro c'; funext d; apply Fin.ext
    match d with
    | ⟨0, _⟩ => show win6_0.index t (0 : Fin 2) * 2000 + 1 * p.val = win6_2.index t (0 : Fin 2) * 2000 + 1 * p.val; omega
    | ⟨1, _⟩ => show win6_0.index t (1 : Fin 2) * 128 + 1 * c'.val = c'.val; omega
  have hin1 : ∀ c' : Fin 128, ((cfg6.win 1).blk t).view.emb (ix2 c' q) = ix2 c' q := by
    intro c'; funext d; apply Fin.ext
    match d with
    | ⟨0, _⟩ => show win6_1.index t (0 : Fin 2) * 128 + 1 * c'.val = c'.val; omega
    | ⟨1, _⟩ => show win6_1.index t (1 : Fin 2) * 64 + 1 * q.val = q.val; omega
  show k6_pay1 (F := Ideal) (iblk6 V c 0 t) (iblk6 V c 1 t) (ix2 p q)
    = prod6 (V c (Pipeline.arrRef spec6 0)) (V c (Pipeline.arrRef spec6 1)) (((cfg6.win 2).blk t).view.emb (ix2 p q))
  rw [hout]
  refine pay6_entry _ _ _ _ p q _ (fun c' => ?_) (fun c' => ?_)
  · show V c (Pipeline.arrRef spec6 0) (((cfg6.win 0).blk t).view.emb (ix2 p c')) = _
    rw [hin0 c']
  · show V c (Pipeline.arrRef spec6 1) (((cfg6.win 1).blk t).view.emb (ix2 c' q)) = _
    rw [hin1 c']

/-- An index of the output array is in point t's block iff each coordinate is in the block's range on its axis. -/
theorem mem_blk6 (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v87).slice (win6_2.rect t)).set ↔ _
  rw [View.set_slice_whole, Rect.mem_set_unit]
  exact Iff.rfl

/-- The row blocks cover the output array: row r lies in block r / 2000. -/
theorem cover6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht0, ht1⟩ := idx_onto6 ⟨(i 0).val / 2000, by omega⟩
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; simp only [] at ht0; omega
  | ⟨1, _⟩ => show win6_2.index t (1 : Fin 2) * 64 ≤ (i 1).val ∧ (i 1).val < win6_2.index t (1 : Fin 2) * 64 + 64; omega

/-- After the region the output array holds the whole product of the two arrays as the region finds them. -/
theorem region6 (c : Dev nD) :
    (dat6 V c).arrAt 2 cfg6.N = prod6 (V c (Pipeline.arrRef spec6 0)) (V c (Pipeline.arrRef spec6 1)) :=
  (dat6 V c).arrAt_eq_of_cover 2 _ (fun t _ => flushed6_eq V c t) (cover6)

end Cert.KernelIdeal.RegVal
-- ==== Proof.WalkB.lean ====
/-
  The kernel program's buffers followed through the second, third and fourth layers (segment boundaries 6 to 11):
  the host operations aggregate the product along the edges, the pointwise regions add the bias, rectify and (third
  layer) add the residual, the product regions multiply by the next weight. Same reading as the first layer's.
-/
import proofs.«104783_j47433618817228_1_alg».proof.Proof.WalkA
import proofs.«104783_j47433618817228_1_alg».proof.Proof.Region3
import proofs.«104783_j47433618817228_1_alg».proof.Proof.Region4
import proofs.«104783_j47433618817228_1_alg».proof.Proof.Region5
import proofs.«104783_j47433618817228_1_alg».proof.Proof.Region6
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Boundary 6: after the host operations before region 3 -/

theorem at6_arg0 : W6 m ρ c (Proc.devRef .tc main_arg0) = m ((c : Thread nD τ).loc main_arg0) :=
  (by after_results_simp : StableHlo.after hostOps3 (W5 m ρ c) (Proc.devRef .tc main_arg0) = W5 m ρ c (Proc.devRef .tc main_arg0)).trans (at5_arg0 m ρ c)

theorem at6_arg13 : W6 m ρ c (Proc.devRef .tc main_arg13) = m ((c : Thread nD τ).loc main_arg13) :=
  (by after_results_simp : StableHlo.after hostOps3 (W5 m ρ c) (Proc.devRef .tc main_arg13) = W5 m ρ c (Proc.devRef .tc main_arg13)).trans (at5_arg13 m ρ c)

theorem at6_arg12 : W6 m ρ c (Proc.devRef .tc main_arg12) = m ((c : Thread nD τ).loc main_arg12) :=
  (by after_results_simp : StableHlo.after hostOps3 (W5 m ρ c) (Proc.devRef .tc main_arg12) = W5 m ρ c (Proc.devRef .tc main_arg12)).trans (at5_arg12 m ρ c)

theorem at6_v1 : W6 m ρ c (Proc.devRef .tc main_v1) = Cert.ReferenceIdeal.ReadP.val_main_v1 (F := Ideal) (m ((c : Thread nD τ).loc main_arg1)) :=
  (by after_results_simp : StableHlo.after hostOps3 (W5 m ρ c) (Proc.devRef .tc main_v1) = W5 m ρ c (Proc.devRef .tc main_v1)).trans (at5_v1 m ρ c)

theorem at6_v25 : W6 m ρ c (Proc.devRef .tc main_v25) = Cert.ReferenceIdeal.ReadP.val_main_v26 (F := Ideal) (m ((c : Thread nD τ).loc main_arg1)) :=
  (by after_results_simp : StableHlo.after hostOps3 (W5 m ρ c) (Proc.devRef .tc main_v25) = W5 m ρ c (Proc.devRef .tc main_v25)).trans (at5_v25 m ρ c)

theorem at6_v3 : W6 m ρ c (Proc.devRef .tc main_v3) = Cert.ReferenceIdeal.ReadP.val_main_v3 (F := Ideal) (m ((c : Thread nD τ).loc main_arg1)) :=
  (by after_results_simp : StableHlo.after hostOps3 (W5 m ρ c) (Proc.devRef .tc main_v3) = W5 m ρ c (Proc.devRef .tc main_v3)).trans (at5_v3 m ρ c)

theorem at6_v26 : W6 m ρ c (Proc.devRef .tc main_v26) = Cert.ReferenceIdeal.ReadP.val_main_v40 (F := Ideal) (m ((c : Thread nD τ).loc main_arg1)) :=
  (by after_results_simp : StableHlo.after hostOps3 (W5 m ρ c) (Proc.devRef .tc main_v26) = W5 m ρ c (Proc.devRef .tc main_v26)).trans (at5_v26 m ρ c)

theorem at6_arg11 : W6 m ρ c (Proc.devRef .tc main_arg11) = m ((c : Thread nD τ).loc main_arg11) :=
  (by after_results_simp : StableHlo.after hostOps3 (W5 m ρ c) (Proc.devRef .tc main_arg11) = W5 m ρ c (Proc.devRef .tc main_arg11)).trans (at5_arg11 m ρ c)

theorem at6_arg10 : W6 m ρ c (Proc.devRef .tc main_arg10) = m ((c : Thread nD τ).loc main_arg10) :=
  (by after_results_simp : StableHlo.after hostOps3 (W5 m ρ c) (Proc.devRef .tc main_arg10) = W5 m ρ c (Proc.devRef .tc main_arg10)).trans (at5_arg10 m ρ c)

theorem at6_arg9 : W6 m ρ c (Proc.devRef .tc main_arg9) = m ((c : Thread nD τ).loc main_arg9) :=
  (by after_results_simp : StableHlo.after hostOps3 (W5 m ρ c) (Proc.devRef .tc main_arg9) = W5 m ρ c (Proc.devRef .tc main_arg9)).trans (at5_arg9 m ρ c)

theorem at6_arg8 : W6 m ρ c (Proc.devRef .tc main_arg8) = m ((c : Thread nD τ).loc main_arg8) :=
  (by after_results_simp : StableHlo.after hostOps3 (W5 m ρ c) (Proc.devRef .tc main_arg8) = W5 m ρ c (Proc.devRef .tc main_arg8)).trans (at5_arg8 m ρ c)

theorem at6_arg7 : W6 m ρ c (Proc.devRef .tc main_arg7) = m ((c : Thread nD τ).loc main_arg7) :=
  (by after_results_simp : StableHlo.after hostOps3 (W5 m ρ c) (Proc.devRef .tc main_arg7) = W5 m ρ c (Proc.devRef .tc main_arg7)).trans (at5_arg7 m ρ c)

theorem at6_arg6 : W6 m ρ c (Proc.devRef .tc main_arg6) = m ((c : Thread nD τ).loc main_arg6) :=
  (by after_results_simp : StableHlo.after hostOps3 (W5 m ρ c) (Proc.devRef .tc main_arg6) = W5 m ρ c (Proc.devRef .tc main_arg6)).trans (at5_arg6 m ρ c)

/-- Written by the host operations between the regions. -/
theorem at6_v64 : W6 m ρ c (Proc.devRef .tc main_v64) = Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v64) = _
  after_results_simp
  simp only [at5_v1 m ρ c, at5_v47 m ρ c, at5_v25 m ρ c, at5_v3 m ρ c, at5_v26 m ρ c]
  rfl

/-- Written by the host operations between the regions. -/
theorem at6_v65 : W6 m ρ c (Proc.devRef .tc main_v65) = Cert.ReferenceIdeal.ReadP.val_main_v94 (F := Ideal) (m ((c : Thread nD τ).loc main_arg5)) := by
  show StableHlo.after hostOps3 (W5 m ρ c) (Proc.devRef .tc main_v65) = _
  after_results_simp
  simp only [at5_arg5 m ρ c]
  exact Cert.LibRow.reshape_row_eq_broadcast _ _ _

/-! ## Boundary 7: after region 3 -/

theorem at7_arg0 : W7 m ρ c (Proc.devRef .tc main_arg0) = m ((c : Thread nD τ).loc main_arg0) :=
  (W7_of_ne m ρ c main_arg0 (by decide)).trans (at6_arg0 m ρ c)

theorem at7_arg13 : W7 m ρ c (Proc.devRef .tc main_arg13) = m ((c : Thread nD τ).loc main_arg13) :=
  (W7_of_ne m ρ c main_arg13 (by decide)).trans (at6_arg13 m ρ c)

theorem at7_arg12 : W7 m ρ c (Proc.devRef .tc main_arg12) = m ((c : Thread nD τ).loc main_arg12) :=
  (W7_of_ne m ρ c main_arg12 (by decide)).trans (at6_arg12 m ρ c)

theorem at7_v1 : W7 m ρ c (Proc.devRef .tc main_v1) = Cert.ReferenceIdeal.ReadP.val_main_v1 (F := Ideal) (m ((c : Thread nD τ).loc main_arg1)) :=
  (W7_of_ne m ρ c main_v1 (by decide)).trans (at6_v1 m ρ c)

theorem at7_v25 : W7 m ρ c (Proc.devRef .tc main_v25) = Cert.ReferenceIdeal.ReadP.val_main_v26 (F := Ideal) (m ((c : Thread nD τ).loc main_arg1)) :=
  (W7_of_ne m ρ c main_v25 (by decide)).trans (at6_v25 m ρ c)

theorem at7_v3 : W7 m ρ c (Proc.devRef .tc main_v3) = Cert.ReferenceIdeal.ReadP.val_main_v3 (F := Ideal) (m ((c : Thread nD τ).loc main_arg1)) :=
  (W7_of_ne m ρ c main_v3 (by decide)).trans (at6_v3 m ρ c)

theorem at7_v26 : W7 m ρ c (Proc.devRef .tc main_v26) = Cert.ReferenceIdeal.ReadP.val_main_v40 (F := Ideal) (m ((c : Thread nD τ).loc main_arg1)) :=
  (W7_of_ne m ρ c main_v26 (by decide)).trans (at6_v26 m ρ c)

theorem at7_arg11 : W7 m ρ c (Proc.devRef .tc main_arg11) = m ((c : Thread nD τ).loc main_arg11) :=
  (W7_of_ne m ρ c main_arg11 (by decide)).trans (at6_arg11 m ρ c)

theorem at7_arg10 : W7 m ρ c (Proc.devRef .tc main_arg10) = m ((c : Thread nD τ).loc main_arg10) :=
  (W7_of_ne m ρ c main_arg10 (by decide)).trans (at6_arg10 m ρ c)

theorem at7_arg9 : W7 m ρ c (Proc.devRef .tc main_arg9) = m ((c : Thread nD τ).loc main_arg9) :=
  (W7_of_ne m ρ c main_arg9 (by decide)).trans (at6_arg9 m ρ c)

theorem at7_arg8 : W7 m ρ c (Proc.devRef .tc main_arg8) = m ((c : Thread nD τ).loc main_arg8) :=
  (W7_of_ne m ρ c main_arg8 (by decide)).trans (at6_arg8 m ρ c)

/-- Region 3's output array after the region. -/
theorem at7_v66 : W7 m ρ c (Proc.devRef .tc main_v66) = Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((RegVal.region3 (V6 m ρ) c).trans ?_)
  show RegVal.post3 (W6 m ρ c (Proc.devRef .tc main_v64)) (W6 m ρ c (Proc.devRef .tc main_v65)) = _
  rw [at6_v64 m ρ c, at6_v65 m ρ c]
  rfl

theorem at7_arg7 : W7 m ρ c (Proc.devRef .tc main_arg7) = m ((c : Thread nD τ).loc main_arg7) :=
  (W7_of_ne m ρ c main_arg7 (by decide)).trans (at6_arg7 m ρ c)

theorem at7_arg6 : W7 m ρ c (Proc.devRef .tc main_arg6) = m ((c : Thread nD τ).loc main_arg6) :=
  (W7_of_ne m ρ c main_arg6 (by decide)).trans (at6_arg6 m ρ c)

/-! ## Boundary 8: after region 4 -/

theorem at8_arg0 : W8 m ρ c (Proc.devRef .tc main_arg0) = m ((c : Thread nD τ).loc main_arg0) :=
  (W8_of_ne m ρ c main_arg0 (by decide)).trans (at7_arg0 m ρ c)

theorem at8_arg13 : W8 m ρ c (Proc.devRef .tc main_arg13) = m ((c : Thread nD τ).loc main_arg13) :=
  (W8_of_ne m ρ c main_arg13 (by decide)).trans (at7_arg13 m ρ c)

theorem at8_arg12 : W8 m ρ c (Proc.devRef .tc main_arg12) = m ((c : Thread nD τ).loc main_arg12) :=
  (W8_of_ne m ρ c main_arg12 (by decide)).trans (at7_arg12 m ρ c)

theorem at8_v1 : W8 m ρ c (Proc.devRef .tc main_v1) = Cert.ReferenceIdeal.ReadP.val_main_v1 (F := Ideal) (m ((c : Thread nD τ).loc main_arg1)) :=
  (W8_of_ne m ρ c main_v1 (by decide)).trans (at7_v1 m ρ c)

theorem at8_v25 : W8 m ρ c (Proc.devRef .tc main_v25) = Cert.ReferenceIdeal.ReadP.val_main_v26 (F := Ideal) (m ((c : Thread nD τ).loc main_arg1)) :=
  (W8_of_ne m ρ c main_v25 (by decide)).trans (at7_v25 m ρ c)

theorem at8_v3 : W8 m ρ c (Proc.devRef .tc main_v3) = Cert.ReferenceIdeal.ReadP.val_main_v3 (F := Ideal) (m ((c : Thread nD τ).loc main_arg1)) :=
  (W8_of_ne m ρ c main_v3 (by decide)).trans (at7_v3 m ρ c)

theorem at8_v26 : W8 m ρ c (Proc.devRef .tc main_v26) = Cert.ReferenceIdeal.ReadP.val_main_v40 (F := Ideal) (m ((c : Thread nD τ).loc main_arg1)) :=
  (W8_of_ne m ρ c main_v26 (by decide)).trans (at7_v26 m ρ c)

theorem at8_arg11 : W8 m ρ c (Proc.devRef .tc main_arg11) = m ((c : Thread nD τ).loc main_arg11) :=
  (W8_of_ne m ρ c main_arg11 (by decide)).trans (at7_arg11 m ρ c)

theorem at8_arg10 : W8 m ρ c (Proc.devRef .tc main_arg10) = m ((c : Thread nD τ).loc main_arg10) :=
  (W8_of_ne m ρ c main_arg10 (by decide)).trans (at7_arg10 m ρ c)

theorem at8_arg9 : W8 m ρ c (Proc.devRef .tc main_arg9) = m ((c : Thread nD τ).loc main_arg9) :=
  (W8_of_ne m ρ c main_arg9 (by decide)).trans (at7_arg9 m ρ c)

theorem at8_arg8 : W8 m ρ c (Proc.devRef .tc main_arg8) = m ((c : Thread nD τ).loc main_arg8) :=
  (W8_of_ne m ρ c main_arg8 (by decide)).trans (at7_arg8 m ρ c)

theorem at8_v66 : W8 m ρ c (Proc.devRef .tc main_v66) = Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 0).trans (((dat4 (V7 m ρ) c).arrAt_in 0 rfl _).trans ((A_eq4 (V7 m ρ) c 0).trans (at7_v66 m ρ c)))

/-- Region 4's output array after the region. -/
theorem at8_v67 : W8 m ρ c (Proc.devRef .tc main_v67) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((RegVal.region4 (V7 m ρ) c).trans ?_)
  show RegVal.prod4 (W7 m ρ c (Proc.devRef .tc main_v66)) (W7 m ρ c (Proc.devRef .tc main_arg6)) = _
  rw [at7_v66 m ρ c, at7_arg6 m ρ c]
  rfl

theorem at8_arg7 : W8 m ρ c (Proc.devRef .tc main_arg7) = m ((c : Thread nD τ).loc main_arg7) :=
  (W8_of_ne m ρ c main_arg7 (by decide)).trans (at7_arg7 m ρ c)

/-! ## Boundary 9: after the host operations before region 5 -/

theorem at9_arg0 : W9 m ρ c (Proc.devRef .tc main_arg0) = m ((c : Thread nD τ).loc main_arg0) :=
  (by after_results_simp : StableHlo.after hostOps5 (W8 m ρ c) (Proc.devRef .tc main_arg0) = W8 m ρ c (Proc.devRef .tc main_arg0)).trans (at8_arg0 m ρ c)

theorem at9_arg13 : W9 m ρ c (Proc.devRef .tc main_arg13) = m ((c : Thread nD τ).loc main_arg13) :=
  (by after_results_simp : StableHlo.after hostOps5 (W8 m ρ c) (Proc.devRef .tc main_arg13) = W8 m ρ c (Proc.devRef .tc main_arg13)).trans (at8_arg13 m ρ c)

theorem at9_arg12 : W9 m ρ c (Proc.devRef .tc main_arg12) = m ((c : Thread nD τ).loc main_arg12) :=
  (by after_results_simp : StableHlo.after hostOps5 (W8 m ρ c) (Proc.devRef .tc main_arg12) = W8 m ρ c (Proc.devRef .tc main_arg12)).trans (at8_arg12 m ρ c)

theorem at9_v1 : W9 m ρ c (Proc.devRef .tc main_v1) = Cert.ReferenceIdeal.ReadP.val_main_v1 (F := Ideal) (m ((c : Thread nD τ).loc main_arg1)) :=
  (by after_results_simp : StableHlo.after hostOps5 (W8 m ρ c) (Proc.devRef .tc main_v1) = W8 m ρ c (Proc.devRef .tc main_v1)).trans (at8_v1 m ρ c)

theorem at9_v25 : W9 m ρ c (Proc.devRef .tc main_v25) = Cert.ReferenceIdeal.ReadP.val_main_v26 (F := Ideal) (m ((c : Thread nD τ).loc main_arg1)) :=
  (by after_results_simp : StableHlo.after hostOps5 (W8 m ρ c) (Proc.devRef .tc main_v25) = W8 m ρ c (Proc.devRef .tc main_v25)).trans (at8_v25 m ρ c)

theorem at9_v3 : W9 m ρ c (Proc.devRef .tc main_v3) = Cert.ReferenceIdeal.ReadP.val_main_v3 (F := Ideal) (m ((c : Thread nD τ).loc main_arg1)) :=
  (by after_results_simp : StableHlo.after hostOps5 (W8 m ρ c) (Proc.devRef .tc main_v3) = W8 m ρ c (Proc.devRef .tc main_v3)).trans (at8_v3 m ρ c)

theorem at9_v26 : W9 m ρ c (Proc.devRef .tc main_v26) = Cert.ReferenceIdeal.ReadP.val_main_v40 (F := Ideal) (m ((c : Thread nD τ).loc main_arg1)) :=
  (by after_results_simp : StableHlo.after hostOps5 (W8 m ρ c) (Proc.devRef .tc main_v26) = W8 m ρ c (Proc.devRef .tc main_v26)).trans (at8_v26 m ρ c)

theorem at9_arg11 : W9 m ρ c (Proc.devRef .tc main_arg11) = m ((c : Thread nD τ).loc main_arg11) :=
  (by after_results_simp : StableHlo.after hostOps5 (W8 m ρ c) (Proc.devRef .tc main_arg11) = W8 m ρ c (Proc.devRef .tc main_arg11)).trans (at8_arg11 m ρ c)

theorem at9_arg10 : W9 m ρ c (Proc.devRef .tc main_arg10) = m ((c : Thread nD τ).loc main_arg10) :=
  (by after_results_simp : StableHlo.after hostOps5 (W8 m ρ c) (Proc.devRef .tc main_arg10) = W8 m ρ c (Proc.devRef .tc main_arg10)).trans (at8_arg10 m ρ c)

theorem at9_arg9 : W9 m ρ c (Proc.devRef .tc main_arg9) = m ((c : Thread nD τ).loc main_arg9) :=
  (by after_results_simp : StableHlo.after hostOps5 (W8 m ρ c) (Proc.devRef .tc main_arg9) = W8 m ρ c (Proc.devRef .tc main_arg9)).trans (at8_arg9 m ρ c)

theorem at9_arg8 : W9 m ρ c (Proc.devRef .tc main_arg8) = m ((c : Thread nD τ).loc main_arg8) :=
  (by after_results_simp : StableHlo.after hostOps5 (W8 m ρ c) (Proc.devRef .tc main_arg8) = W8 m ρ c (Proc.devRef .tc main_arg8)).trans (at8_arg8 m ρ c)

/-- Written by the host operations between the regions. -/
theorem at9_v84 : W9 m ρ c (Proc.devRef .tc main_v84) = Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v84) = _
  after_results_simp
  simp only [at8_v1 m ρ c, at8_v67 m ρ c, at8_v25 m ρ c, at8_v3 m ρ c, at8_v26 m ρ c]
  rfl

/-- Written by the host operations between the regions. -/
theorem at9_v85 : W9 m ρ c (Proc.devRef .tc main_v85) = Cert.ReferenceIdeal.ReadP.val_main_v143 (F := Ideal) (m ((c : Thread nD τ).loc main_arg7)) := by
  show StableHlo.after hostOps5 (W8 m ρ c) (Proc.devRef .tc main_v85) = _
  after_results_simp
  simp only [at8_arg7 m ρ c]
  exact Cert.LibRow.reshape_row_eq_broadcast _ _ _

theorem at9_v66 : W9 m ρ c (Proc.devRef .tc main_v66) = Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (by after_results_simp : StableHlo.after hostOps5 (W8 m ρ c) (Proc.devRef .tc main_v66) = W8 m ρ c (Proc.devRef .tc main_v66)).trans (at8_v66 m ρ c)

/-! ## Boundary 10: after region 5 -/

theorem at10_arg0 : W10 m ρ c (Proc.devRef .tc main_arg0) = m ((c : Thread nD τ).loc main_arg0) :=
  (W10_of_ne m ρ c main_arg0 (by decide)).trans (at9_arg0 m ρ c)

theorem at10_arg13 : W10 m ρ c (Proc.devRef .tc main_arg13) = m ((c : Thread nD τ).loc main_arg13) :=
  (W10_of_ne m ρ c main_arg13 (by decide)).trans (at9_arg13 m ρ c)

theorem at10_arg12 : W10 m ρ c (Proc.devRef .tc main_arg12) = m ((c : Thread nD τ).loc main_arg12) :=
  (W10_of_ne m ρ c main_arg12 (by decide)).trans (at9_arg12 m ρ c)

theorem at10_v1 : W10 m ρ c (Proc.devRef .tc main_v1) = Cert.ReferenceIdeal.ReadP.val_main_v1 (F := Ideal) (m ((c : Thread nD τ).loc main_arg1)) :=
  (W10_of_ne m ρ c main_v1 (by decide)).trans (at9_v1 m ρ c)

theorem at10_v25 : W10 m ρ c (Proc.devRef .tc main_v25) = Cert.ReferenceIdeal.ReadP.val_main_v26 (F := Ideal) (m ((c : Thread nD τ).loc main_arg1)) :=
  (W10_of_ne m ρ c main_v25 (by decide)).trans (at9_v25 m ρ c)

theorem at10_v3 : W10 m ρ c (Proc.devRef .tc main_v3) = Cert.ReferenceIdeal.ReadP.val_main_v3 (F := Ideal) (m ((c : Thread nD τ).loc main_arg1)) :=
  (W10_of_ne m ρ c main_v3 (by decide)).trans (at9_v3 m ρ c)

theorem at10_v26 : W10 m ρ c (Proc.devRef .tc main_v26) = Cert.ReferenceIdeal.ReadP.val_main_v40 (F := Ideal) (m ((c : Thread nD τ).loc main_arg1)) :=
  (W10_of_ne m ρ c main_v26 (by decide)).trans (at9_v26 m ρ c)

theorem at10_arg11 : W10 m ρ c (Proc.devRef .tc main_arg11) = m ((c : Thread nD τ).loc main_arg11) :=
  (W10_of_ne m ρ c main_arg11 (by decide)).trans (at9_arg11 m ρ c)

theorem at10_arg10 : W10 m ρ c (Proc.devRef .tc main_arg10) = m ((c : Thread nD τ).loc main_arg10) :=
  (W10_of_ne m ρ c main_arg10 (by decide)).trans (at9_arg10 m ρ c)

theorem at10_arg9 : W10 m ρ c (Proc.devRef .tc main_arg9) = m ((c : Thread nD τ).loc main_arg9) :=
  (W10_of_ne m ρ c main_arg9 (by decide)).trans (at9_arg9 m ρ c)

/-- Region 5's output array after the region. -/
theorem at10_v86 : W10 m ρ c (Proc.devRef .tc main_v86) = Cert.ReferenceIdeal.ReadP.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((RegVal.region5 (V9 m ρ) c).trans ?_)
  show RegVal.post5 (W9 m ρ c (Proc.devRef .tc main_v84)) (W9 m ρ c (Proc.devRef .tc main_v85)) (W9 m ρ c (Proc.devRef .tc main_v66)) = _
  rw [at9_v84 m ρ c, at9_v85 m ρ c, at9_v66 m ρ c]
  rfl

theorem at10_arg8 : W10 m ρ c (Proc.devRef .tc main_arg8) = m ((c : Thread nD τ).loc main_arg8) :=
  (W10_of_ne m ρ c main_arg8 (by decide)).trans (at9_arg8 m ρ c)

/-! ## Boundary 11: after region 6 -/

theorem at11_arg0 : W11 m ρ c (Proc.devRef .tc main_arg0) = m ((c : Thread nD τ).loc main_arg0) :=
  (W11_of_ne m ρ c main_arg0 (by decide)).trans (at10_arg0 m ρ c)

theorem at11_arg13 : W11 m ρ c (Proc.devRef .tc main_arg13) = m ((c : Thread nD τ).loc main_arg13) :=
  (W11_of_ne m ρ c main_arg13 (by decide)).trans (at10_arg13 m ρ c)

theorem at11_arg12 : W11 m ρ c (Proc.devRef .tc main_arg12) = m ((c : Thread nD τ).loc main_arg12) :=
  (W11_of_ne m ρ c main_arg12 (by decide)).trans (at10_arg12 m ρ c)

theorem at11_v1 : W11 m ρ c (Proc.devRef .tc main_v1) = Cert.ReferenceIdeal.ReadP.val_main_v1 (F := Ideal) (m ((c : Thread nD τ).loc main_arg1)) :=
  (W11_of_ne m ρ c main_v1 (by decide)).trans (at10_v1 m ρ c)

theorem at11_v25 : W11 m ρ c (Proc.devRef .tc main_v25) = Cert.ReferenceIdeal.ReadP.val_main_v26 (F := Ideal) (m ((c : Thread nD τ).loc main_arg1)) :=
  (W11_of_ne m ρ c main_v25 (by decide)).trans (at10_v25 m ρ c)

theorem at11_v3 : W11 m ρ c (Proc.devRef .tc main_v3) = Cert.ReferenceIdeal.ReadP.val_main_v3 (F := Ideal) (m ((c : Thread nD τ).loc main_arg1)) :=
  (W11_of_ne m ρ c main_v3 (by decide)).trans (at10_v3 m ρ c)

theorem at11_v26 : W11 m ρ c (Proc.devRef .tc main_v26) = Cert.ReferenceIdeal.ReadP.val_main_v40 (F := Ideal) (m ((c : Thread nD τ).loc main_arg1)) :=
  (W11_of_ne m ρ c main_v26 (by decide)).trans (at10_v26 m ρ c)

theorem at11_arg11 : W11 m ρ c (Proc.devRef .tc main_arg11) = m ((c : Thread nD τ).loc main_arg11) :=
  (W11_of_ne m ρ c main_arg11 (by decide)).trans (at10_arg11 m ρ c)

theorem at11_arg10 : W11 m ρ c (Proc.devRef .tc main_arg10) = m ((c : Thread nD τ).loc main_arg10) :=
  (W11_of_ne m ρ c main_arg10 (by decide)).trans (at10_arg10 m ρ c)

/-- Region 6's output array after the region. -/
theorem at11_v87 : W11 m ρ c (Proc.devRef .tc main_v87) = Cert.ReferenceIdeal.ReadP.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 2).trans ((RegVal.region6 (V10 m ρ) c).trans ?_)
  show RegVal.prod6 (W10 m ρ c (Proc.devRef .tc main_v86)) (W10 m ρ c (Proc.devRef .tc main_arg8)) = _
  rw [at10_v86 m ρ c, at10_arg8 m ρ c]
  rfl

theorem at11_arg9 : W11 m ρ c (Proc.devRef .tc main_arg9) = m ((c : Thread nD τ).loc main_arg9) :=
  (W11_of_ne m ρ c main_arg9 (by decide)).trans (at10_arg9 m ρ c)

end Cert.KernelIdeal.Walk
-- ==== Proof.Region7.lean ====
/-
  Region 7 of the kernel program: a row-blocked pointwise stage. Grid point t takes rows [2000·t, 2000·t + 2000) of the
  aggregated array and the one bias row, adds the bias row to every row
  and writes the result to the same rows of the output array. The 25 row blocks tile the 50000 rows, so after the region
  the output array is that same pointwise function of the whole arrays as the region finds them.
-/
import proofs.«104783_j47433618817228_1_alg».proof.Proof.Gen.KernelIdeal.Frame
import proofs.«104783_j47433618817228_1_alg».proof.Proof.Gen.ReferenceIdeal
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz7 : (![0, 0] : Fin 2 → Nat) = fun _ => 0 := funext fun a => by fin_cases a <;> rfl

/-- The aggregated array plus the bias row repeated down the rows, as the host computes it. -/
abbrev biased7 (A : S50000x64.Idx → EReal) (B : S1x64.Idx → EReal) : S50000x64.Idx → EReal :=
  addf (F := Ideal) (φ := .f32) A (broadcastInDim Cert.ReferenceIdeal.S50000x64 ![0, 1] Cert.ReferenceIdeal.Facts₀.bcast_S1x64_S50000x64_0_1 B)

/-- No activation in this layer. -/
abbrev act7 (A : S50000x64.Idx → EReal) (B : S1x64.Idx → EReal) : S50000x64.Idx → EReal :=
  biased7 A B

/-- The stage's whole-array function. -/
abbrev post7 (A : S50000x64.Idx → EReal) (B : S1x64.Idx → EReal) : S50000x64.Idx → EReal :=
  act7 A B

/-- The block index maps over the grid: the row blocks of the inputs and the output move together, the bias row stays. -/
theorem idx_facts7 : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) ≤ 24 :=
  (by decide +kernel : ∀ t : Fin grid7.N, _)

/-- Every row block is some grid point's. -/
theorem idx_onto7 : ∀ q0 : Fin 25, ∃ t : Fin cfg7.N, win7_2.index t (0 : Fin 2) = q0.val ∧ win7_2.index t (1 : Fin 2) = 0 :=
  (by decide +kernel : ∀ q0 : Fin 25, ∃ t : Fin grid7.N, win7_2.index t (0 : Fin 2) = q0.val ∧ win7_2.index t (1 : Fin 2) = 0)

/-- The body's stored value at (p, q) is the stage's function at (a, q), when the loaded blocks hold row a there. -/
theorem pay7_entry (x0 : Vec Ideal S2000x64 .f32) (x1 : Vec Ideal S1x64 .f32)
    (A : S50000x64.Idx → EReal) (B : S1x64.Idx → EReal) (p : Fin 2000) (q : Fin 64) (a : Fin 50000)
    (hx : x0 (ix2 p q) = A (ix2 a q)) (hy : x1 (ix2 (0 : Fin 1) q) = B (ix2 (0 : Fin 1) q)) :
    k7_pay1 (F := Ideal) x0 x1 (ix2 p q) = post7 A B (ix2 a q) := by
  have hb : broadcastTo S2000x64 (shapeCast S1x64 x1 shapeCasts_S1x64_S1x64) broadcasts_S1x64_S2000x64 (ix2 p q) = x1 (ix2 (0 : Fin 1) q) := by
    rw [shapeCast_self]
    exact broadcastTo_apply x1 _ (ix2 p q) (ix2 (0 : Fin 1) q) (fun d => by match d with | ⟨0, _⟩ => rfl | ⟨1, _⟩ => rfl)
  have hB : broadcastInDim Cert.ReferenceIdeal.S50000x64 ![0, 1] Cert.ReferenceIdeal.Facts₀.bcast_S1x64_S50000x64_0_1 B (ix2 a q) = B (ix2 (0 : Fin 1) q) :=
    broadcastInDim_apply _ _ B (ix2 a q) (ix2 (0 : Fin 1) q) (fun d => by match d with | ⟨0, _⟩ => rfl | ⟨1, _⟩ => rfl)
  have e1 : k7_pay1 (F := Ideal) x0 x1 (ix2 p q) = (fun u : EReal => u) (shapeCast S2000x64 x0 shapeCasts_S2000x64_S2000x64 (ix2 p q) + broadcastTo S2000x64 (shapeCast S1x64 x1 shapeCasts_S1x64_S1x64) broadcasts_S1x64_S2000x64 (ix2 p q)) := rfl
  have e2 : post7 A B (ix2 a q) = (fun u : EReal => u) (A (ix2 a q) + broadcastInDim Cert.ReferenceIdeal.S50000x64 ![0, 1] Cert.ReferenceIdeal.Facts₀.bcast_S1x64_S50000x64_0_1 B (ix2 a q)) := rfl
  rw [e1, e2, shapeCast_self x0, hb, hB, hx, hy]

/-- What grid point t writes back is block t of the stage's function of the arrays as the region finds them. -/
theorem flushed7_eq (c : Dev nD) (t : Fin cfg7.N) :
    (dat7 V c).flushed 2 t = ((cfg7.win 2).blk t).view.read (Elt Ideal)
      (post7 (V c (Pipeline.arrRef spec7 0)) (V c (Pipeline.arrRef spec7 1))) := by
  show (cfg7.win 2).cut (grid7.coords t) ((dat7 V c).after 2 t) = _
  rw [after7_2]
  unfold out7_2
  rw [View.canon_unit_zero hz7]
  simp only [View.ld_unit_zero (S := S2000x64) hz7, View.ld_unit_zero (S := S1x64) hz7]
  obtain ⟨e0, e1, e2, e3, e4, e5⟩ := idx_facts7 t
  funext j
  obtain ⟨p, q, rfl⟩ : ∃ (p : Fin 2000) (q : Fin 64), j = ix2 p q := ⟨j 0, j 1, eq_ix2 j⟩
  have ha : win7_2.index t (0 : Fin 2) * 2000 + 1 * p.val < 50000 := by have := p.isLt; omega
  have hout : ((cfg7.win 2).blk t).view.emb (ix2 p q) = ix2 (⟨win7_2.index t (0 : Fin 2) * 2000 + 1 * p.val, ha⟩ : Fin 50000) q := by
    funext d; apply Fin.ext
    match d with
    | ⟨0, _⟩ => rfl
    | ⟨1, _⟩ => show win7_2.index t (1 : Fin 2) * 64 + 1 * q.val = q.val; omega
  have hin0 : ((cfg7.win 0).blk t).view.emb (ix2 p q) = ix2 (⟨win7_2.index t (0 : Fin 2) * 2000 + 1 * p.val, ha⟩ : Fin 50000) q := by
    funext d; apply Fin.ext
    match d with
    | ⟨0, _⟩ => show win7_0.index t (0 : Fin 2) * 2000 + 1 * p.val = win7_2.index t (0 : Fin 2) * 2000 + 1 * p.val; omega
    | ⟨1, _⟩ => show win7_0.index t (1 : Fin 2) * 64 + 1 * q.val = q.val; omega
  have hin1 : ((cfg7.win 1).blk t).view.emb (ix2 (0 : Fin 1) q) = ix2 (0 : Fin 1) q := by
    funext d; apply Fin.ext
    match d with
    | ⟨0, _⟩ => show win7_1.index t (0 : Fin 2) * 1 + 1 * 0 = 0; omega
    | ⟨1, _⟩ => show win7_1.index t (1 : Fin 2) * 64 + 1 * q.val = q.val; omega
  show k7_pay1 (F := Ideal) (iblk7 V c 0 t) (iblk7 V c 1 t) (ix2 p q)
    = post7 (V c (Pipeline.arrRef spec7 0)) (V c (Pipeline.arrRef spec7 1)) (((cfg7.win 2).blk t).view.emb (ix2 p q))
  rw [hout]
  refine pay7_entry _ _ _ _ p q _ ?_ ?_
  · show V c (Pipeline.arrRef spec7 0) (((cfg7.win 0).blk t).view.emb (ix2 p q)) = _
    rw [hin0]
  · show V c (Pipeline.arrRef spec7 1) (((cfg7.win 1).blk t).view.emb (ix2 (0 : Fin 1) q)) = _
    rw [hin1]

/-- An index of the output array is in point t's block iff each coordinate is in the block's range on its axis. -/
theorem mem_blk7 (t : Fin cfg7.N) (i : S50000x64.Idx) :
    i ∈ ((cfg7.win 2).blk t).view.set ↔ ∀ a : Fin 2, win7_2.index t a * S2000x64.size a ≤ (i a).val ∧ (i a).val < win7_2.index t a * S2000x64.size a + S2000x64.size a := by
  show i ∈ ((View.whole main_v106).slice (win7_2.rect t)).set ↔ _
  rw [View.set_slice_whole, Rect.mem_set_unit]
  exact Iff.rfl

/-- The row blocks cover the output array: row r lies in block r / 2000. -/
theorem cover7 (i : S50000x64.Idx) : ∃ t : Fin cfg7.N, (cfg7.win 2).flush t = true ∧ i ∈ ((cfg7.win 2).blk t).view.set := by
  have hi0 : (i 0).val < 50000 := (i 0).isLt
  have hi1 : (i 1).val < 64 := (i 1).isLt
  obtain ⟨t, ht0, ht1⟩ := idx_onto7 ⟨(i 0).val / 2000, by omega⟩
  refine ⟨t, flush7_2 t, ?_⟩
  rw [mem_blk7]
  intro a
  match a with
  | ⟨0, _⟩ => show win7_2.index t (0 : Fin 2) * 2000 ≤ (i 0).val ∧ (i 0).val < win7_2.index t (0 : Fin 2) * 2000 + 2000; simp only [] at ht0; omega
  | ⟨1, _⟩ => show win7_2.index t (1 : Fin 2) * 64 ≤ (i 1).val ∧ (i 1).val < win7_2.index t (1 : Fin 2) * 64 + 64; omega

/-- After the region the output array holds the stage's function of the arrays as the region finds them. -/
theorem region7 (c : Dev nD) :
    (dat7 V c).arrAt 2 cfg7.N = post7 (V c (Pipeline.arrRef spec7 0)) (V c (Pipeline.arrRef spec7 1)) :=
  (dat7 V c).arrAt_eq_of_cover 2 _ (fun t _ => flushed7_eq V c t) (cover7)

end Cert.KernelIdeal.RegVal
-- ==== Proof.Region8.lean ====
/-
  Region 8 of the kernel program: a row-blocked matrix product. Grid point t takes rows [2000·t, 2000·t + 2000) of the
  left array and the whole right array and writes the product of the two blocks to the same rows of the output array.
  The 25 row blocks tile the 50000 rows, so after the region the output array is the whole product of the two arrays
  as the region finds them: entry (a, q) is the sum over c of left (a, c) * right (c, q).
-/
import proofs.«104783_j47433618817228_1_alg».proof.Proof.Gen.KernelIdeal.Frame
import proofs.«104783_j47433618817228_1_alg».proof.Proof.Gen.ReferenceIdeal
import proofs.«104783_j47433618817228_1_alg».proof.Proof.LibPoint
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz8 : (![0, 0] : Fin 2 → Nat) = fun _ => 0 := funext fun a => by fin_cases a <;> rfl

/-- The whole product of the two arrays, as the host computes it. -/
abbrev prod8 (A : S50000x64.Idx → EReal) (B : S64x128.Idx → EReal) : S50000x128.Idx → EReal :=
  Host.dotGeneral (F := Ideal) (φ₁ := .f32) (φ₂ := .f32) Cert.ReferenceIdeal.dot_S50000x64_S64x128_S50000x128_1_0_0_1_n_n none A B

/-- The block index maps over the grid: the left and output blocks move together down the rows, the right block stays. -/
theorem idx_facts8 : ∀ t : Fin cfg8.N, win8_0.index t (0 : Fin 2) = win8_2.index t (0 : Fin 2)
    ∧ win8_0.index t (1 : Fin 2) = 0 ∧ win8_1.index t (0 : Fin 2) = 0 ∧ win8_1.index t (1 : Fin 2) = 0
    ∧ win8_2.index t (1 : Fin 2) = 0 ∧ win8_2.index t (0 : Fin 2) ≤ 24 :=
  (by decide +kernel : ∀ t : Fin grid8.N, _)

/-- Every row block is some grid point's. -/
theorem idx_onto8 : ∀ q0 : Fin 25, ∃ t : Fin cfg8.N, win8_2.index t (0 : Fin 2) = q0.val ∧ win8_2.index t (1 : Fin 2) = 0 :=
  (by decide +kernel : ∀ q0 : Fin 25, ∃ t : Fin grid8.N, win8_2.index t (0 : Fin 2) = q0.val ∧ win8_2.index t (1 : Fin 2) = 0)

/-- The body's stored value at (p, q): the product of the two loaded blocks there. -/
theorem pay8_entry (x0 : Vec Ideal S2000x64 .f32) (x1 : Vec Ideal S64x128 .f32)
    (A : S50000x64.Idx → EReal) (B : S64x128.Idx → EReal) (p : Fin 2000) (q : Fin 128) (a : Fin 50000)
    (hx : ∀ c : Fin 64, x0 (ix2 p c) = A (ix2 a c)) (hy : ∀ c : Fin 64, x1 (ix2 c q) = B (ix2 c q)) :
    k8_pay1 (F := Ideal) x0 x1 (ix2 p q) = prod8 A B (ix2 a q) := by
  have hx' : ∀ c : Fin 64, (truncf .bf16 (shapeCast S2000x64 x0 shapeCasts_S2000x64_S2000x64) bitsLt_bf16_f32 : FVec Ideal S2000x64 .bf16) (ix2 p c) = A (ix2 a c) := by
    intro c
    rw [← hx c]
    show shapeCast S2000x64 x0 shapeCasts_S2000x64_S2000x64 (ix2 p c) = x0 (ix2 p c)
    rw [shapeCast_self]
  exact Cert.LibPoint.block_product_entry (φ₁ := .f32) (φ₂ := .f32) (ψ₁ := .bf16) (ψ₂ := .bf16)
    Cert.ReferenceIdeal.dot_S50000x64_S64x128_S50000x128_1_0_0_1_n_n.wf dot_S2000x64_S64x128_S2000x128_1_0_0_1_n_n.wf none none A B
    (truncf .bf16 (shapeCast S2000x64 x0 shapeCasts_S2000x64_S2000x64) bitsLt_bf16_f32) (truncf .bf16 x1 bitsLt_bf16_f32) p q a hx' hy

/-- What grid point t writes back is block t of the whole product of the arrays as the region finds them. -/
theorem flushed8_eq (c : Dev nD) (t : Fin cfg8.N) :
    (dat8 V c).flushed 2 t = ((cfg8.win 2).blk t).view.read (Elt Ideal)
      (prod8 (V c (Pipeline.arrRef spec8 0)) (V c (Pipeline.arrRef spec8 1))) := by
  show (cfg8.win 2).cut (grid8.coords t) ((dat8 V c).after 2 t) = _
  rw [after8_2]
  unfold out8_2
  rw [View.canon_unit_zero hz8]
  simp only [View.ld_unit_zero (S := S2000x64) hz8, View.ld_unit_zero (S := S64x128) hz8]
  obtain ⟨e0, e1, e2, e3, e4, e5⟩ := idx_facts8 t
  funext j
  obtain ⟨p, q, rfl⟩ : ∃ (p : Fin 2000) (q : Fin 128), j = ix2 p q := ⟨j 0, j 1, eq_ix2 j⟩
  have ha : win8_2.index t (0 : Fin 2) * 2000 + 1 * p.val < 50000 := by have := p.isLt; omega
  have hout : ((cfg8.win 2).blk t).view.emb (ix2 p q) = ix2 (⟨win8_2.index t (0 : Fin 2) * 2000 + 1 * p.val, ha⟩ : Fin 50000) q := by
    funext d; apply Fin.ext
    match d with
    | ⟨0, _⟩ => rfl
    | ⟨1, _⟩ => show win8_2.index t (1 : Fin 2) * 128 + 1 * q.val = q.val; omega
  have hin0 : ∀ c' : Fin 64, ((cfg8.win 0).blk t).view.emb (ix2 p c') = ix2 (⟨win8_2.index t (0 : Fin 2) * 2000 + 1 * p.val, ha⟩ : Fin 50000) c' := by
    intro c'; funext d; apply Fin.ext
    match d with
    | ⟨0, _⟩ => show win8_0.index t (0 : Fin 2) * 2000 + 1 * p.val = win8_2.index t (0 : Fin 2) * 2000 + 1 * p.val; omega
    | ⟨1, _⟩ => show win8_0.index t (1 : Fin 2) * 64 + 1 * c'.val = c'.val; omega
  have hin1 : ∀ c' : Fin 64, ((cfg8.win 1).blk t).view.emb (ix2 c' q) = ix2 c' q := by
    intro c'; funext d; apply Fin.ext
    match d with
    | ⟨0, _⟩ => show win8_1.index t (0 : Fin 2) * 64 + 1 * c'.val = c'.val; omega
    | ⟨1, _⟩ => show win8_1.index t (1 : Fin 2) * 128 + 1 * q.val = q.val; omega
  show k8_pay1 (F := Ideal) (iblk8 V c 0 t) (iblk8 V c 1 t) (ix2 p q)
    = prod8 (V c (Pipeline.arrRef spec8 0)) (V c (Pipeline.arrRef spec8 1)) (((cfg8.win 2).blk t).view.emb (ix2 p q))
  rw [hout]
  refine pay8_entry _ _ _ _ p q _ (fun c' => ?_) (fun c' => ?_)
  · show V c (Pipeline.arrRef spec8 0) (((cfg8.win 0).blk t).view.emb (ix2 p c')) = _
    rw [hin0 c']
  · show V c (Pipeline.arrRef spec8 1) (((cfg8.win 1).blk t).view.emb (ix2 c' q)) = _
    rw [hin1 c']

/-- An index of the output array is in point t's block iff each coordinate is in the block's range on its axis. -/
theorem mem_blk8 (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v107).slice (win8_2.rect t)).set ↔ _
  rw [View.set_slice_whole, Rect.mem_set_unit]
  exact Iff.rfl

/-- The row blocks cover the output array: row r lies in block r / 2000. -/
theorem cover8 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  obtain ⟨t, ht0, ht1⟩ := idx_onto8 ⟨(i 0).val / 2000, by omega⟩
  refine ⟨t, flush8_2 t, ?_⟩
  rw [mem_blk8]
  intro a
  match a with
  | ⟨0, _⟩ => show win8_2.index t (0 : Fin 2) * 2000 ≤ (i 0).val ∧ (i 0).val < win8_2.index t (0 : Fin 2) * 2000 + 2000; simp only [] at ht0; omega
  | ⟨1, _⟩ => show win8_2.index t (1 : Fin 2) * 128 ≤ (i 1).val ∧ (i 1).val < win8_2.index t (1 : Fin 2) * 128 + 128; omega

/-- After the region the output array holds the whole product of the two arrays as the region finds them. -/
theorem region8 (c : Dev nD) :
    (dat8 V c).arrAt 2 cfg8.N = prod8 (V c (Pipeline.arrRef spec8 0)) (V c (Pipeline.arrRef spec8 1)) :=
  (dat8 V c).arrAt_eq_of_cover 2 _ (fun t _ => flushed8_eq V c t) (cover8)

end Cert.KernelIdeal.RegVal
-- ==== Proof.Region9.lean ====
/-
  Region 9 of the kernel program: a row-blocked pointwise stage. Grid point t takes rows [2000·t, 2000·t + 2000) of the
  aggregated array and the one bias row, adds the bias row to every row, applies the leaky rectifier u ↦ (u if u ≥ 0 else 0.01·u)
  and writes the result to the same rows of the output array. The 25 row blocks tile the 50000 rows, so after the region
  the output array is that same pointwise function of the whole arrays as the region finds them.
-/
import proofs.«104783_j47433618817228_1_alg».proof.Proof.Gen.KernelIdeal.Frame
import proofs.«104783_j47433618817228_1_alg».proof.Proof.Gen.ReferenceIdeal
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz9 : (![0, 0] : Fin 2 → Nat) = fun _ => 0 := funext fun a => by fin_cases a <;> rfl

/-- The aggregated array plus the bias row repeated down the rows, as the host computes it. -/
abbrev biased9 (A : S50000x128.Idx → EReal) (B : S1x128.Idx → EReal) : S50000x128.Idx → EReal :=
  addf (F := Ideal) (φ := .f32) A (broadcastInDim Cert.ReferenceIdeal.S50000x128 ![0, 1] Cert.ReferenceIdeal.Facts₀.bcast_S1x128_S50000x128_0_1 B)

/-- The leaky rectifier of that, as the host computes it. -/
abbrev act9 (A : S50000x128.Idx → EReal) (B : S1x128.Idx → EReal) : S50000x128.Idx → EReal :=
  select (cmpf (F := Ideal) .oge (biased9 A B) (broadcastInDim Cert.ReferenceIdeal.S50000x128 ![] Cert.ReferenceIdeal.Facts₀.bcast_S_S50000x128 (constant (F := Ideal) Cert.ReferenceIdeal.S_ .f32 0x00000000#32)))
    (biased9 A B) (mulf (F := Ideal) (φ := .f32) (broadcastInDim Cert.ReferenceIdeal.S50000x128 ![] Cert.ReferenceIdeal.Facts₀.bcast_S_S50000x128 (constant (F := Ideal) Cert.ReferenceIdeal.S_ .f32 0x3C23D70A#32)) (biased9 A B))

/-- The stage's whole-array function. -/
abbrev post9 (A : S50000x128.Idx → EReal) (B : S1x128.Idx → EReal) : S50000x128.Idx → EReal :=
  act9 A B

/-- The leaky rectifier on one extended real. -/
abbrev sc9 (u : EReal) : EReal :=
  Scalar.select (FloatOps.cmpf (F := Ideal) (φ := .f32) .oge u (Ideal.ofBits .f32 0x00000000#32)) u (Ideal.ofBits .f32 0x3C23D70A#32 * u)

/-- The block index maps over the grid: the row blocks of the inputs and the output move together, the bias row stays. -/
theorem idx_facts9 : ∀ t : Fin cfg9.N, win9_0.index t (0 : Fin 2) = win9_2.index t (0 : Fin 2)
    ∧ win9_0.index t (1 : Fin 2) = 0 ∧ win9_1.index t (0 : Fin 2) = 0 ∧ win9_1.index t (1 : Fin 2) = 0
    ∧ win9_2.index t (1 : Fin 2) = 0 ∧ win9_2.index t (0 : Fin 2) ≤ 24 :=
  (by decide +kernel : ∀ t : Fin grid9.N, _)

/-- Every row block is some grid point's. -/
theorem idx_onto9 : ∀ q0 : Fin 25, ∃ t : Fin cfg9.N, win9_2.index t (0 : Fin 2) = q0.val ∧ win9_2.index t (1 : Fin 2) = 0 :=
  (by decide +kernel : ∀ q0 : Fin 25, ∃ t : Fin grid9.N, win9_2.index t (0 : Fin 2) = q0.val ∧ win9_2.index t (1 : Fin 2) = 0)

/-- The body's stored value at (p, q) is the stage's function at (a, q), when the loaded blocks hold row a there. -/
theorem pay9_entry (x0 : Vec Ideal S2000x128 .f32) (x1 : Vec Ideal S1x128 .f32)
    (A : S50000x128.Idx → EReal) (B : S1x128.Idx → EReal) (p : Fin 2000) (q : Fin 128) (a : Fin 50000)
    (hx : x0 (ix2 p q) = A (ix2 a q)) (hy : x1 (ix2 (0 : Fin 1) q) = B (ix2 (0 : Fin 1) q)) :
    k9_pay1 (F := Ideal) x0 x1 (ix2 p q) = post9 A B (ix2 a q) := by
  have hb : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun d => by match d with | ⟨0, _⟩ => rfl | ⟨1, _⟩ => rfl)
  have hB : broadcastInDim Cert.ReferenceIdeal.S50000x128 ![0, 1] Cert.ReferenceIdeal.Facts₀.bcast_S1x128_S50000x128_0_1 B (ix2 a q) = B (ix2 (0 : Fin 1) q) :=
    broadcastInDim_apply _ _ B (ix2 a q) (ix2 (0 : Fin 1) q) (fun d => by match d with | ⟨0, _⟩ => rfl | ⟨1, _⟩ => rfl)
  have e1 : k9_pay1 (F := Ideal) x0 x1 (ix2 p q) = sc9 (shapeCast S2000x128 x0 shapeCasts_S2000x128_S2000x128 (ix2 p q) + broadcastTo S2000x128 (shapeCast S1x128 x1 shapeCasts_S1x128_S1x128) broadcasts_S1x128_S2000x128 (ix2 p q)) := rfl
  have e2 : post9 A B (ix2 a q) = sc9 (A (ix2 a q) + broadcastInDim Cert.ReferenceIdeal.S50000x128 ![0, 1] Cert.ReferenceIdeal.Facts₀.bcast_S1x128_S50000x128_0_1 B (ix2 a q)) := rfl
  rw [e1, e2, shapeCast_self x0, hb, hB, hx, hy]

/-- What grid point t writes back is block t of the stage's function of the arrays as the region finds them. -/
theorem flushed9_eq (c : Dev nD) (t : Fin cfg9.N) :
    (dat9 V c).flushed 2 t = ((cfg9.win 2).blk t).view.read (Elt Ideal)
      (post9 (V c (Pipeline.arrRef spec9 0)) (V c (Pipeline.arrRef spec9 1))) := by
  show (cfg9.win 2).cut (grid9.coords t) ((dat9 V c).after 2 t) = _
  rw [after9_2]
  unfold out9_2
  rw [View.canon_unit_zero hz9]
  simp only [View.ld_unit_zero (S := S2000x128) hz9, View.ld_unit_zero (S := S1x128) hz9]
  obtain ⟨e0, e1, e2, e3, e4, e5⟩ := idx_facts9 t
  funext j
  obtain ⟨p, q, rfl⟩ : ∃ (p : Fin 2000) (q : Fin 128), j = ix2 p q := ⟨j 0, j 1, eq_ix2 j⟩
  have ha : win9_2.index t (0 : Fin 2) * 2000 + 1 * p.val < 50000 := by have := p.isLt; omega
  have hout : ((cfg9.win 2).blk t).view.emb (ix2 p q) = ix2 (⟨win9_2.index t (0 : Fin 2) * 2000 + 1 * p.val, ha⟩ : Fin 50000) q := by
    funext d; apply Fin.ext
    match d with
    | ⟨0, _⟩ => rfl
    | ⟨1, _⟩ => show win9_2.index t (1 : Fin 2) * 128 + 1 * q.val = q.val; omega
  have hin0 : ((cfg9.win 0).blk t).view.emb (ix2 p q) = ix2 (⟨win9_2.index t (0 : Fin 2) * 2000 + 1 * p.val, ha⟩ : Fin 50000) q := by
    funext d; apply Fin.ext
    match d with
    | ⟨0, _⟩ => show win9_0.index t (0 : Fin 2) * 2000 + 1 * p.val = win9_2.index t (0 : Fin 2) * 2000 + 1 * p.val; omega
    | ⟨1, _⟩ => show win9_0.index t (1 : Fin 2) * 128 + 1 * q.val = q.val; omega
  have hin1 : ((cfg9.win 1).blk t).view.emb (ix2 (0 : Fin 1) q) = ix2 (0 : Fin 1) q := by
    funext d; apply Fin.ext
    match d with
    | ⟨0, _⟩ => show win9_1.index t (0 : Fin 2) * 1 + 1 * 0 = 0; omega
    | ⟨1, _⟩ => show win9_1.index t (1 : Fin 2) * 128 + 1 * q.val = q.val; omega
  show k9_pay1 (F := Ideal) (iblk9 V c 0 t) (iblk9 V c 1 t) (ix2 p q)
    = post9 (V c (Pipeline.arrRef spec9 0)) (V c (Pipeline.arrRef spec9 1)) (((cfg9.win 2).blk t).view.emb (ix2 p q))
  rw [hout]
  refine pay9_entry _ _ _ _ p q _ ?_ ?_
  · show V c (Pipeline.arrRef spec9 0) (((cfg9.win 0).blk t).view.emb (ix2 p q)) = _
    rw [hin0]
  · show V c (Pipeline.arrRef spec9 1) (((cfg9.win 1).blk t).view.emb (ix2 (0 : Fin 1) q)) = _
    rw [hin1]

/-- An index of the output array is in point t's block iff each coordinate is in the block's range on its axis. -/
theorem mem_blk9 (t : Fin cfg9.N) (i : S50000x128.Idx) :
    i ∈ ((cfg9.win 2).blk t).view.set ↔ ∀ a : Fin 2, win9_2.index t a * S2000x128.size a ≤ (i a).val ∧ (i a).val < win9_2.index t a * S2000x128.size a + S2000x128.size a := by
  show i ∈ ((View.whole main_v126).slice (win9_2.rect t)).set ↔ _
  rw [View.set_slice_whole, Rect.mem_set_unit]
  exact Iff.rfl

/-- The row blocks cover the output array: row r lies in block r / 2000. -/
theorem cover9 (i : S50000x128.Idx) : ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht0, ht1⟩ := idx_onto9 ⟨(i 0).val / 2000, by omega⟩
  refine ⟨t, flush9_2 t, ?_⟩
  rw [mem_blk9]
  intro a
  match a with
  | ⟨0, _⟩ => show win9_2.index t (0 : Fin 2) * 2000 ≤ (i 0).val ∧ (i 0).val < win9_2.index t (0 : Fin 2) * 2000 + 2000; simp only [] at ht0; omega
  | ⟨1, _⟩ => show win9_2.index t (1 : Fin 2) * 128 ≤ (i 1).val ∧ (i 1).val < win9_2.index t (1 : Fin 2) * 128 + 128; omega

/-- After the region the output array holds the stage's function of the arrays as the region finds them. -/
theorem region9 (c : Dev nD) :
    (dat9 V c).arrAt 2 cfg9.N = post9 (V c (Pipeline.arrRef spec9 0)) (V c (Pipeline.arrRef spec9 1)) :=
  (dat9 V c).arrAt_eq_of_cover 2 _ (fun t _ => flushed9_eq V c t) (cover9)

end Cert.KernelIdeal.RegVal
-- ==== Proof.Region10.lean ====
/-
  Region 10 of the kernel program: a row-blocked matrix product. Grid point t takes rows [2000·t, 2000·t + 2000) of the
  left array and the whole right array and writes the product of the two blocks to the same rows of the output array.
  The 25 row blocks tile the 50000 rows, so after the region the output array is the whole product of the two arrays
  as the region finds them: entry (a, q) is the sum over c of left (a, c) * right (c, q).
-/
import proofs.«104783_j47433618817228_1_alg».proof.Proof.Gen.KernelIdeal.Frame
import proofs.«104783_j47433618817228_1_alg».proof.Proof.Gen.ReferenceIdeal
import proofs.«104783_j47433618817228_1_alg».proof.Proof.LibPoint
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz10 : (![0, 0] : Fin 2 → Nat) = fun _ => 0 := funext fun a => by fin_cases a <;> rfl

/-- The whole product of the two arrays, as the host computes it. -/
abbrev prod10 (A : S50000x128.Idx → EReal) (B : S128x128.Idx → EReal) : S50000x128.Idx → EReal :=
  Host.dotGeneral (F := Ideal) (φ₁ := .f32) (φ₂ := .f32) Cert.ReferenceIdeal.dot_S50000x128_S128x128_S50000x128_1_0_0_1_n_n none A B

/-- The block index maps over the grid: the left and output blocks move together down the rows, the right block stays. -/
theorem idx_facts10 : ∀ t : Fin cfg10.N, win10_0.index t (0 : Fin 2) = win10_2.index t (0 : Fin 2)
    ∧ win10_0.index t (1 : Fin 2) = 0 ∧ win10_1.index t (0 : Fin 2) = 0 ∧ win10_1.index t (1 : Fin 2) = 0
    ∧ win10_2.index t (1 : Fin 2) = 0 ∧ win10_2.index t (0 : Fin 2) ≤ 24 :=
  (by decide +kernel : ∀ t : Fin grid10.N, _)

/-- Every row block is some grid point's. -/
theorem idx_onto10 : ∀ q0 : Fin 25, ∃ t : Fin cfg10.N, win10_2.index t (0 : Fin 2) = q0.val ∧ win10_2.index t (1 : Fin 2) = 0 :=
  (by decide +kernel : ∀ q0 : Fin 25, ∃ t : Fin grid10.N, win10_2.index t (0 : Fin 2) = q0.val ∧ win10_2.index t (1 : Fin 2) = 0)

/-- The body's stored value at (p, q): the product of the two loaded blocks there. -/
theorem pay10_entry (x0 : Vec Ideal S2000x128 .f32) (x1 : Vec Ideal S128x128 .f32)
    (A : S50000x128.Idx → EReal) (B : S128x128.Idx → EReal) (p : Fin 2000) (q : Fin 128) (a : Fin 50000)
    (hx : ∀ c : Fin 128, x0 (ix2 p c) = A (ix2 a c)) (hy : ∀ c : Fin 128, x1 (ix2 c q) = B (ix2 c q)) :
    k10_pay1 (F := Ideal) x0 x1 (ix2 p q) = prod10 A B (ix2 a q) := by
  have hx' : ∀ c : Fin 128, (truncf .bf16 (shapeCast S2000x128 x0 shapeCasts_S2000x128_S2000x128) bitsLt_bf16_f32 : FVec Ideal S2000x128 .bf16) (ix2 p c) = A (ix2 a c) := by
    intro c
    rw [← hx c]
    show shapeCast S2000x128 x0 shapeCasts_S2000x128_S2000x128 (ix2 p c) = x0 (ix2 p c)
    rw [shapeCast_self]
  exact Cert.LibPoint.block_product_entry (φ₁ := .f32) (φ₂ := .f32) (ψ₁ := .bf16) (ψ₂ := .bf16)
    Cert.ReferenceIdeal.dot_S50000x128_S128x128_S50000x128_1_0_0_1_n_n.wf dot_S2000x128_S128x128_S2000x128_1_0_0_1_n_n.wf none none A B
    (truncf .bf16 (shapeCast S2000x128 x0 shapeCasts_S2000x128_S2000x128) bitsLt_bf16_f32) (truncf .bf16 x1 bitsLt_bf16_f32) p q a hx' hy

/-- What grid point t writes back is block t of the whole product of the arrays as the region finds them. -/
theorem flushed10_eq (c : Dev nD) (t : Fin cfg10.N) :
    (dat10 V c).flushed 2 t = ((cfg10.win 2).blk t).view.read (Elt Ideal)
      (prod10 (V c (Pipeline.arrRef spec10 0)) (V c (Pipeline.arrRef spec10 1))) := by
  show (cfg10.win 2).cut (grid10.coords t) ((dat10 V c).after 2 t) = _
  rw [after10_2]
  unfold out10_2
  rw [View.canon_unit_zero hz10]
  simp only [View.ld_unit_zero (S := S2000x128) hz10, View.ld_unit_zero (S := S128x128) hz10]
  obtain ⟨e0, e1, e2, e3, e4, e5⟩ := idx_facts10 t
  funext j
  obtain ⟨p, q, rfl⟩ : ∃ (p : Fin 2000) (q : Fin 128), j = ix2 p q := ⟨j 0, j 1, eq_ix2 j⟩
  have ha : win10_2.index t (0 : Fin 2) * 2000 + 1 * p.val < 50000 := by have := p.isLt; omega
  have hout : ((cfg10.win 2).blk t).view.emb (ix2 p q) = ix2 (⟨win10_2.index t (0 : Fin 2) * 2000 + 1 * p.val, ha⟩ : Fin 50000) q := by
    funext d; apply Fin.ext
    match d with
    | ⟨0, _⟩ => rfl
    | ⟨1, _⟩ => show win10_2.index t (1 : Fin 2) * 128 + 1 * q.val = q.val; omega
  have hin0 : ∀ c' : Fin 128, ((cfg10.win 0).blk t).view.emb (ix2 p c') = ix2 (⟨win10_2.index t (0 : Fin 2) * 2000 + 1 * p.val, ha⟩ : Fin 50000) c' := by
    intro c'; funext d; apply Fin.ext
    match d with
    | ⟨0, _⟩ => show win10_0.index t (0 : Fin 2) * 2000 + 1 * p.val = win10_2.index t (0 : Fin 2) * 2000 + 1 * p.val; omega
    | ⟨1, _⟩ => show win10_0.index t (1 : Fin 2) * 128 + 1 * c'.val = c'.val; omega
  have hin1 : ∀ c' : Fin 128, ((cfg10.win 1).blk t).view.emb (ix2 c' q) = ix2 c' q := by
    intro c'; funext d; apply Fin.ext
    match d with
    | ⟨0, _⟩ => show win10_1.index t (0 : Fin 2) * 128 + 1 * c'.val = c'.val; omega
    | ⟨1, _⟩ => show win10_1.index t (1 : Fin 2) * 128 + 1 * q.val = q.val; omega
  show k10_pay1 (F := Ideal) (iblk10 V c 0 t) (iblk10 V c 1 t) (ix2 p q)
    = prod10 (V c (Pipeline.arrRef spec10 0)) (V c (Pipeline.arrRef spec10 1)) (((cfg10.win 2).blk t).view.emb (ix2 p q))
  rw [hout]
  refine pay10_entry _ _ _ _ p q _ (fun c' => ?_) (fun c' => ?_)
  · show V c (Pipeline.arrRef spec10 0) (((cfg10.win 0).blk t).view.emb (ix2 p c')) = _
    rw [hin0 c']
  · show V c (Pipeline.arrRef spec10 1) (((cfg10.win 1).blk t).view.emb (ix2 c' q)) = _
    rw [hin1 c']

/-- An index of the output array is in point t's block iff each coordinate is in the block's range on its axis. -/
theorem mem_blk10 (t : Fin cfg10.N) (i : S50000x128.Idx) :
    i ∈ ((cfg10.win 2).blk t).view.set ↔ ∀ a : Fin 2, win10_2.index t a * S2000x128.size a ≤ (i a).val ∧ (i a).val < win10_2.index t a * S2000x128.size a + S2000x128.size a := by
  show i ∈ ((View.whole main_v127).slice (win10_2.rect t)).set ↔ _
  rw [View.set_slice_whole, Rect.mem_set_unit]
  exact Iff.rfl

/-- The row blocks cover the output array: row r lies in block r / 2000. -/
theorem cover10 (i : S50000x128.Idx) : ∃ t : Fin cfg10.N, (cfg10.win 2).flush t = true ∧ i ∈ ((cfg10.win 2).blk t).view.set := by
  have hi0 : (i 0).val < 50000 := (i 0).isLt
  have hi1 : (i 1).val < 128 := (i 1).isLt
  obtain ⟨t, ht0, ht1⟩ := idx_onto10 ⟨(i 0).val / 2000, by omega⟩
  refine ⟨t, flush10_2 t, ?_⟩
  rw [mem_blk10]
  intro a
  match a with
  | ⟨0, _⟩ => show win10_2.index t (0 : Fin 2) * 2000 ≤ (i 0).val ∧ (i 0).val < win10_2.index t (0 : Fin 2) * 2000 + 2000; simp only [] at ht0; omega
  | ⟨1, _⟩ => show win10_2.index t (1 : Fin 2) * 128 ≤ (i 1).val ∧ (i 1).val < win10_2.index t (1 : Fin 2) * 128 + 128; omega

/-- After the region the output array holds the whole product of the two arrays as the region finds them. -/
theorem region10 (c : Dev nD) :
    (dat10 V c).arrAt 2 cfg10.N = prod10 (V c (Pipeline.arrRef spec10 0)) (V c (Pipeline.arrRef spec10 1)) :=
  (dat10 V c).arrAt_eq_of_cover 2 _ (fun t _ => flushed10_eq V c t) (cover10)

end Cert.KernelIdeal.RegVal
-- ==== Proof.Region11.lean ====
/-
  Region 11 of the kernel program: a row-blocked pointwise stage. Grid point t takes rows [2000·t, 2000·t + 2000) of the
  aggregated array and of the residual array and the one bias row, adds the bias row to every row, adds the residual rows
  and writes the result to the same rows of the output array. The 25 row blocks tile the 50000 rows, so after the region
  the output array is that same pointwise function of the whole arrays as the region finds them.
-/
import proofs.«104783_j47433618817228_1_alg».proof.Proof.Gen.KernelIdeal.Frame
import proofs.«104783_j47433618817228_1_alg».proof.Proof.Gen.ReferenceIdeal
import Idealize.ShloMosaic.Lib.Pipeline.Value
import Idealize.ShloMosaic.Lib.ValueIdx

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz11 : (![0, 0] : Fin 2 → Nat) = fun _ => 0 := funext fun a => by fin_cases a <;> rfl

/-- The aggregated array plus the bias row repeated down the rows, as the host computes it. -/
abbrev biased11 (A : S50000x128.Idx → EReal) (B : S1x128.Idx → EReal) : S50000x128.Idx → EReal :=
  addf (F := Ideal) (φ := .f32) A (broadcastInDim Cert.ReferenceIdeal.S50000x128 ![0, 1] Cert.ReferenceIdeal.Facts₀.bcast_S1x128_S50000x128_0_1 B)

/-- No activation in this layer. -/
abbrev act11 (A : S50000x128.Idx → EReal) (B : S1x128.Idx → EReal) : S50000x128.Idx → EReal :=
  biased11 A B

/-- The stage's whole-array function. -/
abbrev post11 (A : S50000x128.Idx → EReal) (B : S1x128.Idx → EReal) (R : S50000x128.Idx → EReal) : S50000x128.Idx → EReal :=
  addf (F := Ideal) (φ := .f32) (act11 A B) R

/-- The block index maps over the grid: the row blocks of the inputs and the output move together, the bias row stays. -/
theorem idx_facts11 : ∀ t : Fin cfg11.N, win11_0.index t (0 : Fin 2) = win11_3.index t (0 : Fin 2)
    ∧ win11_0.index t (1 : Fin 2) = 0 ∧ win11_1.index t (0 : Fin 2) = 0 ∧ win11_1.index t (1 : Fin 2) = 0
    ∧ win11_3.index t (1 : Fin 2) = 0 ∧ win11_3.index t (0 : Fin 2) ≤ 24
    ∧ win11_2.index t (0 : Fin 2) = win11_3.index t (0 : Fin 2) ∧ win11_2.index t (1 : Fin 2) = 0 :=
  (by decide +kernel : ∀ t : Fin grid11.N, _)

/-- Every row block is some grid point's. -/
theorem idx_onto11 : ∀ q0 : Fin 25, ∃ t : Fin cfg11.N, win11_3.index t (0 : Fin 2) = q0.val ∧ win11_3.index t (1 : Fin 2) = 0 :=
  (by decide +kernel : ∀ q0 : Fin 25, ∃ t : Fin grid11.N, win11_3.index t (0 : Fin 2) = q0.val ∧ win11_3.index t (1 : Fin 2) = 0)

/-- The body's stored value at (p, q) is the stage's function at (a, q), when the loaded blocks hold row a there. -/
theorem pay11_entry (x0 : Vec Ideal S2000x128 .f32) (x1 : Vec Ideal S1x128 .f32) (x2 : Vec Ideal S2000x128 .f32)
    (A : S50000x128.Idx → EReal) (B : S1x128.Idx → EReal) (R : S50000x128.Idx → EReal) (p : Fin 2000) (q : Fin 128) (a : Fin 50000)
    (hx : x0 (ix2 p q) = A (ix2 a q)) (hy : x1 (ix2 (0 : Fin 1) q) = B (ix2 (0 : Fin 1) q)) (hr : x2 (ix2 p q) = R (ix2 a q)) :
    k11_pay1 (F := Ideal) x0 x1 x2 (ix2 p q) = post11 A B R (ix2 a q) := by
  have hb : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun d => by match d with | ⟨0, _⟩ => rfl | ⟨1, _⟩ => rfl)
  have hB : broadcastInDim Cert.ReferenceIdeal.S50000x128 ![0, 1] Cert.ReferenceIdeal.Facts₀.bcast_S1x128_S50000x128_0_1 B (ix2 a q) = B (ix2 (0 : Fin 1) q) :=
    broadcastInDim_apply _ _ B (ix2 a q) (ix2 (0 : Fin 1) q) (fun d => by match d with | ⟨0, _⟩ => rfl | ⟨1, _⟩ => rfl)
  have e1 : k11_pay1 (F := Ideal) x0 x1 x2 (ix2 p q) = (fun u : EReal => u) (shapeCast S2000x128 x0 shapeCasts_S2000x128_S2000x128 (ix2 p q) + broadcastTo S2000x128 (shapeCast S1x128 x1 shapeCasts_S1x128_S1x128) broadcasts_S1x128_S2000x128 (ix2 p q)) + x2 (ix2 p q) := rfl
  have e2 : post11 A B R (ix2 a q) = (fun u : EReal => u) (A (ix2 a q) + broadcastInDim Cert.ReferenceIdeal.S50000x128 ![0, 1] Cert.ReferenceIdeal.Facts₀.bcast_S1x128_S50000x128_0_1 B (ix2 a q)) + R (ix2 a q) := rfl
  rw [e1, e2, shapeCast_self x0, hb, hB, hx, hy, hr]

/-- What grid point t writes back is block t of the stage's function of the arrays as the region finds them. -/
theorem flushed11_eq (c : Dev nD) (t : Fin cfg11.N) :
    (dat11 V c).flushed 3 t = ((cfg11.win 3).blk t).view.read (Elt Ideal)
      (post11 (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz11]
  simp only [View.ld_unit_zero (S := S2000x128) hz11, View.ld_unit_zero (S := S1x128) hz11]
  obtain ⟨e0, e1, e2, e3, e4, e5, e6, e7⟩ := idx_facts11 t
  funext j
  obtain ⟨p, q, rfl⟩ : ∃ (p : Fin 2000) (q : Fin 128), j = ix2 p q := ⟨j 0, j 1, eq_ix2 j⟩
  have ha : win11_3.index t (0 : Fin 2) * 2000 + 1 * p.val < 50000 := by have := p.isLt; omega
  have hout : ((cfg11.win 3).blk t).view.emb (ix2 p q) = ix2 (⟨win11_3.index t (0 : Fin 2) * 2000 + 1 * p.val, ha⟩ : Fin 50000) q := by
    funext d; apply Fin.ext
    match d with
    | ⟨0, _⟩ => rfl
    | ⟨1, _⟩ => show win11_3.index t (1 : Fin 2) * 128 + 1 * q.val = q.val; omega
  have hin0 : ((cfg11.win 0).blk t).view.emb (ix2 p q) = ix2 (⟨win11_3.index t (0 : Fin 2) * 2000 + 1 * p.val, ha⟩ : Fin 50000) q := by
    funext d; apply Fin.ext
    match d with
    | ⟨0, _⟩ => show win11_0.index t (0 : Fin 2) * 2000 + 1 * p.val = win11_3.index t (0 : Fin 2) * 2000 + 1 * p.val; omega
    | ⟨1, _⟩ => show win11_0.index t (1 : Fin 2) * 128 + 1 * q.val = q.val; omega
  have hin1 : ((cfg11.win 1).blk t).view.emb (ix2 (0 : Fin 1) q) = ix2 (0 : Fin 1) q := by
    funext d; apply Fin.ext
    match d with
    | ⟨0, _⟩ => show win11_1.index t (0 : Fin 2) * 1 + 1 * 0 = 0; omega
    | ⟨1, _⟩ => show win11_1.index t (1 : Fin 2) * 128 + 1 * q.val = q.val; omega
  have hin2 : ((cfg11.win 2).blk t).view.emb (ix2 p q) = ix2 (⟨win11_3.index t (0 : Fin 2) * 2000 + 1 * p.val, ha⟩ : Fin 50000) q := by
    funext d; apply Fin.ext
    match d with
    | ⟨0, _⟩ => show win11_2.index t (0 : Fin 2) * 2000 + 1 * p.val = win11_3.index t (0 : Fin 2) * 2000 + 1 * p.val; omega
    | ⟨1, _⟩ => show win11_2.index t (1 : Fin 2) * 128 + 1 * q.val = q.val; omega
  show k11_pay1 (F := Ideal) (iblk11 V c 0 t) (iblk11 V c 1 t) (iblk11 V c 2 t) (ix2 p q)
    = post11 (V c (Pipeline.arrRef spec11 0)) (V c (Pipeline.arrRef spec11 1)) (V c (Pipeline.arrRef spec11 2)) (((cfg11.win 3).blk t).view.emb (ix2 p q))
  rw [hout]
  refine pay11_entry _ _ _ _ _ _ p q _ ?_ ?_ ?_
  · show V c (Pipeline.arrRef spec11 0) (((cfg11.win 0).blk t).view.emb (ix2 p q)) = _
    rw [hin0]
  · show V c (Pipeline.arrRef spec11 1) (((cfg11.win 1).blk t).view.emb (ix2 (0 : Fin 1) q)) = _
    rw [hin1]
  · show V c (Pipeline.arrRef spec11 2) (((cfg11.win 2).blk t).view.emb (ix2 p q)) = _
    rw [hin2]

/-- An index of the output array is in point t's block iff each coordinate is in the block's range on its axis. -/
theorem mem_blk11 (t : Fin cfg11.N) (i : S50000x128.Idx) :
    i ∈ ((cfg11.win 3).blk t).view.set ↔ ∀ a : Fin 2, win11_3.index t a * S2000x128.size a ≤ (i a).val ∧ (i a).val < win11_3.index t a * S2000x128.size a + S2000x128.size a := by
  show i ∈ ((View.whole main_v129).slice (win11_3.rect t)).set ↔ _
  rw [View.set_slice_whole, Rect.mem_set_unit]
  exact Iff.rfl

/-- The row blocks cover the output array: row r lies in block r / 2000. -/
theorem cover11 (i : S50000x128.Idx) : ∃ t : Fin cfg11.N, (cfg11.win 3).flush t = true ∧ i ∈ ((cfg11.win 3).blk t).view.set := by
  have hi0 : (i 0).val < 50000 := (i 0).isLt
  have hi1 : (i 1).val < 128 := (i 1).isLt
  obtain ⟨t, ht0, ht1⟩ := idx_onto11 ⟨(i 0).val / 2000, by omega⟩
  refine ⟨t, flush11_3 t, ?_⟩
  rw [mem_blk11]
  intro a
  match a with
  | ⟨0, _⟩ => show win11_3.index t (0 : Fin 2) * 2000 ≤ (i 0).val ∧ (i 0).val < win11_3.index t (0 : Fin 2) * 2000 + 2000; simp only [] at ht0; omega
  | ⟨1, _⟩ => show win11_3.index t (1 : Fin 2) * 128 ≤ (i 1).val ∧ (i 1).val < win11_3.index t (1 : Fin 2) * 128 + 128; omega

/-- After the region the output array holds the stage's function of the arrays as the region finds them. -/
theorem region11 (c : Dev nD) :
    (dat11 V c).arrAt 3 cfg11.N = post11 (V c (Pipeline.arrRef spec11 0)) (V c (Pipeline.arrRef spec11 1)) (V c (Pipeline.arrRef spec11 2)) :=
  (dat11 V c).arrAt_eq_of_cover 3 _ (fun t _ => flushed11_eq V c t) (cover11)

end Cert.KernelIdeal.RegVal
-- ==== Proof.WalkC.lean ====
/-
  The kernel program's buffers followed through the fourth layer's output, the fifth layer and the decoder
  (segment boundaries 12 to 19), ending at the two result arrays: the reconstruction and the latent code, each the
  reference's own function of the fourteen argument arrays.
-/
import proofs.«104783_j47433618817228_1_alg».proof.Proof.WalkB
import proofs.«104783_j47433618817228_1_alg».proof.Proof.Region7
import proofs.«104783_j47433618817228_1_alg».proof.Proof.Region8
import proofs.«104783_j47433618817228_1_alg».proof.Proof.Region9
import proofs.«104783_j47433618817228_1_alg».proof.Proof.Region10
import proofs.«104783_j47433618817228_1_alg».proof.Proof.Region11
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Boundary 12: after the host operations before region 7 -/

theorem at12_arg0 : W12 m ρ c (Proc.devRef .tc main_arg0) = m ((c : Thread nD τ).loc main_arg0) :=
  (by after_results_simp : StableHlo.after hostOps7 (W11 m ρ c) (Proc.devRef .tc main_arg0) = W11 m ρ c (Proc.devRef .tc main_arg0)).trans (at11_arg0 m ρ c)

theorem at12_arg13 : W12 m ρ c (Proc.devRef .tc main_arg13) = m ((c : Thread nD τ).loc main_arg13) :=
  (by after_results_simp : StableHlo.after hostOps7 (W11 m ρ c) (Proc.devRef .tc main_arg13) = W11 m ρ c (Proc.devRef .tc main_arg13)).trans (at11_arg13 m ρ c)

theorem at12_arg12 : W12 m ρ c (Proc.devRef .tc main_arg12) = m ((c : Thread nD τ).loc main_arg12) :=
  (by after_results_simp : StableHlo.after hostOps7 (W11 m ρ c) (Proc.devRef .tc main_arg12) = W11 m ρ c (Proc.devRef .tc main_arg12)).trans (at11_arg12 m ρ c)

theorem at12_v1 : W12 m ρ c (Proc.devRef .tc main_v1) = Cert.ReferenceIdeal.ReadP.val_main_v1 (F := Ideal) (m ((c : Thread nD τ).loc main_arg1)) :=
  (by after_results_simp : StableHlo.after hostOps7 (W11 m ρ c) (Proc.devRef .tc main_v1) = W11 m ρ c (Proc.devRef .tc main_v1)).trans (at11_v1 m ρ c)

theorem at12_v25 : W12 m ρ c (Proc.devRef .tc main_v25) = Cert.ReferenceIdeal.ReadP.val_main_v26 (F := Ideal) (m ((c : Thread nD τ).loc main_arg1)) :=
  (by after_results_simp : StableHlo.after hostOps7 (W11 m ρ c) (Proc.devRef .tc main_v25) = W11 m ρ c (Proc.devRef .tc main_v25)).trans (at11_v25 m ρ c)

theorem at12_v3 : W12 m ρ c (Proc.devRef .tc main_v3) = Cert.ReferenceIdeal.ReadP.val_main_v3 (F := Ideal) (m ((c : Thread nD τ).loc main_arg1)) :=
  (by after_results_simp : StableHlo.after hostOps7 (W11 m ρ c) (Proc.devRef .tc main_v3) = W11 m ρ c (Proc.devRef .tc main_v3)).trans (at11_v3 m ρ c)

theorem at12_v26 : W12 m ρ c (Proc.devRef .tc main_v26) = Cert.ReferenceIdeal.ReadP.val_main_v40 (F := Ideal) (m ((c : Thread nD τ).loc main_arg1)) :=
  (by after_results_simp : StableHlo.after hostOps7 (W11 m ρ c) (Proc.devRef .tc main_v26) = W11 m ρ c (Proc.devRef .tc main_v26)).trans (at11_v26 m ρ c)

theorem at12_arg11 : W12 m ρ c (Proc.devRef .tc main_arg11) = m ((c : Thread nD τ).loc main_arg11) :=
  (by after_results_simp : StableHlo.after hostOps7 (W11 m ρ c) (Proc.devRef .tc main_arg11) = W11 m ρ c (Proc.devRef .tc main_arg11)).trans (at11_arg11 m ρ c)

theorem at12_arg10 : W12 m ρ c (Proc.devRef .tc main_arg10) = m ((c : Thread nD τ).loc main_arg10) :=
  (by after_results_simp : StableHlo.after hostOps7 (W11 m ρ c) (Proc.devRef .tc main_arg10) = W11 m ρ c (Proc.devRef .tc main_arg10)).trans (at11_arg10 m ρ c)

/-- Written by the host operations between the regions. -/
theorem at12_v104 : W12 m ρ c (Proc.devRef .tc main_v104) = Cert.ReferenceIdeal.ReadP.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps7 (W11 m ρ c) (Proc.devRef .tc main_v104) = _
  after_results_simp
  simp only [at11_v1 m ρ c, at11_v87 m ρ c, at11_v25 m ρ c, at11_v3 m ρ c, at11_v26 m ρ c]
  rfl

/-- Written by the host operations between the regions. -/
theorem at12_v105 : W12 m ρ c (Proc.devRef .tc main_v105) = Cert.ReferenceIdeal.ReadP.val_main_v193 (F := Ideal) (m ((c : Thread nD τ).loc main_arg9)) := by
  show StableHlo.after hostOps7 (W11 m ρ c) (Proc.devRef .tc main_v105) = _
  after_results_simp
  simp only [at11_arg9 m ρ c]
  exact Cert.LibRow.reshape_row_eq_broadcast _ _ _

/-! ## Boundary 13: after region 7 -/

/-- Region 7's output array after the region. -/
theorem at13_v106 : W13 m ρ c (Proc.devRef .tc main_v106) = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W13_arr m ρ c 2).trans ((RegVal.region7 (V12 m ρ) c).trans ?_)
  show RegVal.post7 (W12 m ρ c (Proc.devRef .tc main_v104)) (W12 m ρ c (Proc.devRef .tc main_v105)) = _
  rw [at12_v104 m ρ c, at12_v105 m ρ c]
  rfl

theorem at13_arg0 : W13 m ρ c (Proc.devRef .tc main_arg0) = m ((c : Thread nD τ).loc main_arg0) :=
  (W13_of_ne m ρ c main_arg0 (by decide)).trans (at12_arg0 m ρ c)

theorem at13_arg13 : W13 m ρ c (Proc.devRef .tc main_arg13) = m ((c : Thread nD τ).loc main_arg13) :=
  (W13_of_ne m ρ c main_arg13 (by decide)).trans (at12_arg13 m ρ c)

theorem at13_arg12 : W13 m ρ c (Proc.devRef .tc main_arg12) = m ((c : Thread nD τ).loc main_arg12) :=
  (W13_of_ne m ρ c main_arg12 (by decide)).trans (at12_arg12 m ρ c)

theorem at13_v1 : W13 m ρ c (Proc.devRef .tc main_v1) = Cert.ReferenceIdeal.ReadP.val_main_v1 (F := Ideal) (m ((c : Thread nD τ).loc main_arg1)) :=
  (W13_of_ne m ρ c main_v1 (by decide)).trans (at12_v1 m ρ c)

theorem at13_v25 : W13 m ρ c (Proc.devRef .tc main_v25) = Cert.ReferenceIdeal.ReadP.val_main_v26 (F := Ideal) (m ((c : Thread nD τ).loc main_arg1)) :=
  (W13_of_ne m ρ c main_v25 (by decide)).trans (at12_v25 m ρ c)

theorem at13_v3 : W13 m ρ c (Proc.devRef .tc main_v3) = Cert.ReferenceIdeal.ReadP.val_main_v3 (F := Ideal) (m ((c : Thread nD τ).loc main_arg1)) :=
  (W13_of_ne m ρ c main_v3 (by decide)).trans (at12_v3 m ρ c)

theorem at13_v26 : W13 m ρ c (Proc.devRef .tc main_v26) = Cert.ReferenceIdeal.ReadP.val_main_v40 (F := Ideal) (m ((c : Thread nD τ).loc main_arg1)) :=
  (W13_of_ne m ρ c main_v26 (by decide)).trans (at12_v26 m ρ c)

theorem at13_arg11 : W13 m ρ c (Proc.devRef .tc main_arg11) = m ((c : Thread nD τ).loc main_arg11) :=
  (W13_of_ne m ρ c main_arg11 (by decide)).trans (at12_arg11 m ρ c)

theorem at13_arg10 : W13 m ρ c (Proc.devRef .tc main_arg10) = m ((c : Thread nD τ).loc main_arg10) :=
  (W13_of_ne m ρ c main_arg10 (by decide)).trans (at12_arg10 m ρ c)

/-! ## Boundary 14: after region 8 -/

theorem at14_v106 : W14 m ρ c (Proc.devRef .tc main_v106) = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W14_arr m ρ c 0).trans (((dat8 (V13 m ρ) c).arrAt_in 0 rfl _).trans ((A_eq8 (V13 m ρ) c 0).trans (at13_v106 m ρ c)))

theorem at14_arg0 : W14 m ρ c (Proc.devRef .tc main_arg0) = m ((c : Thread nD τ).loc main_arg0) :=
  (W14_of_ne m ρ c main_arg0 (by decide)).trans (at13_arg0 m ρ c)

theorem at14_arg13 : W14 m ρ c (Proc.devRef .tc main_arg13) = m ((c : Thread nD τ).loc main_arg13) :=
  (W14_of_ne m ρ c main_arg13 (by decide)).trans (at13_arg13 m ρ c)

theorem at14_arg12 : W14 m ρ c (Proc.devRef .tc main_arg12) = m ((c : Thread nD τ).loc main_arg12) :=
  (W14_of_ne m ρ c main_arg12 (by decide)).trans (at13_arg12 m ρ c)

theorem at14_v1 : W14 m ρ c (Proc.devRef .tc main_v1) = Cert.ReferenceIdeal.ReadP.val_main_v1 (F := Ideal) (m ((c : Thread nD τ).loc main_arg1)) :=
  (W14_of_ne m ρ c main_v1 (by decide)).trans (at13_v1 m ρ c)

/-- Region 8's output array after the region. -/
theorem at14_v107 : W14 m ρ c (Proc.devRef .tc main_v107) = Cert.ReferenceIdeal.ReadP.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 2).trans ((RegVal.region8 (V13 m ρ) c).trans ?_)
  show RegVal.prod8 (W13 m ρ c (Proc.devRef .tc main_v106)) (W13 m ρ c (Proc.devRef .tc main_arg10)) = _
  rw [at13_v106 m ρ c, at13_arg10 m ρ c]
  rfl

theorem at14_v25 : W14 m ρ c (Proc.devRef .tc main_v25) = Cert.ReferenceIdeal.ReadP.val_main_v26 (F := Ideal) (m ((c : Thread nD τ).loc main_arg1)) :=
  (W14_of_ne m ρ c main_v25 (by decide)).trans (at13_v25 m ρ c)

theorem at14_v3 : W14 m ρ c (Proc.devRef .tc main_v3) = Cert.ReferenceIdeal.ReadP.val_main_v3 (F := Ideal) (m ((c : Thread nD τ).loc main_arg1)) :=
  (W14_of_ne m ρ c main_v3 (by decide)).trans (at13_v3 m ρ c)

theorem at14_v26 : W14 m ρ c (Proc.devRef .tc main_v26) = Cert.ReferenceIdeal.ReadP.val_main_v40 (F := Ideal) (m ((c : Thread nD τ).loc main_arg1)) :=
  (W14_of_ne m ρ c main_v26 (by decide)).trans (at13_v26 m ρ c)

theorem at14_arg11 : W14 m ρ c (Proc.devRef .tc main_arg11) = m ((c : Thread nD τ).loc main_arg11) :=
  (W14_of_ne m ρ c main_arg11 (by decide)).trans (at13_arg11 m ρ c)

/-! ## Boundary 15: after the host operations before region 9 -/

theorem at15_v106 : W15 m ρ c (Proc.devRef .tc main_v106) = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (by after_results_simp : StableHlo.after hostOps9 (W14 m ρ c) (Proc.devRef .tc main_v106) = W14 m ρ c (Proc.devRef .tc main_v106)).trans (at14_v106 m ρ c)

theorem at15_arg0 : W15 m ρ c (Proc.devRef .tc main_arg0) = m ((c : Thread nD τ).loc main_arg0) :=
  (by after_results_simp : StableHlo.after hostOps9 (W14 m ρ c) (Proc.devRef .tc main_arg0) = W14 m ρ c (Proc.devRef .tc main_arg0)).trans (at14_arg0 m ρ c)

theorem at15_arg13 : W15 m ρ c (Proc.devRef .tc main_arg13) = m ((c : Thread nD τ).loc main_arg13) :=
  (by after_results_simp : StableHlo.after hostOps9 (W14 m ρ c) (Proc.devRef .tc main_arg13) = W14 m ρ c (Proc.devRef .tc main_arg13)).trans (at14_arg13 m ρ c)

theorem at15_arg12 : W15 m ρ c (Proc.devRef .tc main_arg12) = m ((c : Thread nD τ).loc main_arg12) :=
  (by after_results_simp : StableHlo.after hostOps9 (W14 m ρ c) (Proc.devRef .tc main_arg12) = W14 m ρ c (Proc.devRef .tc main_arg12)).trans (at14_arg12 m ρ c)

/-- Written by the host operations between the regions. -/
theorem at15_v124 : W15 m ρ c (Proc.devRef .tc main_v124) = Cert.ReferenceIdeal.ReadP.val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps9 (W14 m ρ c) (Proc.devRef .tc main_v124) = _
  after_results_simp
  simp only [at14_v1 m ρ c, at14_v107 m ρ c, at14_v25 m ρ c, at14_v3 m ρ c, at14_v26 m ρ c]
  rfl

/-- Written by the host operations between the regions. -/
theorem at15_v125 : W15 m ρ c (Proc.devRef .tc main_v125) = Cert.ReferenceIdeal.ReadP.val_main_v237 (F := Ideal) (m ((c : Thread nD τ).loc main_arg11)) := by
  show StableHlo.after hostOps9 (W14 m ρ c) (Proc.devRef .tc main_v125) = _
  after_results_simp
  simp only [at14_arg11 m ρ c]
  exact Cert.LibRow.reshape_row_eq_broadcast _ _ _

/-! ## Boundary 16: after region 9 -/

theorem at16_v106 : W16 m ρ c (Proc.devRef .tc main_v106) = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W16_of_ne m ρ c main_v106 (by decide)).trans (at15_v106 m ρ c)

theorem at16_arg0 : W16 m ρ c (Proc.devRef .tc main_arg0) = m ((c : Thread nD τ).loc main_arg0) :=
  (W16_of_ne m ρ c main_arg0 (by decide)).trans (at15_arg0 m ρ c)

theorem at16_arg13 : W16 m ρ c (Proc.devRef .tc main_arg13) = m ((c : Thread nD τ).loc main_arg13) :=
  (W16_of_ne m ρ c main_arg13 (by decide)).trans (at15_arg13 m ρ c)

/-- Region 9's output array after the region. -/
theorem at16_v126 : W16 m ρ c (Proc.devRef .tc main_v126) = Cert.ReferenceIdeal.ReadP.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W16_arr m ρ c 2).trans ((RegVal.region9 (V15 m ρ) c).trans ?_)
  show RegVal.post9 (W15 m ρ c (Proc.devRef .tc main_v124)) (W15 m ρ c (Proc.devRef .tc main_v125)) = _
  rw [at15_v124 m ρ c, at15_v125 m ρ c]
  rfl

theorem at16_arg12 : W16 m ρ c (Proc.devRef .tc main_arg12) = m ((c : Thread nD τ).loc main_arg12) :=
  (W16_of_ne m ρ c main_arg12 (by decide)).trans (at15_arg12 m ρ c)

/-! ## Boundary 17: after region 10 -/

theorem at17_v106 : W17 m ρ c (Proc.devRef .tc main_v106) = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W17_of_ne m ρ c main_v106 (by decide)).trans (at16_v106 m ρ c)

/-- Region 10's output array after the region. -/
theorem at17_v127 : W17 m ρ c (Proc.devRef .tc main_v127) = Cert.ReferenceIdeal.ReadP.val_main_v245 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W17_arr m ρ c 2).trans ((RegVal.region10 (V16 m ρ) c).trans ?_)
  show RegVal.prod10 (W16 m ρ c (Proc.devRef .tc main_v126)) (W16 m ρ c (Proc.devRef .tc main_arg12)) = _
  rw [at16_v126 m ρ c, at16_arg12 m ρ c]
  rfl

theorem at17_arg0 : W17 m ρ c (Proc.devRef .tc main_arg0) = m ((c : Thread nD τ).loc main_arg0) :=
  (W17_of_ne m ρ c main_arg0 (by decide)).trans (at16_arg0 m ρ c)

theorem at17_arg13 : W17 m ρ c (Proc.devRef .tc main_arg13) = m ((c : Thread nD τ).loc main_arg13) :=
  (W17_of_ne m ρ c main_arg13 (by decide)).trans (at16_arg13 m ρ c)

/-! ## Boundary 18: after the host operations before region 11 -/

theorem at18_v106 : W18 m ρ c (Proc.devRef .tc main_v106) = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (by after_results_simp : StableHlo.after hostOps11 (W17 m ρ c) (Proc.devRef .tc main_v106) = W17 m ρ c (Proc.devRef .tc main_v106)).trans (at17_v106 m ρ c)

theorem at18_v127 : W18 m ρ c (Proc.devRef .tc main_v127) = Cert.ReferenceIdeal.ReadP.val_main_v245 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (by after_results_simp : StableHlo.after hostOps11 (W17 m ρ c) (Proc.devRef .tc main_v127) = W17 m ρ c (Proc.devRef .tc main_v127)).trans (at17_v127 m ρ c)

/-- Written by the host operations between the regions. -/
theorem at18_v128 : W18 m ρ c (Proc.devRef .tc main_v128) = Cert.ReferenceIdeal.ReadP.val_main_v246 (F := Ideal) (m ((c : Thread nD τ).loc main_arg13)) := by
  show StableHlo.after hostOps11 (W17 m ρ c) (Proc.devRef .tc main_v128) = _
  after_results_simp
  simp only [at17_arg13 m ρ c]
  exact Cert.LibRow.reshape_row_eq_broadcast _ _ _

theorem at18_arg0 : W18 m ρ c (Proc.devRef .tc main_arg0) = m ((c : Thread nD τ).loc main_arg0) :=
  (by after_results_simp : StableHlo.after hostOps11 (W17 m ρ c) (Proc.devRef .tc main_arg0) = W17 m ρ c (Proc.devRef .tc main_arg0)).trans (at17_arg0 m ρ c)

/-! ## Boundary 19: after region 11 -/

/-- Region 11's output array after the region. -/
theorem at19_v129 : W19 m ρ c (Proc.devRef .tc main_v129) = Cert.ReferenceIdeal.ReadP.val_main_v249 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W19_arr m ρ c 3).trans ((RegVal.region11 (V18 m ρ) c).trans ?_)
  show RegVal.post11 (W18 m ρ c (Proc.devRef .tc main_v127)) (W18 m ρ c (Proc.devRef .tc main_v128)) (W18 m ρ c (Proc.devRef .tc main_arg0)) = _
  rw [at18_v127 m ρ c, at18_v128 m ρ c, at18_arg0 m ρ c]
  rfl

theorem at19_v106 : W19 m ρ c (Proc.devRef .tc main_v106) = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W19_of_ne m ρ c main_v106 (by decide)).trans (at18_v106 m ρ c)

end Cert.KernelIdeal.Walk
-- ==== Proof.lean ====
/-
  The certificate of the five-layer graph-convolution autoencoder kernel against its jnp reference.

  Both programs compute, for node features x (50000 × 128), edges (src, dst) and weights W1…W5, Wd with biases,
  five graph convolutions  h ↦ segment_sum(h[src]·norm, dst) + h·dinv² + b  of h = (previous activation)·W, with
  norm = dinv[src]·dinv[dst] and dinv = rsqrt(in-degree + 1), a leaky rectifier after layers 1, 2, 3 and 5, a residual
  after layer 3, and the decoder (x5·Wd + bd) + x. The kernel computes each product h = a·W and each bias / rectifier /
  residual stage in a row-blocked region (25 blocks of 2000 rows) and leaves the gathers and scatter-adds to the host;
  the reference does everything on the host. At the ideal values a change of float format is the identity and a
  block product into a zero accumulator is the restriction of the whole product to the block's rows, so each region's
  output array is the reference's own stage of the same inputs, and the host operations between the regions are the
  reference's own operations: the two results are the same functions of the arguments. No law of arithmetic beyond
  reading a sum of products entry by entry is used, so the finiteness precondition is never opened.

  The two kernel frames are the generated ones; the reference's frame is its run with the results dropped; the ideal
  pass rewrote nothing, so `preserves` is trivial.
-/
import proofs.«104783_j47433618817228_1_alg».proof.Defs
import proofs.«104783_j47433618817228_1_alg».proof.Proof.Gen.Kernel
import proofs.«104783_j47433618817228_1_alg».proof.Proof.Gen.Kernel.Skeleton
import proofs.«104783_j47433618817228_1_alg».proof.Proof.Gen.Kernel.Launch
import proofs.«104783_j47433618817228_1_alg».proof.Proof.Gen.Kernel.Points
import proofs.«104783_j47433618817228_1_alg».proof.Proof.Gen.Kernel.Frame
import proofs.«104783_j47433618817228_1_alg».proof.Proof.Gen.KernelIdeal
import proofs.«104783_j47433618817228_1_alg».proof.Proof.Gen.KernelIdeal.Skeleton
import proofs.«104783_j47433618817228_1_alg».proof.Proof.Gen.KernelIdeal.Launch
import proofs.«104783_j47433618817228_1_alg».proof.Proof.Gen.KernelIdeal.Points
import proofs.«104783_j47433618817228_1_alg».proof.Proof.Gen.KernelIdeal.Frame
import proofs.«104783_j47433618817228_1_alg».proof.Proof.Gen.ReferenceIdeal
import proofs.«104783_j47433618817228_1_alg».proof.Proof.Gen.Pre_finite_inputs
import proofs.«104783_j47433618817228_1_alg».proof.Proof.RunP
import proofs.«104783_j47433618817228_1_alg».proof.Proof.RefWalk
import proofs.«104783_j47433618817228_1_alg».proof.Proof.KernelRun
import proofs.«104783_j47433618817228_1_alg».proof.Proof.WalkC
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The reference's first result, from a memory that agrees with the kernel's on the arguments, is what the kernel
    leaves in its first result buffer (the reconstruction): both are the reference's last stage of the arguments. -/
theorem result0_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    after Cert.ReferenceIdeal.ValueP.ops (launchContents m' c) (Proc.devRef .tc Cert.ReferenceIdeal.main_v249)
      = Cert.KernelIdeal.Gen.W19 m ρ c (Proc.devRef .tc Cert.KernelIdeal.main_v129) := by
  refine (congrFun (Cert.ReferenceIdeal.WalkR.after_ops m' c) _).trans ((Cert.ReferenceIdeal.WalkR.r10_v249 m' c).trans ?_)
  rw [h0, h1, h2, h3, h4, h5, h6, h7, h8, h9, h10, h11, h12, h13]
  exact (Cert.KernelIdeal.Walk.at19_v129 m ρ c).symm

/-- The same for the second result (the latent code). -/
theorem result1_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    after Cert.ReferenceIdeal.ValueP.ops (launchContents m' c) (Proc.devRef .tc Cert.ReferenceIdeal.main_v195)
      = Cert.KernelIdeal.Gen.W19 m ρ c (Proc.devRef .tc Cert.KernelIdeal.main_v106) := by
  refine (congrFun (Cert.ReferenceIdeal.WalkR.after_ops m' c) _).trans ((Cert.ReferenceIdeal.WalkR.r10_v195 m' c).trans ?_)
  rw [h0, h1, h2, h3, h4, h5, h6, h7, h8, h9]
  exact (Cert.KernelIdeal.Walk.at19_v106 m ρ c).symm

/-- Both programs run, and their results are equal as extended reals: the kernel's run ends with its result buffers
    at the last boundary's contents, the reference's run with its results at its composed term, and the two are the
    same functions of arguments that agree. -/
theorem algebraic : Cert.algebraic_KernelIdeal_ReferenceIdeal := by
  intro m ρ m' ρ' _ hagree
  refine ⟨fun c => Cert.KernelIdeal.Gen.W19 m ρ c (Proc.devRef .tc Cert.KernelIdeal.main_v129),
    fun c => Cert.KernelIdeal.Gen.W19 m ρ c (Proc.devRef .tc Cert.KernelIdeal.main_v106),
    Cert.KernelIdeal.RunVal.run_named (F := Ideal) m ρ, ?_⟩
  refine (θ_run Cert.ReferenceIdeal.defs _ _).mono (fun _ h c => ?_) (Cert.ReferenceIdeal.ValueP.run (F := Ideal) m' ρ')
  obtain ⟨h0, h1, h2, h3, h4, h5, h6, h7, h8, h9, h10, h11, h12, h13⟩ := hagree c
  exact ⟨(h c).1.trans (result0_eq m ρ m' c h0 h1 h2 h3 h4 h5 h6 h7 h8 h9 h10 h11 h12 h13),
    (h c).2.1.trans (result1_eq m ρ m' c h0 h1 h2 h3 h4 h5 h6 h7 h8 h9), (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
